-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x1 .f32) (main_arg2 : FVec F S128x128 .f32) (main_arg3 : FVec F S128x128 .f32) (main_arg4 : FVec F S128x128 .f32) (main_arg5 : FVec F S128 .f32) (main_arg6 : FVec F S128 .f32) (main_arg7 : FVec F S128 .f32) (main_arg8 : IVec S800000 32) (main_arg9 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 64
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S128, .f32⟩
  | .hbm, ⟨62, _⟩ => ⟨S128, .f32⟩
  | .hbm, ⟨63, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_v36_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v48 : BitVec 1 := Scalar.cmpi .eq arg0 c24_i32
  let v49 : BitVec 32 := Scalar.extui v48
  let c0_i32_30 : BitVec 32 := 0#32
  let v50 : BitVec 1 := Scalar.cmpi .ne v49 c0_i32_30
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  reduces_S2000x128_S128 : S2000x128.Reduces [0] S128
  shapeCasts_S1x128_S128 : S1x128.ShapeCasts S128
  shapeCasts_S128_S128 : S128.ShapeCasts S128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v36_1) S1x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36_2) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v36_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Norm.lean ====
import proofs.«158637_j65919158059656_1_alg».proof.Proof.Gen.Kernel.Launch
import proofs.«158637_j65919158059656_1_alg».proof.Proof.Gen.Kernel.Skeleton
import proofs.«158637_j65919158059656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Norm
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The second pipeline (normalise, ReLU, residual), at the contents `V` it is entered with -/

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: a window not
    fetched at a point has the block index of the point before, so its buffer still holds this point's block. The
    four row windows (2..5) have a constant index and are fetched once; the two tile windows (0, 1) at every point. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 2000x128 tile, and the whole 128 row. -/
abbrev rT : Rect S2000x128 := Rect.unit (s := S2000x128) ![0, 0] S2000x128.size inb_S2000x128_S2000x128_0_0
abbrev rR : Rect S128 := Rect.unit (s := S128) ![0] S128.size inb_S128_S128_0

/-! ## What the body leaves in the output window's buffer -/

/-- Window 6's staging buffer after the body, from the six input blocks: its one store of the whole tile, the payload
    over what the loads read (h, mean, var, gamma, beta, then the residual). -/
def out6 (x0 x1 : Vec F S2000x128 .f32) (x2 x3 x4 x5 : Vec F S128 .f32) : Vec F S2000x128 .f32 :=
  View.canon [⟨rT, k1_pay1 (View.ld x0 rT) (View.ld x2 rR) (View.ld x3 rR) (View.ld x4 rR) (View.ld x5 rR) (View.ld x1 rT)⟩]

/-- The one store tiles the buffer, so it covers it. -/
theorem cover6 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

/-! ## The body's triple -/

set_option maxHeartbeats 1000000 in
/-- The kernel body on whole staging memrefs, the inputs' at read contents `xW` and the output's at anything, runs to
    the continuation holding the inputs' as they were and the output's at `out6` of the inputs'. -/
theorem sound_kernel (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S2000x128 .f32) (harg7 : arg7.IsWhole)
    (x0 x1 : Vec F S2000x128 .f32) (x2 x3 x4 x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc1__norm_relu_residual_kernel i arg1 harg1 arg2 harg2 arg3 harg3 arg4 harg4 arg5 harg5 arg6 harg6 arg7 harg7) K := by
  simp only [cc1__norm_relu_residual_kernel_eq_skeleton]; unfold cc1__norm_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the pipeline on core `c`: the arrays as the region finds them (`V`); after the body at point `t`
    each input's buffer at its block and the output's at `out6` of the input blocks; the class's invariant (the scoped
    rest and the generator register, untouched); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = out6 (iblk V c 0 t) (iblk V c 1 t) (iblk V c 2 t) (iblk V c 3 t) (iblk V c 4 t) (iblk V c 5 t) := by dsimp only [dat]

/-- Each input's current staging buffer holds its block at every point, fetched there or not. -/
theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' memrefs hold their blocks, so `sound_kernel` applies; the invariant and the
    core's obligations pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Norm

end
-- ==== Proof.K.CombineDefs.lean ====
import proofs.«158637_j65919158059656_1_alg».proof.Proof.Gen.Kernel.Launch
import proofs.«158637_j65919158059656_1_alg».proof.Proof.Gen.Kernel.Skeleton
import proofs.«158637_j65919158059656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
set_option maxRecDepth 16384
noncomputable section
namespace Cert.Kernel.Combine
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 0: what its body's runs share

Every load and store of the body is of a WHOLE buffer: through the unit rectangle at zero offsets of the buffer's own
sizes. The body branches twice on the grid coordinate: the two scratch rows are reset at the first point, the two
statistics are stored at the last point. -/

/-- The whole-buffer rectangles of the body's accesses, one per shape. -/
abbrev rW : Rect S2000x128 := Rect.unit (s := S2000x128) ![0, 0] S2000x128.size inb_S2000x128_S2000x128_0_0
abbrev rM : Rect S128x128 := Rect.unit (s := S128x128) ![0, 0] S128x128.size inb_S128x128_S128x128_0_0
abbrev rB : Rect S128 := Rect.unit (s := S128) ![0] S128.size inb_S128_S128_0
abbrev rN : Rect S2000x1 := Rect.unit (s := S2000x1) ![0, 0] S2000x1.size inb_S2000x1_S2000x1_0_0
abbrev rS : Rect S1x128 := Rect.unit (s := S1x128) ![0, 0] S1x128.size inb_S1x128_S1x128_0_0

/-- The literal zero offsets are the zero function. -/
theorem zeros1 : (![0] : Fin 1 → ℕ) = fun _ => 0 := by
  funext a; fin_cases a; rfl
theorem zeros2 : (![0, 0] : Fin 2 → ℕ) = fun _ => 0 := by
  funext a; fin_cases a <;> rfl

/-! ## Loads and stores of whole buffers -/

section Whole

variable {κ : Kind} {sp : Space} {S : Shape} {e : EltTy} {Val : EltTy → Type}

/-- A load through the whole-shape rectangle at zero offsets reads the buffer's contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- After a store through it, LAST, the buffer reads the store's payload, whatever the earlier stores were. -/
theorem read_writes_unit_zero [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The same at each of the body's five rectangles. -/
theorem readAt_rW (v : View sig κ sp S2000x128 .f32) (f : v.ty.Contents Val) : v.readAt Val rW.toLoadRect f = v.read Val f :=
  readAt_unit_zero v f zeros2 _
theorem readAt_rM (v : View sig κ sp S128x128 .f32) (f : v.ty.Contents Val) : v.readAt Val rM.toLoadRect f = v.read Val f :=
  readAt_unit_zero v f zeros2 _
theorem readAt_rB (v : View sig κ sp S128 .f32) (f : v.ty.Contents Val) : v.readAt Val rB.toLoadRect f = v.read Val f :=
  readAt_unit_zero v f zeros1 _
theorem readAt_rN (v : View sig κ sp S2000x1 .f32) (f : v.ty.Contents Val) : v.readAt Val rN.toLoadRect f = v.read Val f :=
  readAt_unit_zero v f zeros2 _
theorem readAt_rS (v : View sig κ sp S1x128 .f32) (f : v.ty.Contents Val) : v.readAt Val rS.toLoadRect f = v.read Val f :=
  readAt_unit_zero v f zeros2 _
theorem read_writes_rW [∀ e, Nonempty (Val e)] (v : View sig κ sp S2000x128 .f32) (f : v.ty.Contents Val)
    (w : S2000x128.Idx → Val .f32) (L : List (View.Piece Val S2000x128 .f32)) :
    v.read Val (v.writes Val f ((⟨rW, w⟩ : View.Piece Val S2000x128 .f32) :: L)) = w :=
  read_writes_unit_zero v f zeros2 _ w L
theorem read_writes_rS [∀ e, Nonempty (Val e)] (v : View sig κ sp S1x128 .f32) (f : v.ty.Contents Val)
    (w : S1x128.Idx → Val .f32) (L : List (View.Piece Val S1x128 .f32)) :
    v.read Val (v.writes Val f ((⟨rS, w⟩ : View.Piece Val S1x128 .f32) :: L)) = w :=
  read_writes_unit_zero v f zeros2 _ w L
/-- A load of a scratch row after ONE store into it reads the store's payload. -/
theorem readCov_rS [∀ e, Nonempty (Val e)] (v : View sig κ sp S1x128 .f32) (w : S1x128.Idx → Val .f32) :
    v.readCov [(⟨rS, w⟩ : View.Piece Val S1x128 .f32)] rS.toLoadRect = w :=
  View.readCov_unit_zero v zeros2 _ w

end Whole

/-! ## The body's two branch conditions, in closed form over the grid -/

/-- The condition of the reset of the scratch rows: the scalar chain of the body's first conditional. -/
abbrev cond1 (i : grid0.Coords) : Prop :=
  (Scalar.cmpi .ne (Scalar.extui (Scalar.cmpi .eq (BitVec.ofNat 32 (i 0).val) 0#32)) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The condition under which the two statistics are stored. -/
abbrev cond2 (i : grid0.Coords) : Prop := k0_cond2 i = 1#1
/-- It holds at the last point only. -/
theorem hcond2 : ∀ t : Fin cfg0.N, cond2 (grid0.coords t) ↔ t.val = 24 :=
  (by decide +kernel : ∀ t : Fin grid0.N, cond2 (grid0.coords t) ↔ t.val = 24)

/-! ## Where the windows are idle -/

/-- Before the last point the two statistics' windows are idle and are not written back. -/
theorem idle9 : ∀ t : Fin cfg0.N, ¬cond2 (grid0.coords t) → cfg0.idle 9 (grid0.coords t) = true := by decide +kernel
theorem idle10 : ∀ t : Fin cfg0.N, ¬cond2 (grid0.coords t) → cfg0.idle 10 (grid0.coords t) = true := by decide +kernel
theorem noFlush9 : ∀ t : Fin cfg0.N, ¬cond2 (grid0.coords t) → (cfg0.win 9).flush t = false := by decide +kernel
theorem noFlush10 : ∀ t : Fin cfg0.N, ¬cond2 (grid0.coords t) → (cfg0.win 10).flush t = false := by decide +kernel
/-- At the last point they are live. -/
theorem live9 : ∀ t : Fin cfg0.N, cond2 (grid0.coords t) → cfg0.idle 9 (grid0.coords t) = false := by decide +kernel
theorem live10 : ∀ t : Fin cfg0.N, cond2 (grid0.coords t) → cfg0.idle 10 (grid0.coords t) = false := by decide +kernel

/-! ## The scratch rows as memrefs -/

abbrev scM0 : Memref sig .tc .vmem S1x128 .f32 := Memref.whole cc0_scratch0
abbrev scM1 : Memref sig .tc .vmem S1x128 .f32 := Memref.whole cc0_scratch1

/-! ## What the body computes at a point, as functions of the buffers' contents -/

/-- The block the body stores into the first output: the combine payload of the eight input buffers. -/
def hOf (x0 x1 x2 : Vec F S2000x128 .f32) (x3 : Vec F S2000x1 .f32) (x4 x5 x6 : Vec F S128x128 .f32)
    (x7 : Vec F S128 .f32) : Vec F S2000x128 .f32 :=
  k0_pay7 x0 x1 x2 x4 x5 x6 x7 x3

end Cert.Kernel.Combine
end
-- ==== Proof.K.CombineRunMid.lean ====
import proofs.«158637_j65919158059656_1_alg».proof.Proof.K.CombineDefs
set_option maxRecDepth 16384
noncomputable section
namespace Cert.Kernel.Combine
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at a MIDDLE point (no reset, no statistics stored): on whole buffers — the inputs' at their contents, the first output's at anything, the two statistics' at `y9`, `y10`, the two scratch rows at `s`, `q` — it leaves the inputs as they were, the first output at the combine payload `hOf`, the statistics' buffers untouched, and the scratch rows at `s` plus the block's column sums and `q` plus the column sums of its squares. -/
theorem run_mid (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : ¬cond1 i) (hc2 : ¬cond2 i) (x0 x1 x2 : Vec F S2000x128 .f32) (x3 : Vec F S2000x1 .f32) (x4 x5 x6 : Vec F S128x128 .f32) (x7 : Vec F S128 .f32) (y9 y10 s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare y9 ∗ owns (c : Thread nD τ) arg11 fullShare y10
        ∗ owns (c : Thread nD τ) arg12 fullShare s ∗ owns (c : Thread nD τ) arg13 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare y9 ∗ owns (c : Thread nD τ) arg11 fullShare y10
            ∗ owns (c : Thread nD τ) arg12 fullShare (k0_pay1 (hOf x0 x1 x2 x3 x4 x5 x6 x7) s) ∗ owns (c : Thread nD τ) arg13 fullShare (k0_pay2 (hOf x0 x1 x2 x3 x4 x5 x6 x7) q)) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs, %hfs, HS⟩, ⟨%fq, %hfq, HQ⟩, Hk⟩
  subst hf0 hf1 hf2 hf3 hf4 hf5 hf6 hf7 hfs hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_mid.sl.v51)
    (try delta run_mid.sl.v54)
    (try delta run_mid.sl.v33)
    (try delta run_mid.sl.v40)
    (try delta run_mid.sl.HS_1)
    (try delta run_mid.sl.HQ_1)
    (try delta run_mid.sl.r)
    rw [read_writes_rW]
    unfold hOf
    repeat (first | rw [readAt_rW] | rw [readAt_rM] | rw [readAt_rB] | rw [readAt_rN] | rw [readAt_rS] | rw [readCov_rS])
    try rfl
  isplitl [H9]
  · iexists f9; isplitr; · ipureintro; exact hf9
    iexact H9
  isplitl [H10]
  · iexists f10; isplitr; · ipureintro; exact hf10
    iexact H10
  isplitl [HS]
  · iexists _; isplitr
    swap; · iexact HS
    ipureintro
    (try delta run_mid.sl.v51)
    (try delta run_mid.sl.v54)
    (try delta run_mid.sl.v33)
    (try delta run_mid.sl.v40)
    (try delta run_mid.sl.HS_1)
    (try delta run_mid.sl.HQ_1)
    (try delta run_mid.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_mid.sl.v51)
  (try delta run_mid.sl.v54)
  (try delta run_mid.sl.v33)
  (try delta run_mid.sl.v40)
  (try delta run_mid.sl.HS_1)
  (try delta run_mid.sl.HQ_1)
  (try delta run_mid.sl.r)
  rw [read_writes_rS]
  unfold hOf
  repeat (first | rw [readAt_rW] | rw [readAt_rM] | rw [readAt_rB] | rw [readAt_rN] | rw [readAt_rS] | rw [readCov_rS])
  try rfl

end Cert.Kernel.Combine
end
-- ==== Proof.K.CombineRunFirst.lean ====
import proofs.«158637_j65919158059656_1_alg».proof.Proof.K.CombineRunMid
set_option maxRecDepth 16384
noncomputable section
namespace Cert.Kernel.Combine
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at the FIRST point (the scratch rows reset, no statistics stored): the scratch rows, at anything, are left at the zero row plus the block's column sums and the zero row plus the column sums of its squares; the rest as at a middle point. -/
theorem run_first (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : cond1 i) (hc2 : ¬cond2 i) (x0 x1 x2 : Vec F S2000x128 .f32) (x3 : Vec F S2000x1 .f32) (x4 x5 x6 : Vec F S128x128 .f32) (x7 : Vec F S128 .f32) (y9 y10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare y9 ∗ owns (c : Thread nD τ) arg11 fullShare y10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare y9 ∗ owns (c : Thread nD τ) arg11 fullShare y10
            ∗ owns (c : Thread nD τ) arg12 fullShare (k0_pay1 (hOf x0 x1 x2 x3 x4 x5 x6 x7) (k0_pay5 (F := F))) ∗ owns (c : Thread nD τ) arg13 fullShare (k0_pay2 (hOf x0 x1 x2 x3 x4 x5 x6 x7) (k0_pay6 (F := F)))) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds, %fs, -, HS⟩, ⟨%dq, %fq, -, HQ⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_first.sl.v51)
    (try delta run_first.sl.v54)
    (try delta run_first.sl.v33)
    (try delta run_first.sl.v40)
    (try delta run_first.sl.HS_1)
    (try delta run_first.sl.HQ_1)
    (try delta run_first.sl.r)
    rw [read_writes_rW]
    unfold hOf
    repeat (first | rw [readAt_rW] | rw [readAt_rM] | rw [readAt_rB] | rw [readAt_rN] | rw [readAt_rS] | rw [readCov_rS])
    try rfl
  isplitl [H9]
  · iexists f9; isplitr; · ipureintro; exact hf9
    iexact H9
  isplitl [H10]
  · iexists f10; isplitr; · ipureintro; exact hf10
    iexact H10
  isplitl [HS]
  · iexists _; isplitr
    swap; · iexact HS
    ipureintro
    (try delta run_first.sl.v51)
    (try delta run_first.sl.v54)
    (try delta run_first.sl.v33)
    (try delta run_first.sl.v40)
    (try delta run_first.sl.HS_1)
    (try delta run_first.sl.HQ_1)
    (try delta run_first.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_first.sl.v51)
  (try delta run_first.sl.v54)
  (try delta run_first.sl.v33)
  (try delta run_first.sl.v40)
  (try delta run_first.sl.HS_1)
  (try delta run_first.sl.HQ_1)
  (try delta run_first.sl.r)
  rw [read_writes_rS]
  unfold hOf
  repeat (first | rw [readAt_rW] | rw [readAt_rM] | rw [readAt_rB] | rw [readAt_rN] | rw [readAt_rS] | rw [readCov_rS])
  try rfl

end Cert.Kernel.Combine
end
-- ==== Proof.K.CombineRunLast.lean ====
import proofs.«158637_j65919158059656_1_alg».proof.Proof.K.CombineRunFirst
set_option maxRecDepth 16384
noncomputable section
namespace Cert.Kernel.Combine
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at the LAST point (no reset, the statistics stored): as at a middle point, and the two statistics' buffers, at anything, are left at the mean payload of the new first scratch row and the variance payload of the two new scratch rows. -/
theorem run_last (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : ¬cond1 i) (hc2 : cond2 i) (x0 x1 x2 : Vec F S2000x128 .f32) (x3 : Vec F S2000x1 .f32) (x4 x5 x6 : Vec F S128x128 .f32) (x7 : Vec F S128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s ∗ owns (c : Thread nD τ) arg13 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare (k0_pay3 (k0_pay1 (hOf x0 x1 x2 x3 x4 x5 x6 x7) s)) ∗ owns (c : Thread nD τ) arg11 fullShare (k0_pay4 (k0_pay1 (hOf x0 x1 x2 x3 x4 x5 x6 x7) s) (k0_pay2 (hOf x0 x1 x2 x3 x4 x5 x6 x7) q))
            ∗ owns (c : Thread nD τ) arg12 fullShare (k0_pay1 (hOf x0 x1 x2 x3 x4 x5 x6 x7) s) ∗ owns (c : Thread nD τ) arg13 fullShare (k0_pay2 (hOf x0 x1 x2 x3 x4 x5 x6 x7) q)) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs, %hfs, HS⟩, ⟨%fq, %hfq, HQ⟩, Hk⟩
  subst hf0 hf1 hf2 hf3 hf4 hf5 hf6 hf7 hfs hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rW]
    unfold hOf
    repeat (first | rw [readAt_rW] | rw [readAt_rM] | rw [readAt_rB] | rw [readAt_rN] | rw [readAt_rS] | rw [readCov_rS])
    try rfl
  isplitl [H9]
  · iexists _; isplitr
    swap; · iexact H9
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  isplitl [H10]
  · iexists _; isplitr
    swap; · iexact H10
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  isplitl [HS]
  · iexists _; isplitr
    swap; · iexact HS
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_last.sl.v51)
  (try delta run_last.sl.v54)
  (try delta run_last.sl.v33)
  (try delta run_last.sl.v40)
  (try delta run_last.sl.HS_1)
  (try delta run_last.sl.HQ_1)
  (try delta run_last.sl.r)
  rw [read_writes_rS]
  unfold hOf
  repeat (first | rw [readAt_rW] | rw [readAt_rM] | rw [readAt_rB] | rw [readAt_rN] | rw [readAt_rS] | rw [readCov_rS])
  try rfl

end Cert.Kernel.Combine
end
-- ==== Proof.K.Combine.lean ====
import proofs.«158637_j65919158059656_1_alg».proof.Proof.K.CombineRunLast
set_option maxRecDepth 16384
noncomputable section
namespace Cert.Kernel.Combine
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 0 (the combine-and-statistics call) at the entry contents `V`: its proof data and body obligation -/

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the first output's buffer at point `t`: the combine payload of the point's input blocks. -/
def hblk (c : Dev nD) (t : Fin cfg0.N) : Vec F S2000x128 .f32 :=
  hOf (iblk V c 0 t) (iblk V c 1 t) (iblk V c 2 t) (iblk V c 3 t) (iblk V c 4 t) (iblk V c 5 t) (iblk V c 6 t) (iblk V c 7 t)

/-- The same by position (total: past the grid, the first point's). -/
def hAt (c : Dev nD) (n : ℕ) : Vec F S2000x128 .f32 :=
  if h : n < cfg0.N then hblk V c ⟨n, h⟩ else hblk V c ⟨0, by decide⟩

theorem hAt_val (c : Dev nD) (t : Fin cfg0.N) : hAt V c t.val = hblk V c t := by
  unfold hAt; rw [dif_pos t.isLt]

/-! ## The two scratch rows, point by point -/

/-- Scratch row 0 after the body at position `n`: reset to the zero row at the first point, then at every point the
    column sums of the point's block added. -/
def sumAt (c : Dev nD) : ℕ → Vec F S1x128 .f32
  | 0 => k0_pay1 (hAt V c 0) (k0_pay5 (F := F))
  | n + 1 => k0_pay1 (hAt V c (n + 1)) (sumAt c n)

/-- Scratch row 1 likewise, with the column sums of the block's squares. -/
def sqAt (c : Dev nD) : ℕ → Vec F S1x128 .f32
  | 0 => k0_pay2 (hAt V c 0) (k0_pay6 (F := F))
  | n + 1 => k0_pay2 (hAt V c (n + 1)) (sqAt c n)

/-! ## The invariant: the scoped rest with the two scratch rows taken out -/

/-- The core's scoped buffers that are neither a staging buffer of this call nor one of its two scratch rows. -/
def restBut (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the two scratch rows at anything; afterwards at
    what the point before left in them; beside them the other scoped buffers and the generator register, untouched. -/
def PhiS (c : Dev nD) : ℕ → sProp 𝕄
  | 0 => iprop(((∃ d, owns (c : Thread nD τ) scM0 fullShare d) ∗ (∃ d, owns (c : Thread nD τ) scM1 fullShare d))
      ∗ restBut (F := F) c ∗ (∃ r, prngReg c r))
  | n + 1 => iprop((owns (c : Thread nD τ) scM0 fullShare (sumAt V c n) ∗ owns (c : Thread nD τ) scM1 fullShare (sqAt V c n))
      ∗ restBut (F := F) c ∗ (∃ r, prngReg c r))

/-! ## The proof data -/

/-- The proof data of the call on core `c`: the arrays as the region finds them; after the body each input's buffer at
    its block, the first output's at the combine payload of the blocks, the two statistics' at the mean and variance
    payloads of the scratch rows after the last point (read at the last point only: the windows are idle and not
    written back before it); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => hblk V c t
    | ⟨9, _⟩ => k0_pay3 (sumAt V c 24)
    | ⟨10, _⟩ => k0_pay4 (sumAt V c 24) (sqAt V c 24)
  Φ t := PhiS V c t.val
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window (the proof data's `match` reduced). -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = hblk V c t := by dsimp only [dat]
theorem after9 (c : Dev nD) (t : Fin cfg0.N) : (dat V c).after 9 t = k0_pay3 (sumAt V c 24) := by dsimp only [dat]
theorem after10 (c : Dev nD) (t : Fin cfg0.N) : (dat V c).after 10 t = k0_pay4 (sumAt V c 24) (sqAt V c 24) := by dsimp only [dat]

/-! Each input window's current staging buffer holds its block at every point, fetched there or not: a window not
    fetched at a point has the block index of the point before, so its buffer still holds this point's block. The
    three weights and the bias (windows 4..7) have a constant index and are fetched once; the four tile windows at
    every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-! ## The scratch rows and the invariant at a point -/

theorem sumAt_first (c : Dev nD) (t : Fin cfg0.N) (h0 : t.val = 0) :
    sumAt V c t.val = k0_pay1 (hblk V c t) (k0_pay5 (F := F)) := by
  have e := hAt_val V c t
  rw [h0] at e ⊢
  rw [← e]; rfl
theorem sqAt_first (c : Dev nD) (t : Fin cfg0.N) (h0 : t.val = 0) :
    sqAt V c t.val = k0_pay2 (hblk V c t) (k0_pay6 (F := F)) := by
  have e := hAt_val V c t
  rw [h0] at e ⊢
  rw [← e]; rfl
theorem sumAt_later (c : Dev nD) (t : Fin cfg0.N) (h0 : t.val ≠ 0) :
    sumAt V c t.val = k0_pay1 (hblk V c t) (sumAt V c (t.val - 1)) := by
  have e := hAt_val V c t
  obtain ⟨n, hn⟩ := t
  cases n with
  | zero => exact absurd rfl h0
  | succ n => rw [← e]; rfl
theorem sqAt_later (c : Dev nD) (t : Fin cfg0.N) (h0 : t.val ≠ 0) :
    sqAt V c t.val = k0_pay2 (hblk V c t) (sqAt V c (t.val - 1)) := by
  have e := hAt_val V c t
  obtain ⟨n, hn⟩ := t
  cases n with
  | zero => exact absurd rfl h0
  | succ n => rw [← e]; rfl

theorem PhiS_zero (c : Dev nD) (n : ℕ) (hz : n = 0) :
    PhiS V c n = iprop(((∃ d, owns (c : Thread nD τ) scM0 fullShare d) ∗ (∃ d, owns (c : Thread nD τ) scM1 fullShare d))
      ∗ restBut (F := F) c ∗ (∃ r, prngReg c r)) := by
  subst hz; rfl
theorem PhiS_succ (c : Dev nD) (n : ℕ) :
    PhiS V c (n + 1) = iprop((owns (c : Thread nD τ) scM0 fullShare (sumAt V c n) ∗ owns (c : Thread nD τ) scM1 fullShare (sqAt V c n))
      ∗ restBut (F := F) c ∗ (∃ r, prngReg c r)) := rfl
theorem PhiS_pos (c : Dev nD) (n : ℕ) (hz : n ≠ 0) :
    PhiS V c n = iprop((owns (c : Thread nD τ) scM0 fullShare (sumAt V c (n - 1)) ∗ owns (c : Thread nD τ) scM1 fullShare (sqAt V c (n - 1)))
      ∗ restBut (F := F) c ∗ (∃ r, prngReg c r)) := by
  cases n with
  | zero => exact absurd rfl hz
  | succ n => rfl

theorem Phi_castSucc (c : Dev nD) (t : Fin cfg0.N) : (dat V c).Φ t.castSucc = PhiS V c t.val := by
  dsimp only [dat]; simp only [Fin.coe_castSucc]
theorem Phi_succ (c : Dev nD) (t : Fin cfg0.N) : (dat V c).Φ t.succ = PhiS V c (t.val + 1) := by
  dsimp only [dat]; simp only [Fin.val_succ]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns: each window's buffer at what the body leaves, the two statistics' before the last point as
    the body found them. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- The body at any point: the inputs' memrefs hold their blocks; the closed forms of the two conditions say which of
    the three runs applies; the invariant hands the body the two scratch rows at what the point before left (at
    anything at the first point) and takes them back at this point's contents; the other scoped buffers, the generator
    register and the core's obligations pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7]
  rw [show (dat V c).owesAt () t.succ = (dat V c).owesAt () t.castSucc from rfl, Phi_succ, Phi_castSucc, PhiS_succ]
  rw [show (dat V c).leavesExact 0 t = owns (c : Thread nD τ) (st0_0 t) fullShare ((dat V c).after 0 t) from rfl, after0]
  rw [show (dat V c).leavesExact 1 t = owns (c : Thread nD τ) (st0_1 t) fullShare ((dat V c).after 1 t) from rfl, after1]
  rw [show (dat V c).leavesExact 2 t = owns (c : Thread nD τ) (st0_2 t) fullShare ((dat V c).after 2 t) from rfl, after2]
  rw [show (dat V c).leavesExact 3 t = owns (c : Thread nD τ) (st0_3 t) fullShare ((dat V c).after 3 t) from rfl, after3]
  rw [show (dat V c).leavesExact 4 t = owns (c : Thread nD τ) (st0_4 t) fullShare ((dat V c).after 4 t) from rfl, after4]
  rw [show (dat V c).leavesExact 5 t = owns (c : Thread nD τ) (st0_5 t) fullShare ((dat V c).after 5 t) from rfl, after5]
  rw [show (dat V c).leavesExact 6 t = owns (c : Thread nD τ) (st0_6 t) fullShare ((dat V c).after 6 t) from rfl, after6]
  rw [show (dat V c).leavesExact 7 t = owns (c : Thread nD τ) (st0_7 t) fullShare ((dat V c).after 7 t) from rfl, after7]
  rw [show (dat V c).leavesExact 8 t = owns (c : Thread nD τ) (st0_8 t) fullShare ((dat V c).after 8 t) from rfl, after8]
  have hN : t.val < 25 := lt_of_lt_of_eq t.isLt (show cfg0.N = 25 from N_0)
  by_cases h0 : t.val = 0
  · have hc1 : cond1 (grid0.coords t) := (hcond1 t).mpr h0
    have hc2 : ¬cond2 (grid0.coords t) := fun h => by have := (hcond2 t).mp h; omega
    rw [Dat.leavesExact_idle (dat V c) 9 t (idle9 t hc2) (noFlush9 t hc2),
      Dat.leavesExact_idle (dat V c) 10 t (idle10 t hc2) (noFlush10 t hc2)]
    rw [PhiS_zero V c _ h0, sumAt_first V c t h0, sqAt_first V c t h0]
    unfold hblk
    iintro ⟨⟨⟨⟨%ds, HS⟩, ⟨%dq, HQ⟩⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS]; · iexists _; iexact HS
    isplitl [HQ]; · iexists _; iexact HQ
    iintro ⟨H0, H1, H2, H3, H4, H5, H6, H7, H8, H9, H10, HS, HQ⟩
    isplitl [HS HQ HR Hg]
    · isplitl [HS HQ]
      · isplitl [HS]; · iexact HS
        iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc1 : ¬cond1 (grid0.coords t) := fun h => h0 ((hcond1 t).mp h)
    rw [PhiS_pos V c _ h0, sumAt_later V c t h0, sqAt_later V c t h0]
    by_cases h24 : t.val = 24
    · have hc2 : cond2 (grid0.coords t) := (hcond2 t).mpr h24
      rw [show (dat V c).leavesExact 9 t = owns (c : Thread nD τ) (st0_9 t) fullShare ((dat V c).after 9 t) from by
        unfold Dat.leavesExact; rw [live9 t hc2], after9]
      rw [show (dat V c).leavesExact 10 t = owns (c : Thread nD τ) (st0_10 t) fullShare ((dat V c).after 10 t) from by
        unfold Dat.leavesExact; rw [live10 t hc2], after10]
      rw [show sumAt V c 24 = sumAt V c t.val from by rw [h24], show sqAt V c 24 = sqAt V c t.val from by rw [h24],
        sumAt_later V c t h0, sqAt_later V c t h0]
      unfold hblk
      iintro ⟨⟨⟨HS, HQ⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      isplitl [HQ]; · iexact HQ
      iintro ⟨H0, H1, H2, H3, H4, H5, H6, H7, H8, H9, H10, HS, HQ⟩
      isplitl [HS HQ HR Hg]
      · isplitl [HS HQ]
        · isplitl [HS]; · iexact HS
          iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬cond2 (grid0.coords t) := fun h => h24 ((hcond2 t).mp h)
      rw [Dat.leavesExact_idle (dat V c) 9 t (idle9 t hc2) (noFlush9 t hc2),
        Dat.leavesExact_idle (dat V c) 10 t (idle10 t hc2) (noFlush10 t hc2)]
      unfold hblk
      iintro ⟨⟨⟨HS, HQ⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS]; · iexact HS
      isplitl [HQ]; · iexact HQ
      iintro ⟨H0, H1, H2, H3, H4, H5, H6, H7, H8, H9, H10, HS, HQ⟩
      isplitl [HS HQ HR Hg]
      · isplitl [HS HQ]
        · isplitl [HS]; · iexact HS
          iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- The scoped rest, its two scratch rows named as memrefs owned at some contents. -/
theorem scoped_eq (c : Dev nD) :
    (Pipeline.scopedRest (Ix := Unit) (Name := ℕ) (U := UR sig nD τ) (Lvl := ℕ) (Val := Elt F) spec0 c : sProp 𝕄)
      = iprop(((∃ d, owns (c : Thread nD τ) scM0 fullShare d) ∗ (∃ d, owns (c : Thread nD τ) scM1 fullShare d)) ∗ restBut (F := F) c) := by
  unfold restBut
  rw [Pipeline.scopedRest_split_of_list spec0 c [cc0_scratch0, cc0_scratch1] (by decide) (by decide)]
  simp only [scM0, scM1, owns_whole]; rfl

/-- What the launch hands the region is the invariant before the first point. -/
theorem Phi_first (c : Dev nD) : iprop((∃ r, prngReg c r) ∗ Pipeline.scopedRest (Ix := Unit) (Name := ℕ) (U := UR sig nD τ) (Lvl := ℕ) (Val := Elt F) spec0 c) ⊢ (dat V c).Φ 0 := by
  rw [show (dat V c).Φ 0 = PhiS V c 0 from rfl, PhiS_zero V c 0 rfl, scoped_eq]
  iintro ⟨Hg, HS, HR⟩
  isplitl [HS]; · iexact HS
  isplitl [HR]; · iexact HR
  iexact Hg

/-- After the last point the invariant gives it back: the scratch rows' named contents are forgotten. -/
theorem Phi_last (c : Dev nD) : (dat V c).Φ (Fin.last cfg0.N) ⊢ iprop((∃ r, prngReg c r) ∗ Pipeline.scopedRest (Ix := Unit) (Name := ℕ) (U := UR sig nD τ) (Lvl := ℕ) (Val := Elt F) spec0 c) := by
  rw [show (dat V c).Φ (Fin.last cfg0.N) = PhiS V c (24 + 1) from rfl, PhiS_succ, scoped_eq]
  iintro ⟨⟨HS, HQ⟩, HR, Hg⟩
  isplitl [Hg]; · iexact Hg
  isplitl [HS HQ]
  · isplitl [HS]
    · iexists _; iexact HS
    iexists _; iexact HQ
  iexact HR

end Cert.Kernel.Combine
end
-- ==== Proof.K.Run.lean ====
/-
  The whole program's run, with what every buffer holds at the end.

  @main is six items: three stretches of host operations (the degree count, its clamp, and the two propagation passes),
  the first kernel region (the combined projection and the column statistics), one more stretch (the statistics' rows
  recast as vectors) and the second kernel region (normalise, rectify, add the input back). Between two items every
  unscoped buffer of a core is held whole at a valuation: the launch memory `B0`; after each stretch its operations
  applied (`B1`, `B2`, `B3`, `B5`); after a region its windows' arrays at what the pipeline's write-backs leave and
  every other buffer as it was (`B4`, `B6`). Each region enters the pipeline's rule with its arrays split out of
  the held buffers and hands them back at the exit contents; the generator register and the core's empty debt ride
  along. The composed run ends with every unscoped buffer at `B6`.
-/
import proofs.«158637_j65919158059656_1_alg».proof.Proof.Gen.Kernel.Regions
import proofs.«158637_j65919158059656_1_alg».proof.Proof.K.Norm
import proofs.«158637_j65919158059656_1_alg».proof.Proof.K.Combine
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- After the degree count. -/
abbrev B1 : Dev nD → Valuation τ sig (Elt F) := fun c => StableHlo.after hostOps0 (B0 m c)
/-- After the clamp. -/
abbrev B2 : Dev nD → Valuation τ sig (Elt F) := fun c => StableHlo.after hostOps0_1 (B1 m c)
/-- After the two propagation passes: what the first region is entered from. -/
abbrev B3 : Dev nD → Valuation τ sig (Elt F) := fun c => StableHlo.after hostOps0_2 (B2 m c)
/-- The same, read at the TensorCore's references. -/
abbrev E3 : (c : Dev nD) → (b : Ref sig .tc) → Buf (Elt F) ((c : Thread nD τ).loc b) := fun c b => B3 m c b

/-- After the first region: its windows' arrays at what the write-backs leave, the rest as entered. -/
def B4 (c : Dev nD) : Valuation τ sig (Elt F) :=
  Pipeline.withArrays spec0 c (B3 m c) fun w => (Combine.dat (E3 m) c).arrAt w cfg0.N

theorem B4_arr (c : Dev nD) (w : Fin cfg0.W) :
    B4 m c (Proc.devRef .tc (Pipeline.arrRef spec0 w)) = (Combine.dat (E3 m) c).arrAt w cfg0.N := by
  unfold B4; exact Pipeline.withArrays_arr spec0 launch0.win.arr_inj c _ _ w

theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb

abbrev E4 : (c : Dev nD) → (b : Ref sig .tc) → Buf (Elt F) ((c : Thread nD τ).loc b) := fun c b => B4 m c b

/-- After the statistics' rows are recast: what the second region is entered from. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b

/-- After the second region. -/
def B6 (c : Dev nD) : Valuation τ sig (Elt F) :=
  Pipeline.withArrays spec1 c (B5 m c) fun w => (Norm.dat (E5 m) c).arrAt w cfg1.N

theorem B6_arr (c : Dev nD) (w : Fin cfg1.W) :
    B6 m c (Proc.devRef .tc (Pipeline.arrRef spec1 w)) = (Norm.dat (E5 m) c).arrAt w cfg1.N := by
  unfold B6; exact Pipeline.withArrays_arr spec1 launch1.win.arr_inj c _ _ w

theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb

abbrev E6 : (c : Dev nD) → (b : Ref sig .tc) → Buf (Elt F) ((c : Thread nD τ).loc b) := fun c b => B6 m c b

/-! ## The proof data of both pipelines, and what rides along -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Combine.dat (E3 m) c
  | ⟨1, _⟩ => fun c => Norm.dat (E5 m) c

abbrev noVar : Variants := Variants.none
/-- No core owes another anything. -/
abbrev noLev : GSem nD τ sig → Finset Unit := fun _ => ∅
abbrev lev0 : GSem nD τ sig → Unit → ℕ := fun _ _ => 0

/-- Beside the buffers: the generator register at some state and the core's debt, empty. -/
abbrev rest (c : Dev nD) : sProp 𝕄 := iprop((∃ r, prngReg c r) ∗ ∃ W, owes (c : Thread nD τ) (0 : CellTallies nD τ sig Unit) W)

/-- A stretch of host operations as a segment over the unscoped buffers from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-! ## The regions as segments -/

set_option backward.isDefEq.respectTransparency.types false in
/-- The first region, entered from `B3` and left at `B4`. Its invariant takes the generator register and the scoped
    buffers no window stages (the two accumulator rows among them) at entry and gives them back at exit. -/
def reg0 : Pipeline.RegionSeg (pcfgs (F := F)) adm (pdats m) () defs₀ noVar noLev lev0 0 where
  win := launch0.win.to₀
  block_pos := launch0.block_pos
  stage_whole := launch0.stage_whole
  K := PEmpty
  osem k := k.elim
  ho := Pipeline.OwnSemFacts.none _
  hbody c := (Combine.body_obligation (E3 m) c).loose
  hwaits := Pipeline.hwaits_of_owed_zero _ _ _ _ noLev lev0 0 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Combine.dat (E3 m) c).Φ 0 from rfl]
    iintro ⟨Hp, -, Hr⟩
    iapply (Combine.Phi_first (E3 m) c)
    isplitl [Hp]; · iexact Hp
    iexact Hr
  hout c := by
    rw [Pipeline.ownSems0_none, show (pdats m 0 c).Φ (Fin.last _) = (Combine.dat (E3 m) c).Φ (Fin.last cfg0.N) from rfl]
    iintro H
    ihave H' := (Combine.Phi_last (E3 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, entered from `B5` and left at `B6`: no scratch, the class invariant unchanged from point to point. -/
def reg1 : Pipeline.RegionSeg (pcfgs (F := F)) adm (pdats m) () defs₀ noVar noLev lev0 1 where
  win := launch1.win.to₀
  block_pos := launch1.block_pos
  stage_whole := launch1.stage_whole
  K := PEmpty
  osem k := k.elim
  ho := Pipeline.OwnSemFacts.none _
  hbody c := (Norm.body_obligation (E5 m) c).loose
  hwaits := Pipeline.hwaits_of_owed_zero _ _ _ _ noLev lev0 1 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (fun w => (B6_arr m c w).symm)
      (fun b hb => B6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six segments, and the launch -/

abbrev segs : List (Pipeline.Seg (pcfgs (F := F)) adm (pdats m) () defs₀ noVar noLev lev0) :=
  [ .host (stretch hostOps0 hostOps0_sub hostOps0_fresh (B0 m)),
    .host (stretch hostOps0_1 hostOps0_1_sub hostOps0_1_fresh (B1 m)),
    .host (stretch hostOps0_2 hostOps0_2_sub hostOps0_2_fresh (B2 m)),
    .region (reg0 m),
    .host (stretch hostOps1 hostOps1_sub hostOps1_fresh (B4 m)),
    .region (reg1 m) ]

/-- @main is the run of its segments. -/
theorem main_run (c : Dev nD) : main (F := F) c = Pipeline.Seg.run (segs m) := (main_chain c).trans (by chain_rfl)

/-- The last thread state beside the empty debt. -/
abbrev lastState (c : Dev nD) : sProp 𝕄 := iprop(StableHlo.held (c : Thread nD τ) (Pipeline.ucRefs τ sig) (B6 m c) ∗ ∃ r, prngReg c r)

set_option backward.isDefEq.respectTransparency.types false in
/-- THE RUN: from any memory with zero counters every weakly fair execution of @main terminates, nothing faulting, and
    on every core every unscoped buffer ends at `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rest c)) (Tₙ := lastState m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach noLev lev0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

end Cert.Kernel.Run

end
-- ==== Proof.K.RunEnds.lean ====
/-
  What the last valuation holds, buffer by buffer.

  No host operation writes an argument, and a kernel region changes only its result arrays: an argument that is an
  input window's array leaves a region as it entered it (an input window is never written back), and one that is no
  window's array bypasses the region. So every argument ends at its launch contents. The program's result is the second
  region's result array. On the way: the first region's three result arrays, the two of them that the following
  stretch recasts from a row [1,128] to a vector [128], and the arguments as each region finds them.
-/
import proofs.«158637_j65919158059656_1_alg».proof.Proof.K.Run
import Idealize.ShloMosaic.Lib.StableHlo.Run

set_option maxRecDepth 16384

noncomputable section

namespace Cert.Kernel.Run

open Cert.Kernel Cert.Kernel.Gen
open Idealize.ShloMosaic Idealize.ShloMosaic.TcCoe Idealize.ShloMosaic.Tactic
open Idealize.SL Idealize.SL.Sem Idealize.ShloMosaic.StableHlo
open Idealize.ShloMosaic.Pipeline (Dat)

variable {F : FTy → Type} [FloatOps F]
variable (m : (ℓ : Loc nD τ sig) → Buf (Elt F) ℓ)

/-! ## Through the host stretches -/

/-- A buffer none of the first three stretches writes holds its launch contents when the first region is entered. -/
theorem B3_keep (c : Dev nD) (r : Ref sig .tc) (h0 : r ∉ hostOps0_W) (h1 : r ∉ hostOps0_1_W) (h2 : r ∉ hostOps0_2_W) :
    B3 m c r = m ((c : Thread nD τ).loc r) :=
  (V3_of m c r h2).trans <| (V2_of m c r h1).trans <| (V1_of m c r h0).trans rfl

/-- A buffer the recasting stretch does not write passes through it. -/
theorem B5_keep (c : Dev nD) (r : Ref sig .tc) (h : r ∉ hostOps1_W) : B5 m c r = B4 m c r :=
  StableHlo.after_of_writes_sub hostOps1 _ hostOps1_writes h

/-- The mean vector the second region reads is the first region's mean row recast. -/
theorem B5_mean (c : Dev nD) :
    B5 m c (Proc.devRef .tc main_v37) = shapeCast S128 (B4 m c (Proc.devRef .tc main_v36_1)) shapeCasts_S1x128_S128 := by
  show StableHlo.after hostOps1 _ (Proc.devRef .tc main_v37) = _
  after_results
  rfl

/-- The variance vector the second region reads is the first region's variance row recast. -/
theorem B5_var (c : Dev nD) :
    B5 m c (Proc.devRef .tc main_v38) = shapeCast S128 (B4 m c (Proc.devRef .tc main_v36_2)) shapeCasts_S1x128_S128 := by
  show StableHlo.after hostOps1 _ (Proc.devRef .tc main_v38) = _
  after_results
  rfl

/-! ## Through the regions -/

/-- An input window's array leaves the first region as it entered it. -/
theorem B4_in (c : Dev nD) (w : Fin cfg0.W) (hin : (cfg0.win w).isOut = false) :
    B4 m c (Proc.devRef .tc (Pipeline.arrRef spec0 w)) = B3 m c (Proc.devRef .tc (Pipeline.arrRef spec0 w)) :=
  (B4_arr m c w).trans (((Combine.dat (E3 m) c).arrAt_in w hin _).trans (Combine.A_eq (E3 m) c w))

/-- An input window's array leaves the second region as it entered it. -/
theorem B6_in (c : Dev nD) (w : Fin cfg1.W) (hin : (cfg1.win w).isOut = false) :
    B6 m c (Proc.devRef .tc (Pipeline.arrRef spec1 w)) = B5 m c (Proc.devRef .tc (Pipeline.arrRef spec1 w)) :=
  (B6_arr m c w).trans (((Norm.dat (E5 m) c).arrAt_in w hin _).trans (Norm.A_eq (E5 m) c w))

/-! ## The arguments as each region finds them -/

theorem B3_arg0 (c : Dev nD) : B3 m c (Proc.devRef .tc main_arg0) = m ((c : Thread nD τ).loc main_arg0) := B3_keep m c main_arg0 (by decide) (by decide) (by decide)
theorem B3_arg1 (c : Dev nD) : B3 m c (Proc.devRef .tc main_arg1) = m ((c : Thread nD τ).loc main_arg1) := B3_keep m c main_arg1 (by decide) (by decide) (by decide)
theorem B3_arg2 (c : Dev nD) : B3 m c (Proc.devRef .tc main_arg2) = m ((c : Thread nD τ).loc main_arg2) := B3_keep m c main_arg2 (by decide) (by decide) (by decide)
theorem B3_arg3 (c : Dev nD) : B3 m c (Proc.devRef .tc main_arg3) = m ((c : Thread nD τ).loc main_arg3) := B3_keep m c main_arg3 (by decide) (by decide) (by decide)
theorem B3_arg4 (c : Dev nD) : B3 m c (Proc.devRef .tc main_arg4) = m ((c : Thread nD τ).loc main_arg4) := B3_keep m c main_arg4 (by decide) (by decide) (by decide)
theorem B3_arg5 (c : Dev nD) : B3 m c (Proc.devRef .tc main_arg5) = m ((c : Thread nD τ).loc main_arg5) := B3_keep m c main_arg5 (by decide) (by decide) (by decide)
theorem B3_arg6 (c : Dev nD) : B3 m c (Proc.devRef .tc main_arg6) = m ((c : Thread nD τ).loc main_arg6) := B3_keep m c main_arg6 (by decide) (by decide) (by decide)
theorem B3_arg7 (c : Dev nD) : B3 m c (Proc.devRef .tc main_arg7) = m ((c : Thread nD τ).loc main_arg7) := B3_keep m c main_arg7 (by decide) (by decide) (by decide)
theorem B3_arg8 (c : Dev nD) : B3 m c (Proc.devRef .tc main_arg8) = m ((c : Thread nD τ).loc main_arg8) := B3_keep m c main_arg8 (by decide) (by decide) (by decide)
theorem B3_arg9 (c : Dev nD) : B3 m c (Proc.devRef .tc main_arg9) = m ((c : Thread nD τ).loc main_arg9) := B3_keep m c main_arg9 (by decide) (by decide) (by decide)

/-- The features, an input of both regions, as the second region finds them. -/
theorem B5_arg0 (c : Dev nD) : B5 m c (Proc.devRef .tc main_arg0) = m ((c : Thread nD τ).loc main_arg0) :=
  (B5_keep m c main_arg0 (by decide)).trans <| (B4_in m c 0 rfl).trans (B3_arg0 m c)
/-- The batch-norm scale: no window of the first region. -/
theorem B5_arg6 (c : Dev nD) : B5 m c (Proc.devRef .tc main_arg6) = m ((c : Thread nD τ).loc main_arg6) :=
  (B5_keep m c main_arg6 (by decide)).trans <| (B4_of_ne m c main_arg6 (by decide)).trans (B3_arg6 m c)
/-- The batch-norm shift: no window of the first region. -/
theorem B5_arg7 (c : Dev nD) : B5 m c (Proc.devRef .tc main_arg7) = m ((c : Thread nD τ).loc main_arg7) :=
  (B5_keep m c main_arg7 (by decide)).trans <| (B4_of_ne m c main_arg7 (by decide)).trans (B3_arg7 m c)
/-- The combined projection as the second region finds it: the first region's first result array. -/
theorem B5_h (c : Dev nD) : B5 m c (Proc.devRef .tc main_v36_0) = (Combine.dat (E3 m) c).arrAt 8 cfg0.N :=
  (B5_keep m c main_v36_0 (by decide)).trans (B4_arr m c 8)

/-! ## The end -/

theorem B6_arg0 (c : Dev nD) : B6 m c (Proc.devRef .tc main_arg0) = m ((c : Thread nD τ).loc main_arg0) :=
  (B6_in m c 1 rfl).trans (B5_arg0 m c)
theorem B6_arg1 (c : Dev nD) : B6 m c (Proc.devRef .tc main_arg1) = m ((c : Thread nD τ).loc main_arg1) :=
  (B6_of_ne m c main_arg1 (by decide)).trans <| (B5_keep m c main_arg1 (by decide)).trans <| (B4_in m c 3 rfl).trans (B3_arg1 m c)
theorem B6_arg2 (c : Dev nD) : B6 m c (Proc.devRef .tc main_arg2) = m ((c : Thread nD τ).loc main_arg2) :=
  (B6_of_ne m c main_arg2 (by decide)).trans <| (B5_keep m c main_arg2 (by decide)).trans <| (B4_in m c 4 rfl).trans (B3_arg2 m c)
theorem B6_arg3 (c : Dev nD) : B6 m c (Proc.devRef .tc main_arg3) = m ((c : Thread nD τ).loc main_arg3) :=
  (B6_of_ne m c main_arg3 (by decide)).trans <| (B5_keep m c main_arg3 (by decide)).trans <| (B4_in m c 5 rfl).trans (B3_arg3 m c)
theorem B6_arg4 (c : Dev nD) : B6 m c (Proc.devRef .tc main_arg4) = m ((c : Thread nD τ).loc main_arg4) :=
  (B6_of_ne m c main_arg4 (by decide)).trans <| (B5_keep m c main_arg4 (by decide)).trans <| (B4_in m c 6 rfl).trans (B3_arg4 m c)
theorem B6_arg5 (c : Dev nD) : B6 m c (Proc.devRef .tc main_arg5) = m ((c : Thread nD τ).loc main_arg5) :=
  (B6_of_ne m c main_arg5 (by decide)).trans <| (B5_keep m c main_arg5 (by decide)).trans <| (B4_in m c 7 rfl).trans (B3_arg5 m c)
theorem B6_arg6 (c : Dev nD) : B6 m c (Proc.devRef .tc main_arg6) = m ((c : Thread nD τ).loc main_arg6) :=
  (B6_in m c 4 rfl).trans (B5_arg6 m c)
theorem B6_arg7 (c : Dev nD) : B6 m c (Proc.devRef .tc main_arg7) = m ((c : Thread nD τ).loc main_arg7) :=
  (B6_in m c 5 rfl).trans (B5_arg7 m c)
theorem B6_arg8 (c : Dev nD) : B6 m c (Proc.devRef .tc main_arg8) = m ((c : Thread nD τ).loc main_arg8) :=
  (B6_of_ne m c main_arg8 (by decide)).trans <| (B5_keep m c main_arg8 (by decide)).trans <| (B4_of_ne m c main_arg8 (by decide)).trans (B3_arg8 m c)
theorem B6_arg9 (c : Dev nD) : B6 m c (Proc.devRef .tc main_arg9) = m ((c : Thread nD τ).loc main_arg9) :=
  (B6_of_ne m c main_arg9 (by decide)).trans <| (B5_keep m c main_arg9 (by decide)).trans <| (B4_of_ne m c main_arg9 (by decide)).trans (B3_arg9 m c)

/-- The program's result is the second region's result array. -/
theorem B6_result (c : Dev nD) : B6 m c (Proc.devRef .tc main_v39) = (Norm.dat (E5 m) c).arrAt 6 cfg1.N :=
  B6_arr m c 6

/-- An unscoped TensorCore reference is among those read back at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance: every weakly fair execution terminates, nothing faulting, with every argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B6_arg0 m c), (h c _ (mem_uc main_arg1 (by decide))).trans (B6_arg1 m c),
     (h c _ (mem_uc main_arg2 (by decide))).trans (B6_arg2 m c), (h c _ (mem_uc main_arg3 (by decide))).trans (B6_arg3 m c),
     (h c _ (mem_uc main_arg4 (by decide))).trans (B6_arg4 m c), (h c _ (mem_uc main_arg5 (by decide))).trans (B6_arg5 m c),
     (h c _ (mem_uc main_arg6 (by decide))).trans (B6_arg6 m c), (h c _ (mem_uc main_arg7 (by decide))).trans (B6_arg7 m c),
     (h c _ (mem_uc main_arg8 (by decide))).trans (B6_arg8 m c), (h c _ (mem_uc main_arg9 (by decide))).trans (B6_arg9 m c)⟩)
    (run_all m ρ)

end Cert.Kernel.Run

end
-- ==== Proof.KI.Norm.lean ====
import proofs.«158637_j65919158059656_1_alg».proof.Proof.Gen.KernelIdeal.Launch
import proofs.«158637_j65919158059656_1_alg».proof.Proof.Gen.KernelIdeal.Skeleton
import proofs.«158637_j65919158059656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Norm
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The second pipeline (normalise, ReLU, residual), at the contents `V` it is entered with -/

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: a window not
    fetched at a point has the block index of the point before, so its buffer still holds this point's block. The
    four row windows (2..5) have a constant index and are fetched once; the two tile windows (0, 1) at every point. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 2000x128 tile, and the whole 128 row. -/
abbrev rT : Rect S2000x128 := Rect.unit (s := S2000x128) ![0, 0] S2000x128.size inb_S2000x128_S2000x128_0_0
abbrev rR : Rect S128 := Rect.unit (s := S128) ![0] S128.size inb_S128_S128_0

/-! ## What the body leaves in the output window's buffer -/

/-- Window 6's staging buffer after the body, from the six input blocks: its one store of the whole tile, the payload
    over what the loads read (h, mean, var, gamma, beta, then the residual). -/
def out6 (x0 x1 : Vec F S2000x128 .f32) (x2 x3 x4 x5 : Vec F S128 .f32) : Vec F S2000x128 .f32 :=
  View.canon [⟨rT, k1_pay1 (View.ld x0 rT) (View.ld x2 rR) (View.ld x3 rR) (View.ld x4 rR) (View.ld x5 rR) (View.ld x1 rT)⟩]

/-- The one store tiles the buffer, so it covers it. -/
theorem cover6 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

/-! ## The body's triple -/

set_option maxHeartbeats 1000000 in
/-- The kernel body on whole staging memrefs, the inputs' at read contents `xW` and the output's at anything, runs to
    the continuation holding the inputs' as they were and the output's at `out6` of the inputs'. -/
theorem sound_kernel (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S2000x128 .f32) (harg7 : arg7.IsWhole)
    (x0 x1 : Vec F S2000x128 .f32) (x2 x3 x4 x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc1__norm_relu_residual_kernel i arg1 harg1 arg2 harg2 arg3 harg3 arg4 harg4 arg5 harg5 arg6 harg6 arg7 harg7) K := by
  simp only [cc1__norm_relu_residual_kernel_eq_skeleton]; unfold cc1__norm_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the pipeline on core `c`: the arrays as the region finds them (`V`); after the body at point `t`
    each input's buffer at its block and the output's at `out6` of the input blocks; the class's invariant (the scoped
    rest and the generator register, untouched); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = out6 (iblk V c 0 t) (iblk V c 1 t) (iblk V c 2 t) (iblk V c 3 t) (iblk V c 4 t) (iblk V c 5 t) := by dsimp only [dat]

/-- Each input's current staging buffer holds its block at every point, fetched there or not. -/
theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' memrefs hold their blocks, so `sound_kernel` applies; the invariant and the
    core's obligations pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid1.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Norm

end
-- ==== Proof.KI.CombineDefs.lean ====
import proofs.«158637_j65919158059656_1_alg».proof.Proof.Gen.KernelIdeal.Launch
import proofs.«158637_j65919158059656_1_alg».proof.Proof.Gen.KernelIdeal.Skeleton
import proofs.«158637_j65919158059656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
set_option maxRecDepth 16384
noncomputable section
namespace Cert.KernelIdeal.Combine
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 0: what its body's runs share

Every load and store of the body is of a WHOLE buffer: through the unit rectangle at zero offsets of the buffer's own
sizes. The body branches twice on the grid coordinate: the two scratch rows are reset at the first point, the two
statistics are stored at the last point. -/

/-- The whole-buffer rectangles of the body's accesses, one per shape. -/
abbrev rW : Rect S2000x128 := Rect.unit (s := S2000x128) ![0, 0] S2000x128.size inb_S2000x128_S2000x128_0_0
abbrev rM : Rect S128x128 := Rect.unit (s := S128x128) ![0, 0] S128x128.size inb_S128x128_S128x128_0_0
abbrev rB : Rect S128 := Rect.unit (s := S128) ![0] S128.size inb_S128_S128_0
abbrev rN : Rect S2000x1 := Rect.unit (s := S2000x1) ![0, 0] S2000x1.size inb_S2000x1_S2000x1_0_0
abbrev rS : Rect S1x128 := Rect.unit (s := S1x128) ![0, 0] S1x128.size inb_S1x128_S1x128_0_0

/-- The literal zero offsets are the zero function. -/
theorem zeros1 : (![0] : Fin 1 → ℕ) = fun _ => 0 := by
  funext a; fin_cases a; rfl
theorem zeros2 : (![0, 0] : Fin 2 → ℕ) = fun _ => 0 := by
  funext a; fin_cases a <;> rfl

/-! ## Loads and stores of whole buffers -/

section Whole

variable {κ : Kind} {sp : Space} {S : Shape} {e : EltTy} {Val : EltTy → Type}

/-- A load through the whole-shape rectangle at zero offsets reads the buffer's contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- After a store through it, LAST, the buffer reads the store's payload, whatever the earlier stores were. -/
theorem read_writes_unit_zero [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The same at each of the body's five rectangles. -/
theorem readAt_rW (v : View sig κ sp S2000x128 .f32) (f : v.ty.Contents Val) : v.readAt Val rW.toLoadRect f = v.read Val f :=
  readAt_unit_zero v f zeros2 _
theorem readAt_rM (v : View sig κ sp S128x128 .f32) (f : v.ty.Contents Val) : v.readAt Val rM.toLoadRect f = v.read Val f :=
  readAt_unit_zero v f zeros2 _
theorem readAt_rB (v : View sig κ sp S128 .f32) (f : v.ty.Contents Val) : v.readAt Val rB.toLoadRect f = v.read Val f :=
  readAt_unit_zero v f zeros1 _
theorem readAt_rN (v : View sig κ sp S2000x1 .f32) (f : v.ty.Contents Val) : v.readAt Val rN.toLoadRect f = v.read Val f :=
  readAt_unit_zero v f zeros2 _
theorem readAt_rS (v : View sig κ sp S1x128 .f32) (f : v.ty.Contents Val) : v.readAt Val rS.toLoadRect f = v.read Val f :=
  readAt_unit_zero v f zeros2 _
theorem read_writes_rW [∀ e, Nonempty (Val e)] (v : View sig κ sp S2000x128 .f32) (f : v.ty.Contents Val)
    (w : S2000x128.Idx → Val .f32) (L : List (View.Piece Val S2000x128 .f32)) :
    v.read Val (v.writes Val f ((⟨rW, w⟩ : View.Piece Val S2000x128 .f32) :: L)) = w :=
  read_writes_unit_zero v f zeros2 _ w L
theorem read_writes_rS [∀ e, Nonempty (Val e)] (v : View sig κ sp S1x128 .f32) (f : v.ty.Contents Val)
    (w : S1x128.Idx → Val .f32) (L : List (View.Piece Val S1x128 .f32)) :
    v.read Val (v.writes Val f ((⟨rS, w⟩ : View.Piece Val S1x128 .f32) :: L)) = w :=
  read_writes_unit_zero v f zeros2 _ w L
/-- A load of a scratch row after ONE store into it reads the store's payload. -/
theorem readCov_rS [∀ e, Nonempty (Val e)] (v : View sig κ sp S1x128 .f32) (w : S1x128.Idx → Val .f32) :
    v.readCov [(⟨rS, w⟩ : View.Piece Val S1x128 .f32)] rS.toLoadRect = w :=
  View.readCov_unit_zero v zeros2 _ w

end Whole

/-! ## The body's two branch conditions, in closed form over the grid -/

/-- The condition of the reset of the scratch rows: the scalar chain of the body's first conditional. -/
abbrev cond1 (i : grid0.Coords) : Prop :=
  (Scalar.cmpi .ne (Scalar.extui (Scalar.cmpi .eq (BitVec.ofNat 32 (i 0).val) 0#32)) 0#32) = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The condition under which the two statistics are stored. -/
abbrev cond2 (i : grid0.Coords) : Prop := k0_cond2 i = 1#1
/-- It holds at the last point only. -/
theorem hcond2 : ∀ t : Fin cfg0.N, cond2 (grid0.coords t) ↔ t.val = 24 :=
  (by decide +kernel : ∀ t : Fin grid0.N, cond2 (grid0.coords t) ↔ t.val = 24)

/-! ## Where the windows are idle -/

/-- Before the last point the two statistics' windows are idle and are not written back. -/
theorem idle9 : ∀ t : Fin cfg0.N, ¬cond2 (grid0.coords t) → cfg0.idle 9 (grid0.coords t) = true := by decide +kernel
theorem idle10 : ∀ t : Fin cfg0.N, ¬cond2 (grid0.coords t) → cfg0.idle 10 (grid0.coords t) = true := by decide +kernel
theorem noFlush9 : ∀ t : Fin cfg0.N, ¬cond2 (grid0.coords t) → (cfg0.win 9).flush t = false := by decide +kernel
theorem noFlush10 : ∀ t : Fin cfg0.N, ¬cond2 (grid0.coords t) → (cfg0.win 10).flush t = false := by decide +kernel
/-- At the last point they are live. -/
theorem live9 : ∀ t : Fin cfg0.N, cond2 (grid0.coords t) → cfg0.idle 9 (grid0.coords t) = false := by decide +kernel
theorem live10 : ∀ t : Fin cfg0.N, cond2 (grid0.coords t) → cfg0.idle 10 (grid0.coords t) = false := by decide +kernel

/-! ## The scratch rows as memrefs -/

abbrev scM0 : Memref sig .tc .vmem S1x128 .f32 := Memref.whole cc0_scratch0
abbrev scM1 : Memref sig .tc .vmem S1x128 .f32 := Memref.whole cc0_scratch1

/-! ## What the body computes at a point, as functions of the buffers' contents -/

/-- The block the body stores into the first output: the combine payload of the eight input buffers. -/
def hOf (x0 x1 x2 : Vec F S2000x128 .f32) (x3 : Vec F S2000x1 .f32) (x4 x5 x6 : Vec F S128x128 .f32)
    (x7 : Vec F S128 .f32) : Vec F S2000x128 .f32 :=
  k0_pay7 x0 x1 x2 x4 x5 x6 x7 x3

end Cert.KernelIdeal.Combine
end
-- ==== Proof.KI.CombineRunMid.lean ====
import proofs.«158637_j65919158059656_1_alg».proof.Proof.KI.CombineDefs
set_option maxRecDepth 16384
noncomputable section
namespace Cert.KernelIdeal.Combine
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at a MIDDLE point (no reset, no statistics stored): on whole buffers — the inputs' at their contents, the first output's at anything, the two statistics' at `y9`, `y10`, the two scratch rows at `s`, `q` — it leaves the inputs as they were, the first output at the combine payload `hOf`, the statistics' buffers untouched, and the scratch rows at `s` plus the block's column sums and `q` plus the column sums of its squares. -/
theorem run_mid (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : ¬cond1 i) (hc2 : ¬cond2 i) (x0 x1 x2 : Vec F S2000x128 .f32) (x3 : Vec F S2000x1 .f32) (x4 x5 x6 : Vec F S128x128 .f32) (x7 : Vec F S128 .f32) (y9 y10 s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare y9 ∗ owns (c : Thread nD τ) arg11 fullShare y10
        ∗ owns (c : Thread nD τ) arg12 fullShare s ∗ owns (c : Thread nD τ) arg13 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare y9 ∗ owns (c : Thread nD τ) arg11 fullShare y10
            ∗ owns (c : Thread nD τ) arg12 fullShare (k0_pay1 (hOf x0 x1 x2 x3 x4 x5 x6 x7) s) ∗ owns (c : Thread nD τ) arg13 fullShare (k0_pay2 (hOf x0 x1 x2 x3 x4 x5 x6 x7) q)) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs, %hfs, HS⟩, ⟨%fq, %hfq, HQ⟩, Hk⟩
  subst hf0 hf1 hf2 hf3 hf4 hf5 hf6 hf7 hfs hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_mid.sl.v51)
    (try delta run_mid.sl.v54)
    (try delta run_mid.sl.v33)
    (try delta run_mid.sl.v40)
    (try delta run_mid.sl.HS_1)
    (try delta run_mid.sl.HQ_1)
    (try delta run_mid.sl.r)
    rw [read_writes_rW]
    unfold hOf
    repeat (first | rw [readAt_rW] | rw [readAt_rM] | rw [readAt_rB] | rw [readAt_rN] | rw [readAt_rS] | rw [readCov_rS])
    try rfl
  isplitl [H9]
  · iexists f9; isplitr; · ipureintro; exact hf9
    iexact H9
  isplitl [H10]
  · iexists f10; isplitr; · ipureintro; exact hf10
    iexact H10
  isplitl [HS]
  · iexists _; isplitr
    swap; · iexact HS
    ipureintro
    (try delta run_mid.sl.v51)
    (try delta run_mid.sl.v54)
    (try delta run_mid.sl.v33)
    (try delta run_mid.sl.v40)
    (try delta run_mid.sl.HS_1)
    (try delta run_mid.sl.HQ_1)
    (try delta run_mid.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_mid.sl.v51)
  (try delta run_mid.sl.v54)
  (try delta run_mid.sl.v33)
  (try delta run_mid.sl.v40)
  (try delta run_mid.sl.HS_1)
  (try delta run_mid.sl.HQ_1)
  (try delta run_mid.sl.r)
  rw [read_writes_rS]
  unfold hOf
  repeat (first | rw [readAt_rW] | rw [readAt_rM] | rw [readAt_rB] | rw [readAt_rN] | rw [readAt_rS] | rw [readCov_rS])
  try rfl

end Cert.KernelIdeal.Combine
end
-- ==== Proof.KI.CombineRunFirst.lean ====
import proofs.«158637_j65919158059656_1_alg».proof.Proof.KI.CombineRunMid
set_option maxRecDepth 16384
noncomputable section
namespace Cert.KernelIdeal.Combine
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at the FIRST point (the scratch rows reset, no statistics stored): the scratch rows, at anything, are left at the zero row plus the block's column sums and the zero row plus the column sums of its squares; the rest as at a middle point. -/
theorem run_first (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : cond1 i) (hc2 : ¬cond2 i) (x0 x1 x2 : Vec F S2000x128 .f32) (x3 : Vec F S2000x1 .f32) (x4 x5 x6 : Vec F S128x128 .f32) (x7 : Vec F S128 .f32) (y9 y10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare y9 ∗ owns (c : Thread nD τ) arg11 fullShare y10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare y9 ∗ owns (c : Thread nD τ) arg11 fullShare y10
            ∗ owns (c : Thread nD τ) arg12 fullShare (k0_pay1 (hOf x0 x1 x2 x3 x4 x5 x6 x7) (k0_pay5 (F := F))) ∗ owns (c : Thread nD τ) arg13 fullShare (k0_pay2 (hOf x0 x1 x2 x3 x4 x5 x6 x7) (k0_pay6 (F := F)))) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds, %fs, -, HS⟩, ⟨%dq, %fq, -, HQ⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_first.sl.v51)
    (try delta run_first.sl.v54)
    (try delta run_first.sl.v33)
    (try delta run_first.sl.v40)
    (try delta run_first.sl.HS_1)
    (try delta run_first.sl.HQ_1)
    (try delta run_first.sl.r)
    rw [read_writes_rW]
    unfold hOf
    repeat (first | rw [readAt_rW] | rw [readAt_rM] | rw [readAt_rB] | rw [readAt_rN] | rw [readAt_rS] | rw [readCov_rS])
    try rfl
  isplitl [H9]
  · iexists f9; isplitr; · ipureintro; exact hf9
    iexact H9
  isplitl [H10]
  · iexists f10; isplitr; · ipureintro; exact hf10
    iexact H10
  isplitl [HS]
  · iexists _; isplitr
    swap; · iexact HS
    ipureintro
    (try delta run_first.sl.v51)
    (try delta run_first.sl.v54)
    (try delta run_first.sl.v33)
    (try delta run_first.sl.v40)
    (try delta run_first.sl.HS_1)
    (try delta run_first.sl.HQ_1)
    (try delta run_first.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_first.sl.v51)
  (try delta run_first.sl.v54)
  (try delta run_first.sl.v33)
  (try delta run_first.sl.v40)
  (try delta run_first.sl.HS_1)
  (try delta run_first.sl.HQ_1)
  (try delta run_first.sl.r)
  rw [read_writes_rS]
  unfold hOf
  repeat (first | rw [readAt_rW] | rw [readAt_rM] | rw [readAt_rB] | rw [readAt_rN] | rw [readAt_rS] | rw [readCov_rS])
  try rfl

end Cert.KernelIdeal.Combine
end
-- ==== Proof.KI.CombineRunLast.lean ====
import proofs.«158637_j65919158059656_1_alg».proof.Proof.KI.CombineRunFirst
set_option maxRecDepth 16384
noncomputable section
namespace Cert.KernelIdeal.Combine
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body at the LAST point (no reset, the statistics stored): as at a middle point, and the two statistics' buffers, at anything, are left at the mean payload of the new first scratch row and the variance payload of the two new scratch rows. -/
theorem run_last (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2000x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole)
    (hc1 : ¬cond1 i) (hc2 : cond2 i) (x0 x1 x2 : Vec F S2000x128 .f32) (x3 : Vec F S2000x1 .f32) (x4 x5 x6 : Vec F S128x128 .f32) (x7 : Vec F S128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare s ∗ owns (c : Thread nD τ) arg13 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (hOf x0 x1 x2 x3 x4 x5 x6 x7) ∗ owns (c : Thread nD τ) arg10 fullShare (k0_pay3 (k0_pay1 (hOf x0 x1 x2 x3 x4 x5 x6 x7) s)) ∗ owns (c : Thread nD τ) arg11 fullShare (k0_pay4 (k0_pay1 (hOf x0 x1 x2 x3 x4 x5 x6 x7) s) (k0_pay2 (hOf x0 x1 x2 x3 x4 x5 x6 x7) q))
            ∗ owns (c : Thread nD τ) arg12 fullShare (k0_pay1 (hOf x0 x1 x2 x3 x4 x5 x6 x7) s) ∗ owns (c : Thread nD τ) arg13 fullShare (k0_pay2 (hOf x0 x1 x2 x3 x4 x5 x6 x7) q)) -∗ K ⟨⟩))
      ⊢ wp frame (wpE (defs₀ (F := F)) Variants.none c none) E (cc0__combine_stats_kernel i arg1 harg1 arg2 harg2 arg3 harg3 arg4 harg4 arg5 harg5 arg6 harg6 arg7 harg7 arg8 harg8 arg9 harg9 arg10 harg10 arg11 harg11 arg12 harg12 arg13 harg13) K := by
  simp only [cc0__combine_stats_kernel_eq_skeleton]; unfold cc0__combine_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs, %hfs, HS⟩, ⟨%fq, %hfq, HQ⟩, Hk⟩
  subst hf0 hf1 hf2 hf3 hf4 hf5 hf6 hf7 hfs hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rW]
    unfold hOf
    repeat (first | rw [readAt_rW] | rw [readAt_rM] | rw [readAt_rB] | rw [readAt_rN] | rw [readAt_rS] | rw [readCov_rS])
    try rfl
  isplitl [H9]
  · iexists _; isplitr
    swap; · iexact H9
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  isplitl [H10]
  · iexists _; isplitr
    swap; · iexact H10
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  isplitl [HS]
  · iexists _; isplitr
    swap; · iexact HS
    ipureintro
    (try delta run_last.sl.v51)
    (try delta run_last.sl.v54)
    (try delta run_last.sl.v33)
    (try delta run_last.sl.v40)
    (try delta run_last.sl.HS_1)
    (try delta run_last.sl.HQ_1)
    (try delta run_last.sl.r)
    rw [read_writes_rS]
    unfold hOf
    repeat (first | rw [readAt_rW] | rw [readAt_rM] | rw [readAt_rB] | rw [readAt_rN] | rw [readAt_rS] | rw [readCov_rS])
    try rfl
  iexists _; isplitr
  swap; · iexact HQ
  ipureintro
  (try delta run_last.sl.v51)
  (try delta run_last.sl.v54)
  (try delta run_last.sl.v33)
  (try delta run_last.sl.v40)
  (try delta run_last.sl.HS_1)
  (try delta run_last.sl.HQ_1)
  (try delta run_last.sl.r)
  rw [read_writes_rS]
  unfold hOf
  repeat (first | rw [readAt_rW] | rw [readAt_rM] | rw [readAt_rB] | rw [readAt_rN] | rw [readAt_rS] | rw [readCov_rS])
  try rfl

end Cert.KernelIdeal.Combine
end
-- ==== Proof.KI.Combine.lean ====
import proofs.«158637_j65919158059656_1_alg».proof.Proof.KI.CombineRunLast
set_option maxRecDepth 16384
noncomputable section
namespace Cert.KernelIdeal.Combine
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 0 (the combine-and-statistics call) at the entry contents `V`: its proof data and body obligation -/

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the first output's buffer at point `t`: the combine payload of the point's input blocks. -/
def hblk (c : Dev nD) (t : Fin cfg0.N) : Vec F S2000x128 .f32 :=
  hOf (iblk V c 0 t) (iblk V c 1 t) (iblk V c 2 t) (iblk V c 3 t) (iblk V c 4 t) (iblk V c 5 t) (iblk V c 6 t) (iblk V c 7 t)

/-- The same by position (total: past the grid, the first point's). -/
def hAt (c : Dev nD) (n : ℕ) : Vec F S2000x128 .f32 :=
  if h : n < cfg0.N then hblk V c ⟨n, h⟩ else hblk V c ⟨0, by decide⟩

theorem hAt_val (c : Dev nD) (t : Fin cfg0.N) : hAt V c t.val = hblk V c t := by
  unfold hAt; rw [dif_pos t.isLt]

/-! ## The two scratch rows, point by point -/

/-- Scratch row 0 after the body at position `n`: reset to the zero row at the first point, then at every point the
    column sums of the point's block added. -/
def sumAt (c : Dev nD) : ℕ → Vec F S1x128 .f32
  | 0 => k0_pay1 (hAt V c 0) (k0_pay5 (F := F))
  | n + 1 => k0_pay1 (hAt V c (n + 1)) (sumAt c n)

/-- Scratch row 1 likewise, with the column sums of the block's squares. -/
def sqAt (c : Dev nD) : ℕ → Vec F S1x128 .f32
  | 0 => k0_pay2 (hAt V c 0) (k0_pay6 (F := F))
  | n + 1 => k0_pay2 (hAt V c (n + 1)) (sqAt c n)

/-! ## The invariant: the scoped rest with the two scratch rows taken out -/

/-- The core's scoped buffers that are neither a staging buffer of this call nor one of its two scratch rows. -/
def restBut (c : Dev nD) : sProp 𝕄 :=
  Pipeline.scopedRestBut (Ix := Unit) (Name := ℕ) (U := UR sig nD τ) (Lvl := ℕ) (Val := Elt F) spec0 c [cc0_scratch0, cc0_scratch1]

/-- The region invariant before position `n`: before the first point the two scratch rows at anything; afterwards at
    what the point before left in them; beside them the other scoped buffers and the generator register, untouched. -/
def PhiS (c : Dev nD) : ℕ → sProp 𝕄
  | 0 => iprop(((∃ d, owns (c : Thread nD τ) scM0 fullShare d) ∗ (∃ d, owns (c : Thread nD τ) scM1 fullShare d))
      ∗ restBut (F := F) c ∗ (∃ r, prngReg c r))
  | n + 1 => iprop((owns (c : Thread nD τ) scM0 fullShare (sumAt V c n) ∗ owns (c : Thread nD τ) scM1 fullShare (sqAt V c n))
      ∗ restBut (F := F) c ∗ (∃ r, prngReg c r))

/-! ## The proof data -/

/-- The proof data of the call on core `c`: the arrays as the region finds them; after the body each input's buffer at
    its block, the first output's at the combine payload of the blocks, the two statistics' at the mean and variance
    payloads of the scratch rows after the last point (read at the last point only: the windows are idle and not
    written back before it); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => hblk V c t
    | ⟨9, _⟩ => k0_pay3 (sumAt V c 24)
    | ⟨10, _⟩ => k0_pay4 (sumAt V c 24) (sqAt V c 24)
  Φ t := PhiS V c t.val
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window (the proof data's `match` reduced). -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = hblk V c t := by dsimp only [dat]
theorem after9 (c : Dev nD) (t : Fin cfg0.N) : (dat V c).after 9 t = k0_pay3 (sumAt V c 24) := by dsimp only [dat]
theorem after10 (c : Dev nD) (t : Fin cfg0.N) : (dat V c).after 10 t = k0_pay4 (sumAt V c 24) (sqAt V c 24) := by dsimp only [dat]

/-! Each input window's current staging buffer holds its block at every point, fetched there or not: a window not
    fetched at a point has the block index of the point before, so its buffer still holds this point's block. The
    three weights and the bias (windows 4..7) have a constant index and are fetched once; the four tile windows at
    every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-! ## The scratch rows and the invariant at a point -/

theorem sumAt_first (c : Dev nD) (t : Fin cfg0.N) (h0 : t.val = 0) :
    sumAt V c t.val = k0_pay1 (hblk V c t) (k0_pay5 (F := F)) := by
  have e := hAt_val V c t
  rw [h0] at e ⊢
  rw [← e]; rfl
theorem sqAt_first (c : Dev nD) (t : Fin cfg0.N) (h0 : t.val = 0) :
    sqAt V c t.val = k0_pay2 (hblk V c t) (k0_pay6 (F := F)) := by
  have e := hAt_val V c t
  rw [h0] at e ⊢
  rw [← e]; rfl
theorem sumAt_later (c : Dev nD) (t : Fin cfg0.N) (h0 : t.val ≠ 0) :
    sumAt V c t.val = k0_pay1 (hblk V c t) (sumAt V c (t.val - 1)) := by
  have e := hAt_val V c t
  obtain ⟨n, hn⟩ := t
  cases n with
  | zero => exact absurd rfl h0
  | succ n => rw [← e]; rfl
theorem sqAt_later (c : Dev nD) (t : Fin cfg0.N) (h0 : t.val ≠ 0) :
    sqAt V c t.val = k0_pay2 (hblk V c t) (sqAt V c (t.val - 1)) := by
  have e := hAt_val V c t
  obtain ⟨n, hn⟩ := t
  cases n with
  | zero => exact absurd rfl h0
  | succ n => rw [← e]; rfl

theorem PhiS_zero (c : Dev nD) (n : ℕ) (hz : n = 0) :
    PhiS V c n = iprop(((∃ d, owns (c : Thread nD τ) scM0 fullShare d) ∗ (∃ d, owns (c : Thread nD τ) scM1 fullShare d))
      ∗ restBut (F := F) c ∗ (∃ r, prngReg c r)) := by
  subst hz; rfl
theorem PhiS_succ (c : Dev nD) (n : ℕ) :
    PhiS V c (n + 1) = iprop((owns (c : Thread nD τ) scM0 fullShare (sumAt V c n) ∗ owns (c : Thread nD τ) scM1 fullShare (sqAt V c n))
      ∗ restBut (F := F) c ∗ (∃ r, prngReg c r)) := rfl
theorem PhiS_pos (c : Dev nD) (n : ℕ) (hz : n ≠ 0) :
    PhiS V c n = iprop((owns (c : Thread nD τ) scM0 fullShare (sumAt V c (n - 1)) ∗ owns (c : Thread nD τ) scM1 fullShare (sqAt V c (n - 1)))
      ∗ restBut (F := F) c ∗ (∃ r, prngReg c r)) := by
  cases n with
  | zero => exact absurd rfl hz
  | succ n => rfl

theorem Phi_castSucc (c : Dev nD) (t : Fin cfg0.N) : (dat V c).Φ t.castSucc = PhiS V c t.val := by
  dsimp only [dat]; simp only [Fin.coe_castSucc]
theorem Phi_succ (c : Dev nD) (t : Fin cfg0.N) : (dat V c).Φ t.succ = PhiS V c (t.val + 1) := by
  dsimp only [dat]; simp only [Fin.val_succ]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns: each window's buffer at what the body leaves, the two statistics' before the last point as
    the body found them. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- The body at any point: the inputs' memrefs hold their blocks; the closed forms of the two conditions say which of
    the three runs applies; the invariant hands the body the two scratch rows at what the point before left (at
    anything at the first point) and takes them back at this point's contents; the other scoped buffers, the generator
    register and the core's obligations pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7]
  rw [show (dat V c).owesAt () t.succ = (dat V c).owesAt () t.castSucc from rfl, Phi_succ, Phi_castSucc, PhiS_succ]
  rw [show (dat V c).leavesExact 0 t = owns (c : Thread nD τ) (st0_0 t) fullShare ((dat V c).after 0 t) from rfl, after0]
  rw [show (dat V c).leavesExact 1 t = owns (c : Thread nD τ) (st0_1 t) fullShare ((dat V c).after 1 t) from rfl, after1]
  rw [show (dat V c).leavesExact 2 t = owns (c : Thread nD τ) (st0_2 t) fullShare ((dat V c).after 2 t) from rfl, after2]
  rw [show (dat V c).leavesExact 3 t = owns (c : Thread nD τ) (st0_3 t) fullShare ((dat V c).after 3 t) from rfl, after3]
  rw [show (dat V c).leavesExact 4 t = owns (c : Thread nD τ) (st0_4 t) fullShare ((dat V c).after 4 t) from rfl, after4]
  rw [show (dat V c).leavesExact 5 t = owns (c : Thread nD τ) (st0_5 t) fullShare ((dat V c).after 5 t) from rfl, after5]
  rw [show (dat V c).leavesExact 6 t = owns (c : Thread nD τ) (st0_6 t) fullShare ((dat V c).after 6 t) from rfl, after6]
  rw [show (dat V c).leavesExact 7 t = owns (c : Thread nD τ) (st0_7 t) fullShare ((dat V c).after 7 t) from rfl, after7]
  rw [show (dat V c).leavesExact 8 t = owns (c : Thread nD τ) (st0_8 t) fullShare ((dat V c).after 8 t) from rfl, after8]
  have hN : t.val < 25 := lt_of_lt_of_eq t.isLt (show cfg0.N = 25 from N_0)
  by_cases h0 : t.val = 0
  · have hc1 : cond1 (grid0.coords t) := (hcond1 t).mpr h0
    have hc2 : ¬cond2 (grid0.coords t) := fun h => by have := (hcond2 t).mp h; omega
    rw [Dat.leavesExact_idle (dat V c) 9 t (idle9 t hc2) (noFlush9 t hc2),
      Dat.leavesExact_idle (dat V c) 10 t (idle10 t hc2) (noFlush10 t hc2)]
    rw [PhiS_zero V c _ h0, sumAt_first V c t h0, sqAt_first V c t h0]
    unfold hblk
    iintro ⟨⟨⟨⟨%ds, HS⟩, ⟨%dq, HQ⟩⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS]; · iexists _; iexact HS
    isplitl [HQ]; · iexists _; iexact HQ
    iintro ⟨H0, H1, H2, H3, H4, H5, H6, H7, H8, H9, H10, HS, HQ⟩
    isplitl [HS HQ HR Hg]
    · isplitl [HS HQ]
      · isplitl [HS]; · iexact HS
        iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc1 : ¬cond1 (grid0.coords t) := fun h => h0 ((hcond1 t).mp h)
    rw [PhiS_pos V c _ h0, sumAt_later V c t h0, sqAt_later V c t h0]
    by_cases h24 : t.val = 24
    · have hc2 : cond2 (grid0.coords t) := (hcond2 t).mpr h24
      rw [show (dat V c).leavesExact 9 t = owns (c : Thread nD τ) (st0_9 t) fullShare ((dat V c).after 9 t) from by
        unfold Dat.leavesExact; rw [live9 t hc2], after9]
      rw [show (dat V c).leavesExact 10 t = owns (c : Thread nD τ) (st0_10 t) fullShare ((dat V c).after 10 t) from by
        unfold Dat.leavesExact; rw [live10 t hc2], after10]
      rw [show sumAt V c 24 = sumAt V c t.val from by rw [h24], show sqAt V c 24 = sqAt V c t.val from by rw [h24],
        sumAt_later V c t h0, sqAt_later V c t h0]
      unfold hblk
      iintro ⟨⟨⟨HS, HQ⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      isplitl [HQ]; · iexact HQ
      iintro ⟨H0, H1, H2, H3, H4, H5, H6, H7, H8, H9, H10, HS, HQ⟩
      isplitl [HS HQ HR Hg]
      · isplitl [HS HQ]
        · isplitl [HS]; · iexact HS
          iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬cond2 (grid0.coords t) := fun h => h24 ((hcond2 t).mp h)
      rw [Dat.leavesExact_idle (dat V c) 9 t (idle9 t hc2) (noFlush9 t hc2),
        Dat.leavesExact_idle (dat V c) 10 t (idle10 t hc2) (noFlush10 t hc2)]
      unfold hblk
      iintro ⟨⟨⟨HS, HQ⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c Set.univ (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS]; · iexact HS
      isplitl [HQ]; · iexact HQ
      iintro ⟨H0, H1, H2, H3, H4, H5, H6, H7, H8, H9, H10, HS, HQ⟩
      isplitl [HS HQ HR Hg]
      · isplitl [HS HQ]
        · isplitl [HS]; · iexact HS
          iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- The scoped rest, its two scratch rows named as memrefs owned at some contents. -/
theorem scoped_eq (c : Dev nD) :
    (Pipeline.scopedRest (Ix := Unit) (Name := ℕ) (U := UR sig nD τ) (Lvl := ℕ) (Val := Elt F) spec0 c : sProp 𝕄)
      = iprop(((∃ d, owns (c : Thread nD τ) scM0 fullShare d) ∗ (∃ d, owns (c : Thread nD τ) scM1 fullShare d)) ∗ restBut (F := F) c) := by
  unfold restBut
  rw [Pipeline.scopedRest_split_of_list spec0 c [cc0_scratch0, cc0_scratch1] (by decide) (by decide)]
  simp only [scM0, scM1, owns_whole]; rfl

/-- What the launch hands the region is the invariant before the first point. -/
theorem Phi_first (c : Dev nD) : iprop((∃ r, prngReg c r) ∗ Pipeline.scopedRest (Ix := Unit) (Name := ℕ) (U := UR sig nD τ) (Lvl := ℕ) (Val := Elt F) spec0 c) ⊢ (dat V c).Φ 0 := by
  rw [show (dat V c).Φ 0 = PhiS V c 0 from rfl, PhiS_zero V c 0 rfl, scoped_eq]
  iintro ⟨Hg, HS, HR⟩
  isplitl [HS]; · iexact HS
  isplitl [HR]; · iexact HR
  iexact Hg

/-- After the last point the invariant gives it back: the scratch rows' named contents are forgotten. -/
theorem Phi_last (c : Dev nD) : (dat V c).Φ (Fin.last cfg0.N) ⊢ iprop((∃ r, prngReg c r) ∗ Pipeline.scopedRest (Ix := Unit) (Name := ℕ) (U := UR sig nD τ) (Lvl := ℕ) (Val := Elt F) spec0 c) := by
  rw [show (dat V c).Φ (Fin.last cfg0.N) = PhiS V c (24 + 1) from rfl, PhiS_succ, scoped_eq]
  iintro ⟨⟨HS, HQ⟩, HR, Hg⟩
  isplitl [Hg]; · iexact Hg
  isplitl [HS HQ]
  · isplitl [HS]
    · iexists _; iexact HS
    iexists _; iexact HQ
  iexact HR

end Cert.KernelIdeal.Combine
end
-- ==== Proof.KI.Run.lean ====
/-
  The whole program's run, with what every buffer holds at the end.

  @main is six items: three stretches of host operations (the degree count, its clamp, and the two propagation passes),
  the first kernel region (the combined projection and the column statistics), one more stretch (the statistics' rows
  recast as vectors) and the second kernel region (normalise, rectify, add the input back). Between two items every
  unscoped buffer of a core is held whole at a valuation: the launch memory `B0`; after each stretch its operations
  applied (`B1`, `B2`, `B3`, `B5`); after a region its windows' arrays at what the pipeline's write-backs leave and
  every other buffer as it was (`B4`, `B6`). Each region enters the pipeline's rule with its arrays split out of
  the held buffers and hands them back at the exit contents; the generator register and the core's empty debt ride
  along. The composed run ends with every unscoped buffer at `B6`.
-/
import proofs.«158637_j65919158059656_1_alg».proof.Proof.Gen.KernelIdeal.Regions
import proofs.«158637_j65919158059656_1_alg».proof.Proof.KI.Norm
import proofs.«158637_j65919158059656_1_alg».proof.Proof.KI.Combine
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- After the degree count. -/
abbrev B1 : Dev nD → Valuation τ sig (Elt F) := fun c => StableHlo.after hostOps0 (B0 m c)
/-- After the clamp. -/
abbrev B2 : Dev nD → Valuation τ sig (Elt F) := fun c => StableHlo.after hostOps0_1 (B1 m c)
/-- After the two propagation passes: what the first region is entered from. -/
abbrev B3 : Dev nD → Valuation τ sig (Elt F) := fun c => StableHlo.after hostOps0_2 (B2 m c)
/-- The same, read at the TensorCore's references. -/
abbrev E3 : (c : Dev nD) → (b : Ref sig .tc) → Buf (Elt F) ((c : Thread nD τ).loc b) := fun c b => B3 m c b

/-- After the first region: its windows' arrays at what the write-backs leave, the rest as entered. -/
def B4 (c : Dev nD) : Valuation τ sig (Elt F) :=
  Pipeline.withArrays spec0 c (B3 m c) fun w => (Combine.dat (E3 m) c).arrAt w cfg0.N

theorem B4_arr (c : Dev nD) (w : Fin cfg0.W) :
    B4 m c (Proc.devRef .tc (Pipeline.arrRef spec0 w)) = (Combine.dat (E3 m) c).arrAt w cfg0.N := by
  unfold B4; exact Pipeline.withArrays_arr spec0 launch0.win.arr_inj c _ _ w

theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb

abbrev E4 : (c : Dev nD) → (b : Ref sig .tc) → Buf (Elt F) ((c : Thread nD τ).loc b) := fun c b => B4 m c b

/-- After the statistics' rows are recast: what the second region is entered from. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b

/-- After the second region. -/
def B6 (c : Dev nD) : Valuation τ sig (Elt F) :=
  Pipeline.withArrays spec1 c (B5 m c) fun w => (Norm.dat (E5 m) c).arrAt w cfg1.N

theorem B6_arr (c : Dev nD) (w : Fin cfg1.W) :
    B6 m c (Proc.devRef .tc (Pipeline.arrRef spec1 w)) = (Norm.dat (E5 m) c).arrAt w cfg1.N := by
  unfold B6; exact Pipeline.withArrays_arr spec1 launch1.win.arr_inj c _ _ w

theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb

abbrev E6 : (c : Dev nD) → (b : Ref sig .tc) → Buf (Elt F) ((c : Thread nD τ).loc b) := fun c b => B6 m c b

/-! ## The proof data of both pipelines, and what rides along -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Combine.dat (E3 m) c
  | ⟨1, _⟩ => fun c => Norm.dat (E5 m) c

abbrev noVar : Variants := Variants.none
/-- No core owes another anything. -/
abbrev noLev : GSem nD τ sig → Finset Unit := fun _ => ∅
abbrev lev0 : GSem nD τ sig → Unit → ℕ := fun _ _ => 0

/-- Beside the buffers: the generator register at some state and the core's debt, empty. -/
abbrev rest (c : Dev nD) : sProp 𝕄 := iprop((∃ r, prngReg c r) ∗ ∃ W, owes (c : Thread nD τ) (0 : CellTallies nD τ sig Unit) W)

/-- A stretch of host operations as a segment over the unscoped buffers from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-! ## The regions as segments -/

set_option backward.isDefEq.respectTransparency.types false in
/-- The first region, entered from `B3` and left at `B4`. Its invariant takes the generator register and the scoped
    buffers no window stages (the two accumulator rows among them) at entry and gives them back at exit. -/
def reg0 : Pipeline.RegionSeg (pcfgs (F := F)) adm (pdats m) () defs₀ noVar noLev lev0 0 where
  win := launch0.win.to₀
  block_pos := launch0.block_pos
  stage_whole := launch0.stage_whole
  K := PEmpty
  osem k := k.elim
  ho := Pipeline.OwnSemFacts.none _
  hbody c := (Combine.body_obligation (E3 m) c).loose
  hwaits := Pipeline.hwaits_of_owed_zero _ _ _ _ noLev lev0 0 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Combine.dat (E3 m) c).Φ 0 from rfl]
    iintro ⟨Hp, -, Hr⟩
    iapply (Combine.Phi_first (E3 m) c)
    isplitl [Hp]; · iexact Hp
    iexact Hr
  hout c := by
    rw [Pipeline.ownSems0_none, show (pdats m 0 c).Φ (Fin.last _) = (Combine.dat (E3 m) c).Φ (Fin.last cfg0.N) from rfl]
    iintro H
    ihave H' := (Combine.Phi_last (E3 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, entered from `B5` and left at `B6`: no scratch, the class invariant unchanged from point to point. -/
def reg1 : Pipeline.RegionSeg (pcfgs (F := F)) adm (pdats m) () defs₀ noVar noLev lev0 1 where
  win := launch1.win.to₀
  block_pos := launch1.block_pos
  stage_whole := launch1.stage_whole
  K := PEmpty
  osem k := k.elim
  ho := Pipeline.OwnSemFacts.none _
  hbody c := (Norm.body_obligation (E5 m) c).loose
  hwaits := Pipeline.hwaits_of_owed_zero _ _ _ _ noLev lev0 1 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (fun w => (B6_arr m c w).symm)
      (fun b hb => B6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six segments, and the launch -/

abbrev segs : List (Pipeline.Seg (pcfgs (F := F)) adm (pdats m) () defs₀ noVar noLev lev0) :=
  [ .host (stretch hostOps0 hostOps0_sub hostOps0_fresh (B0 m)),
    .host (stretch hostOps0_1 hostOps0_1_sub hostOps0_1_fresh (B1 m)),
    .host (stretch hostOps0_2 hostOps0_2_sub hostOps0_2_fresh (B2 m)),
    .region (reg0 m),
    .host (stretch hostOps1 hostOps1_sub hostOps1_fresh (B4 m)),
    .region (reg1 m) ]

/-- @main is the run of its segments. -/
theorem main_run (c : Dev nD) : main (F := F) c = Pipeline.Seg.run (segs m) := (main_chain c).trans (by chain_rfl)

/-- The last thread state beside the empty debt. -/
abbrev lastState (c : Dev nD) : sProp 𝕄 := iprop(StableHlo.held (c : Thread nD τ) (Pipeline.ucRefs τ sig) (B6 m c) ∗ ∃ r, prngReg c r)

set_option backward.isDefEq.respectTransparency.types false in
/-- THE RUN: from any memory with zero counters every weakly fair execution of @main terminates, nothing faulting, and
    on every core every unscoped buffer ends at `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ rest c)) (Tₙ := lastState m)
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach noLev lev0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

end Cert.KernelIdeal.Run

end
-- ==== Proof.KI.RunEnds.lean ====
/-
  What the last valuation holds, buffer by buffer.

  No host operation writes an argument, and a kernel region changes only its result arrays: an argument that is an
  input window's array leaves a region as it entered it (an input window is never written back), and one that is no
  window's array bypasses the region. So every argument ends at its launch contents. The program's result is the second
  region's result array. On the way: the first region's three result arrays, the two of them that the following
  stretch recasts from a row [1,128] to a vector [128], and the arguments as each region finds them.
-/
import proofs.«158637_j65919158059656_1_alg».proof.Proof.KI.Run
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem Idealize.ShloMosaic.StableHlo
open Idealize.ShloMosaic.Pipeline (Dat)

variable {F : FTy → Type} [FloatOps F]
variable (m : (ℓ : Loc nD τ sig) → Buf (Elt F) ℓ)

/-! ## Through the host stretches -/

/-- A buffer none of the first three stretches writes holds its launch contents when the first region is entered. -/
theorem B3_keep (c : Dev nD) (r : Ref sig .tc) (h0 : r ∉ hostOps0_W) (h1 : r ∉ hostOps0_1_W) (h2 : r ∉ hostOps0_2_W) :
    B3 m c r = m ((c : Thread nD τ).loc r) :=
  (V3_of m c r h2).trans <| (V2_of m c r h1).trans <| (V1_of m c r h0).trans rfl

/-- A buffer the recasting stretch does not write passes through it. -/
theorem B5_keep (c : Dev nD) (r : Ref sig .tc) (h : r ∉ hostOps1_W) : B5 m c r = B4 m c r :=
  StableHlo.after_of_writes_sub hostOps1 _ hostOps1_writes h

/-- The mean vector the second region reads is the first region's mean row recast. -/
theorem B5_mean (c : Dev nD) :
    B5 m c (Proc.devRef .tc main_v37) = shapeCast S128 (B4 m c (Proc.devRef .tc main_v36_1)) shapeCasts_S1x128_S128 := by
  show StableHlo.after hostOps1 _ (Proc.devRef .tc main_v37) = _
  after_results
  rfl

/-- The variance vector the second region reads is the first region's variance row recast. -/
theorem B5_var (c : Dev nD) :
    B5 m c (Proc.devRef .tc main_v38) = shapeCast S128 (B4 m c (Proc.devRef .tc main_v36_2)) shapeCasts_S1x128_S128 := by
  show StableHlo.after hostOps1 _ (Proc.devRef .tc main_v38) = _
  after_results
  rfl

/-! ## Through the regions -/

/-- An input window's array leaves the first region as it entered it. -/
theorem B4_in (c : Dev nD) (w : Fin cfg0.W) (hin : (cfg0.win w).isOut = false) :
    B4 m c (Proc.devRef .tc (Pipeline.arrRef spec0 w)) = B3 m c (Proc.devRef .tc (Pipeline.arrRef spec0 w)) :=
  (B4_arr m c w).trans (((Combine.dat (E3 m) c).arrAt_in w hin _).trans (Combine.A_eq (E3 m) c w))

/-- An input window's array leaves the second region as it entered it. -/
theorem B6_in (c : Dev nD) (w : Fin cfg1.W) (hin : (cfg1.win w).isOut = false) :
    B6 m c (Proc.devRef .tc (Pipeline.arrRef spec1 w)) = B5 m c (Proc.devRef .tc (Pipeline.arrRef spec1 w)) :=
  (B6_arr m c w).trans (((Norm.dat (E5 m) c).arrAt_in w hin _).trans (Norm.A_eq (E5 m) c w))

/-! ## The arguments as each region finds them -/

theorem B3_arg0 (c : Dev nD) : B3 m c (Proc.devRef .tc main_arg0) = m ((c : Thread nD τ).loc main_arg0) := B3_keep m c main_arg0 (by decide) (by decide) (by decide)
theorem B3_arg1 (c : Dev nD) : B3 m c (Proc.devRef .tc main_arg1) = m ((c : Thread nD τ).loc main_arg1) := B3_keep m c main_arg1 (by decide) (by decide) (by decide)
theorem B3_arg2 (c : Dev nD) : B3 m c (Proc.devRef .tc main_arg2) = m ((c : Thread nD τ).loc main_arg2) := B3_keep m c main_arg2 (by decide) (by decide) (by decide)
theorem B3_arg3 (c : Dev nD) : B3 m c (Proc.devRef .tc main_arg3) = m ((c : Thread nD τ).loc main_arg3) := B3_keep m c main_arg3 (by decide) (by decide) (by decide)
theorem B3_arg4 (c : Dev nD) : B3 m c (Proc.devRef .tc main_arg4) = m ((c : Thread nD τ).loc main_arg4) := B3_keep m c main_arg4 (by decide) (by decide) (by decide)
theorem B3_arg5 (c : Dev nD) : B3 m c (Proc.devRef .tc main_arg5) = m ((c : Thread nD τ).loc main_arg5) := B3_keep m c main_arg5 (by decide) (by decide) (by decide)
theorem B3_arg6 (c : Dev nD) : B3 m c (Proc.devRef .tc main_arg6) = m ((c : Thread nD τ).loc main_arg6) := B3_keep m c main_arg6 (by decide) (by decide) (by decide)
theorem B3_arg7 (c : Dev nD) : B3 m c (Proc.devRef .tc main_arg7) = m ((c : Thread nD τ).loc main_arg7) := B3_keep m c main_arg7 (by decide) (by decide) (by decide)
theorem B3_arg8 (c : Dev nD) : B3 m c (Proc.devRef .tc main_arg8) = m ((c : Thread nD τ).loc main_arg8) := B3_keep m c main_arg8 (by decide) (by decide) (by decide)
theorem B3_arg9 (c : Dev nD) : B3 m c (Proc.devRef .tc main_arg9) = m ((c : Thread nD τ).loc main_arg9) := B3_keep m c main_arg9 (by decide) (by decide) (by decide)

/-- The features, an input of both regions, as the second region finds them. -/
theorem B5_arg0 (c : Dev nD) : B5 m c (Proc.devRef .tc main_arg0) = m ((c : Thread nD τ).loc main_arg0) :=
  (B5_keep m c main_arg0 (by decide)).trans <| (B4_in m c 0 rfl).trans (B3_arg0 m c)
/-- The batch-norm scale: no window of the first region. -/
theorem B5_arg6 (c : Dev nD) : B5 m c (Proc.devRef .tc main_arg6) = m ((c : Thread nD τ).loc main_arg6) :=
  (B5_keep m c main_arg6 (by decide)).trans <| (B4_of_ne m c main_arg6 (by decide)).trans (B3_arg6 m c)
/-- The batch-norm shift: no window of the first region. -/
theorem B5_arg7 (c : Dev nD) : B5 m c (Proc.devRef .tc main_arg7) = m ((c : Thread nD τ).loc main_arg7) :=
  (B5_keep m c main_arg7 (by decide)).trans <| (B4_of_ne m c main_arg7 (by decide)).trans (B3_arg7 m c)
/-- The combined projection as the second region finds it: the first region's first result array. -/
theorem B5_h (c : Dev nD) : B5 m c (Proc.devRef .tc main_v36_0) = (Combine.dat (E3 m) c).arrAt 8 cfg0.N :=
  (B5_keep m c main_v36_0 (by decide)).trans (B4_arr m c 8)

/-! ## The end -/

theorem B6_arg0 (c : Dev nD) : B6 m c (Proc.devRef .tc main_arg0) = m ((c : Thread nD τ).loc main_arg0) :=
  (B6_in m c 1 rfl).trans (B5_arg0 m c)
theorem B6_arg1 (c : Dev nD) : B6 m c (Proc.devRef .tc main_arg1) = m ((c : Thread nD τ).loc main_arg1) :=
  (B6_of_ne m c main_arg1 (by decide)).trans <| (B5_keep m c main_arg1 (by decide)).trans <| (B4_in m c 3 rfl).trans (B3_arg1 m c)
theorem B6_arg2 (c : Dev nD) : B6 m c (Proc.devRef .tc main_arg2) = m ((c : Thread nD τ).loc main_arg2) :=
  (B6_of_ne m c main_arg2 (by decide)).trans <| (B5_keep m c main_arg2 (by decide)).trans <| (B4_in m c 4 rfl).trans (B3_arg2 m c)
theorem B6_arg3 (c : Dev nD) : B6 m c (Proc.devRef .tc main_arg3) = m ((c : Thread nD τ).loc main_arg3) :=
  (B6_of_ne m c main_arg3 (by decide)).trans <| (B5_keep m c main_arg3 (by decide)).trans <| (B4_in m c 5 rfl).trans (B3_arg3 m c)
theorem B6_arg4 (c : Dev nD) : B6 m c (Proc.devRef .tc main_arg4) = m ((c : Thread nD τ).loc main_arg4) :=
  (B6_of_ne m c main_arg4 (by decide)).trans <| (B5_keep m c main_arg4 (by decide)).trans <| (B4_in m c 6 rfl).trans (B3_arg4 m c)
theorem B6_arg5 (c : Dev nD) : B6 m c (Proc.devRef .tc main_arg5) = m ((c : Thread nD τ).loc main_arg5) :=
  (B6_of_ne m c main_arg5 (by decide)).trans <| (B5_keep m c main_arg5 (by decide)).trans <| (B4_in m c 7 rfl).trans (B3_arg5 m c)
theorem B6_arg6 (c : Dev nD) : B6 m c (Proc.devRef .tc main_arg6) = m ((c : Thread nD τ).loc main_arg6) :=
  (B6_in m c 4 rfl).trans (B5_arg6 m c)
theorem B6_arg7 (c : Dev nD) : B6 m c (Proc.devRef .tc main_arg7) = m ((c : Thread nD τ).loc main_arg7) :=
  (B6_in m c 5 rfl).trans (B5_arg7 m c)
theorem B6_arg8 (c : Dev nD) : B6 m c (Proc.devRef .tc main_arg8) = m ((c : Thread nD τ).loc main_arg8) :=
  (B6_of_ne m c main_arg8 (by decide)).trans <| (B5_keep m c main_arg8 (by decide)).trans <| (B4_of_ne m c main_arg8 (by decide)).trans (B3_arg8 m c)
theorem B6_arg9 (c : Dev nD) : B6 m c (Proc.devRef .tc main_arg9) = m ((c : Thread nD τ).loc main_arg9) :=
  (B6_of_ne m c main_arg9 (by decide)).trans <| (B5_keep m c main_arg9 (by decide)).trans <| (B4_of_ne m c main_arg9 (by decide)).trans (B3_arg9 m c)

/-- The program's result is the second region's result array. -/
theorem B6_result (c : Dev nD) : B6 m c (Proc.devRef .tc main_v39) = (Norm.dat (E5 m) c).arrAt 6 cfg1.N :=
  B6_arr m c 6

/-- An unscoped TensorCore reference is among those read back at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance: every weakly fair execution terminates, nothing faulting, with every argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B6_arg0 m c), (h c _ (mem_uc main_arg1 (by decide))).trans (B6_arg1 m c),
     (h c _ (mem_uc main_arg2 (by decide))).trans (B6_arg2 m c), (h c _ (mem_uc main_arg3 (by decide))).trans (B6_arg3 m c),
     (h c _ (mem_uc main_arg4 (by decide))).trans (B6_arg4 m c), (h c _ (mem_uc main_arg5 (by decide))).trans (B6_arg5 m c),
     (h c _ (mem_uc main_arg6 (by decide))).trans (B6_arg6 m c), (h c _ (mem_uc main_arg7 (by decide))).trans (B6_arg7 m c),
     (h c _ (mem_uc main_arg8 (by decide))).trans (B6_arg8 m c), (h c _ (mem_uc main_arg9 (by decide))).trans (B6_arg9 m c)⟩)
    (run_all m ρ)

end Cert.KernelIdeal.Run

end
-- ==== Proof.Spec.lean ====
/-
  The layer both programs compute, as functions of the argument arrays on the extended reals, index by index.

  For node features f [N,F], once- and twice-propagated features a, a₂ [N,F], a per-node scale s [N,1], weights
  W₁ W₂ W₃ [F,F], bias b [F], batch-norm scale γ and shift β [F] (N = 50000, F = 128):

    h(p,q)   = (Σ_k f(p,k)·W₁(k,q) ∓ Σ_k a(p,k)·W₂(k,q) + Σ_k (2·a₂(p,k) − f(p,k))·W₃(k,q) + b(q)) · s(p)
    μ(q)     = (Σ_p h(p,q)) / N
    σ²(q)    = (Σ_p h(p,q)²) / N − μ(q)²          in the one-pass form
             = (Σ_p (h(p,q) − μ(q))²) / N          in the two-pass form
    out(p,q) = f(p,q) + max(((h(p,q) − μ(q)) · (σ²(q) + ε)^(−1/2)) · γ(q) + β(q), 0)

  One spelling subtracts the middle contraction (`hSub`), the other adds the contraction of the negated operand
  (`hNeg`); one takes the variance in one pass (`varOne`), the other in two (`varTwo`). On the extended reals the
  two spellings agree when every entry of f, a, a₂, s, the weights and the bias is a real number (Proof/LayerLaw.lean);
  they need not at infinities, where negation does not distribute over a sum and the two variances differ.
  Every float word is kept as the word it is printed with; no program is imported here.
-/
import Idealize.ShloMosaic.PureOps.Ideal
import Idealize.ShloMosaic.Lib.ValueIdx

noncomputable section

namespace Cert.Spec

open Idealize.ShloMosaic Idealize.ShloMosaic.ValueIdx

/-- Node features [50000,128]. -/
abbrev ArrN : Type := (⟨2, ![50000, 128]⟩ : Shape).Idx → EReal
/-- A column [50000,1]. -/
abbrev ArrN1 : Type := (⟨2, ![50000, 1]⟩ : Shape).Idx → EReal
/-- A weight matrix [128,128]. -/
abbrev ArrW : Type := (⟨2, ![128, 128]⟩ : Shape).Idx → EReal
/-- A feature vector [128]. -/
abbrev ArrC : Type := (⟨1, ![128]⟩ : Shape).Idx → EReal
/-- A [50000,128] array given by coordinates. -/
abbrev Tab : Type := Fin 50000 → Fin 128 → EReal

/-- The words 2.0, 50000.0 and the batch-norm epsilon, as printed. -/
def two : EReal := Ideal.ofBits .f32 0x40000000#32
def cnt : EReal := Ideal.ofBits .f32 0x47435000#32
def eps : EReal := Ideal.ofBits .f32 0x3727C5AC#32

/-- Rows times a weight matrix: Σ_k x(p,k)·W(k,q). -/
def dot (x : ArrN) (w : ArrW) (p : Fin 50000) (q : Fin 128) : EReal := ∑ k : Fin 128, x (ix2 p k) * w (ix2 k q)

/-- The combined projection with the middle contraction SUBTRACTED. -/
def hSub (f a a2 : ArrN) (s : ArrN1) (w1 w2 w3 : ArrW) (b : ArrC) : Tab := fun p q =>
  (((dot f w1 p q - dot a w2 p q) + dot (fun i => two * a2 i - f i) w3 p q) + b (ix1 q)) * s (ix2 p 0)

/-- The combined projection with the contraction of the NEGATED middle operand added. -/
def hNeg (f a a2 : ArrN) (s : ArrN1) (w1 w2 w3 : ArrW) (b : ArrC) : Tab := fun p q =>
  (((dot f w1 p q + dot (fun i => - a i) w2 p q) + dot (fun i => two * a2 i - f i) w3 p q) + b (ix1 q)) * s (ix2 p 0)

/-- The sum down column q. -/
def colSum (H : Tab) (q : Fin 128) : EReal := ∑ p : Fin 50000, H p q

/-- The column mean. -/
def meanOf (H : Tab) (q : Fin 128) : EReal := Ideal.div (colSum H q) cnt

/-- The variance in one pass: the mean of the squares less the square of the mean. -/
def varOne (H : Tab) (q : Fin 128) : EReal := Ideal.div (colSum (fun p q => H p q * H p q) q) cnt - meanOf H q * meanOf H q

/-- The variance in two passes: the mean of the squared deviations. -/
def varTwo (H : Tab) (q : Fin 128) : EReal :=
  Ideal.div (colSum (fun p q => (H p q - meanOf H q) * (H p q - meanOf H q)) q) cnt

/-- Normalise, scale, shift, rectify, add the input back: one entry, from the entry of h and the column's statistics. -/
def normEntry (fe he mean var g be : EReal) : EReal := fe + max ((((he - mean) * Ideal.rsqrt (var + eps)) * g) + be) 0

/-- The layer with the subtracting projection and the one-pass variance. -/
def outOne (f a a2 : ArrN) (s : ArrN1) (w1 w2 w3 : ArrW) (b g be : ArrC) (p : Fin 50000) (q : Fin 128) : EReal :=
  normEntry (f (ix2 p q)) (hSub f a a2 s w1 w2 w3 b p q) (meanOf (hSub f a a2 s w1 w2 w3 b) q) (varOne (hSub f a a2 s w1 w2 w3 b) q)
    (g (ix1 q)) (be (ix1 q))

/-- The layer with the negated-operand projection and the two-pass variance. -/
def outTwo (f a a2 : ArrN) (s : ArrN1) (w1 w2 w3 : ArrW) (b g be : ArrC) (p : Fin 50000) (q : Fin 128) : EReal :=
  normEntry (f (ix2 p q)) (hNeg f a a2 s w1 w2 w3 b p q) (meanOf (hNeg f a a2 s w1 w2 w3 b) q) (varTwo (hNeg f a a2 s w1 w2 w3 b) q)
    (g (ix1 q)) (be (ix1 q))

/-- Every entry is a real number. -/
def IsReal {ι : Type} (x : ι → EReal) : Prop := ∀ i, ∃ r : ℝ, x i = (r : EReal)

end Cert.Spec

end
-- ==== Proof.KI.NormValue.lean ====
import proofs.«158637_j65919158059656_1_alg».proof.Proof.KI.Norm
import proofs.«158637_j65919158059656_1_alg».proof.Proof.Spec
import Idealize.ShloMosaic.Lib.Pipeline.Value
import Idealize.ShloMosaic.Lib.ValueLayout
import Idealize.ShloMosaic.Lib.ValueIdx
import Idealize.ShloMosaic.PureOps.Ideal.Laws
set_option maxRecDepth 16384
/-! The value of the second pipeline's output array at the ideal instance, entry by entry: what each grid point writes
    back is its tile of one function of the arrays the region is entered with, the 25 tiles cover the 50000 rows, so the
    array ends as that function; at (p, q) it is the residual entry plus the rectified normalised entry of h. -/
noncomputable section
namespace Cert.KernelIdeal.Norm
open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's payload at an index -/

/-- A [128] row viewed [1,128], read at (0, q), is the row at q. -/
theorem row_cast_apply {α : Type} (x : S128.Idx → α) (q : Fin 128) :
    shapeCast S1x128 x shapeCasts_S128_S1x128 (ix2 (0 : Fin 1) q) = x (ix1 q) := by
  refine (shapeCast_addUnit_apply ![128] x shapeCasts_S128_S1x128 (ix2 (0 : Fin 1) q)).trans (congrArg x ?_)
  funext a; match a with | ⟨0, _⟩ => rfl

/-- A [1,128] row broadcast down 2000 rows, read at (p, q), is the row at (0, q). -/
theorem row_bcast_apply {α : Type} (x : S1x128.Idx → α) (p : Fin 2000) (q : Fin 128) :
    broadcastTo S2000x128 x broadcasts_S1x128_S2000x128 (ix2 p q) = x (ix2 (0 : Fin 1) q) := by
  refine broadcastTo_apply x broadcasts_S1x128_S2000x128 (ix2 p q) (ix2 (0 : Fin 1) q) (fun a => ?_)
  match a with
  | ⟨0, _⟩ => rfl
  | ⟨1, _⟩ => rfl

/-- A reciprocal square root at an index is the elements'. -/
theorem rsqrt_apply {s : Shape} {φ : FTy} (a : FVec Ideal s φ) (i : s.Idx) : rsqrt a i = Ideal.rsqrt (a i) := rfl

/-- The payload at (p, q): the residual entry plus the rectified, normalised, scaled and shifted entry of h. -/
theorem pay_apply (x0 x1 : Vec Ideal S2000x128 .f32) (x2 x3 x4 x5 : Vec Ideal S128 .f32) (p : Fin 2000) (q : Fin 128) :
    (k1_pay1 x0 x2 x3 x4 x5 x1 : S2000x128.Idx → EReal) (ix2 p q)
      = Cert.Spec.normEntry (x1 (ix2 p q)) (x0 (ix2 p q)) (x2 (ix1 q)) (x3 (ix1 q)) (x4 (ix1 q)) (x5 (ix1 q)) := by
  unfold k1_pay1 Cert.Spec.normEntry Cert.Spec.eps
  simp only [shapeCast_self, addf_apply, maximumf_apply, mulf_apply, subf_apply, row_bcast_apply, rsqrt_apply, row_cast_apply, broadcast_apply]
  have hz : (FloatOps.ofBits FTy.f32 0x00000000#32 : Ideal .f32) = 0 := Ideal.ofBits_zero_f32
  rw [hz]
  rfl

/-! ## From blocks to the array -/

/-- The zero offsets of the whole-tile and whole-row rectangles, as constant functions. -/
theorem zeros2 : (![0, 0] : Fin 2 → Nat) = fun _ => 0 := funext fun a => by fin_cases a <;> rfl
theorem zeros1 : (![0] : Fin 1 → Nat) = fun _ => 0 := funext fun a => by fin_cases a <;> rfl

/-- What the output array ends holding: entry (p, q) from the entries (p, q) of the residual and of h and the entries q
    of the four rows. -/
def normArr (c : Dev nD) : S50000x128.Idx → EReal := fun i =>
  Cert.Spec.normEntry ((V c main_arg0 : S50000x128.Idx → EReal) i) ((V c main_v36_0 : S50000x128.Idx → EReal) i)
    ((V c main_v37 : S128.Idx → EReal) (ix1 (n := 128) (i 1))) ((V c main_v38 : S128.Idx → EReal) (ix1 (n := 128) (i 1)))
    ((V c main_arg6 : S128.Idx → EReal) (ix1 (n := 128) (i 1))) ((V c main_arg7 : S128.Idx → EReal) (ix1 (n := 128) (i 1)))

/-- The printed index maps, decided over the grid: the two tile inputs move with the output, the four rows stay, and the
    output's block index is the point's number on the rows axis and 0 on the columns axis. -/
theorem index_maps : ∀ t : Fin cfg1.N, win1_0.index t (0 : Fin 2) = win1_6.index t (0 : Fin 2)
    ∧ win1_0.index t (1 : Fin 2) = win1_6.index t (1 : Fin 2)
    ∧ win1_1.index t (0 : Fin 2) = win1_6.index t (0 : Fin 2)
    ∧ win1_1.index t (1 : Fin 2) = win1_6.index t (1 : Fin 2)
    ∧ win1_2.index t (0 : Fin 1) = 0 ∧ win1_3.index t (0 : Fin 1) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- What point `t` writes back is block `t` of `normArr`. -/
theorem writes_block (c : Dev nD) (t : Fin cfg1.N) :
    (dat (F := Ideal) V c).flushed 6 t = ((cfg1.win 6).blk t).view.read (Elt Ideal) (normArr V c) := by
  show (cfg1.win 6).cut (grid1.coords t) ((dat V c).after 6 t) = _
  rw [after6]
  unfold out6
  rw [View.canon_unit_zero zeros2]
  simp only [View.ld_unit_zero (S := S2000x128) zeros2, View.ld_unit_zero (S := S128) zeros1]
  obtain ⟨e0, e1, e2, e3, e4, e5, e6, e7, e8, e9⟩ := index_maps t
  funext j
  obtain ⟨a, b, rfl⟩ : ∃ (a : Fin 2000) (b : Fin 128), j = ix2 a b := ⟨j 0, j 1, eq_ix2 j⟩
  refine (pay_apply _ _ _ _ _ _ a b).trans ?_
  have h0 : (((cfg1.win 0).blk t).view.emb (ix2 a b) : S50000x128.Idx) = ((cfg1.win 6).blk t).view.emb (ix2 a b) := by
    funext d; apply Fin.ext
    match d with
    | ⟨0, _⟩ => show win1_0.index t (0 : Fin 2) * 2000 + 1 * a.val = win1_6.index t (0 : Fin 2) * 2000 + 1 * a.val; omega
    | ⟨1, _⟩ => show win1_0.index t (1 : Fin 2) * 128 + 1 * b.val = win1_6.index t (1 : Fin 2) * 128 + 1 * b.val; omega
  have h1 : (((cfg1.win 1).blk t).view.emb (ix2 a b) : S50000x128.Idx) = ((cfg1.win 6).blk t).view.emb (ix2 a b) := by
    funext d; apply Fin.ext
    match d with
    | ⟨0, _⟩ => show win1_1.index t (0 : Fin 2) * 2000 + 1 * a.val = win1_6.index t (0 : Fin 2) * 2000 + 1 * a.val; omega
    | ⟨1, _⟩ => show win1_1.index t (1 : Fin 2) * 128 + 1 * b.val = win1_6.index t (1 : Fin 2) * 128 + 1 * b.val; omega
  have h2 : (((cfg1.win 2).blk t).view.emb (ix1 b) : S128.Idx) = ix1 (n := 128) ((((cfg1.win 6).blk t).view.emb (ix2 a b) : S50000x128.Idx) 1) := by
    funext d; apply Fin.ext
    match d with
    | ⟨0, _⟩ => show win1_2.index t (0 : Fin 1) * 128 + 1 * b.val = win1_6.index t (1 : Fin 2) * 128 + 1 * b.val; omega
  have h3 : (((cfg1.win 3).blk t).view.emb (ix1 b) : S128.Idx) = ix1 (n := 128) ((((cfg1.win 6).blk t).view.emb (ix2 a b) : S50000x128.Idx) 1) := by
    funext d; apply Fin.ext
    match d with
    | ⟨0, _⟩ => show win1_3.index t (0 : Fin 1) * 128 + 1 * b.val = win1_6.index t (1 : Fin 2) * 128 + 1 * b.val; omega
  have h4 : (((cfg1.win 4).blk t).view.emb (ix1 b) : S128.Idx) = ix1 (n := 128) ((((cfg1.win 6).blk t).view.emb (ix2 a b) : S50000x128.Idx) 1) := by
    funext d; apply Fin.ext
    match d with
    | ⟨0, _⟩ => show win1_4.index t (0 : Fin 1) * 128 + 1 * b.val = win1_6.index t (1 : Fin 2) * 128 + 1 * b.val; omega
  have h5 : (((cfg1.win 5).blk t).view.emb (ix1 b) : S128.Idx) = ix1 (n := 128) ((((cfg1.win 6).blk t).view.emb (ix2 a b) : S50000x128.Idx) 1) := by
    funext d; apply Fin.ext
    match d with
    | ⟨0, _⟩ => show win1_5.index t (0 : Fin 1) * 128 + 1 * b.val = win1_6.index t (1 : Fin 2) * 128 + 1 * b.val; omega
  show Cert.Spec.normEntry ((V c main_arg0 : S50000x128.Idx → EReal) (((cfg1.win 1).blk t).view.emb (ix2 a b)))
      ((V c main_v36_0 : S50000x128.Idx → EReal) (((cfg1.win 0).blk t).view.emb (ix2 a b)))
      ((V c main_v37 : S128.Idx → EReal) (((cfg1.win 2).blk t).view.emb (ix1 b)))
      ((V c main_v38 : S128.Idx → EReal) (((cfg1.win 3).blk t).view.emb (ix1 b)))
      ((V c main_arg6 : S128.Idx → EReal) (((cfg1.win 4).blk t).view.emb (ix1 b)))
      ((V c main_arg7 : S128.Idx → EReal) (((cfg1.win 5).blk t).view.emb (ix1 b)))
    = normArr V c (((cfg1.win 6).blk t).view.emb (ix2 a b))
  unfold normArr
  rw [h0, h1, h2, h3, h4, h5]

/-- An index of the array is in point `t`'s block iff each coordinate is in the block's range on its axis. -/
theorem mem_block (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v39).slice (win1_6.rect t)).set ↔ _
  rw [View.set_slice_whole, Rect.mem_set_unit]
  exact Iff.rfl

/-- Every index of the array is in the block of the point numbered by its row divided by 2000. -/
theorem rows_covered (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 2000 < cfg1.N := by show _ < 25; omega
  refine ⟨⟨(i 0).val / 2000, ht⟩, flush1_6 _, ?_⟩
  obtain ⟨e0, e1, e2, e3, e4, e5, e6, e7, e8, e9⟩ := index_maps ⟨(i 0).val / 2000, ht⟩
  have e8' : win1_6.index ⟨(i 0).val / 2000, ht⟩ (0 : Fin 2) = (i 0).val / 2000 := e8
  rw [mem_block]
  intro a
  match a with
  | ⟨0, _⟩ => show win1_6.index ⟨(i 0).val / 2000, ht⟩ (0 : Fin 2) * 2000 ≤ (i 0).val ∧ (i 0).val < win1_6.index ⟨(i 0).val / 2000, ht⟩ (0 : Fin 2) * 2000 + 2000; omega
  | ⟨1, _⟩ => show win1_6.index ⟨(i 0).val / 2000, ht⟩ (1 : Fin 2) * 128 ≤ (i 1).val ∧ (i 1).val < win1_6.index ⟨(i 0).val / 2000, ht⟩ (1 : Fin 2) * 128 + 128; omega

/-- The output array after the run is `normArr` of the arrays the region is entered with. -/
theorem out_array (c : Dev nD) : (dat (F := Ideal) V c).arrAt 6 cfg1.N = normArr V c :=
  (dat V c).arrAt_eq_of_cover 6 (normArr V c) (fun t _ => writes_block V c t) rows_covered

/-- Entry (p, q) of the output array after the run: the residual entry plus the rectified, normalised, scaled and
    shifted entry of h. -/
theorem final6 (c : Dev nD) (p : Fin 50000) (q : Fin 128) :
    ((dat (F := Ideal) V c).arrAt 6 cfg1.N : S50000x128.Idx → EReal) (ValueIdx.ix2 p q)
      = Cert.Spec.normEntry ((V c main_arg0 : S50000x128.Idx → EReal) (ValueIdx.ix2 p q)) ((V c main_v36_0 : S50000x128.Idx → EReal) (ValueIdx.ix2 p q))
          ((V c main_v37 : S128.Idx → EReal) (ValueIdx.ix1 q)) ((V c main_v38 : S128.Idx → EReal) (ValueIdx.ix1 q))
          ((V c main_arg6 : S128.Idx → EReal) (ValueIdx.ix1 q)) ((V c main_arg7 : S128.Idx → EReal) (ValueIdx.ix1 q)) := by
  rw [out_array]
  rfl

end Cert.KernelIdeal.Norm
end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.KI.CombineValue.lean ====
import proofs.«158637_j65919158059656_1_alg».proof.Proof.KI.Combine
import proofs.«158637_j65919158059656_1_alg».proof.Proof.Spec
import proofs.«158637_j65919158059656_1_alg».proof.Proof.LibPlainDot
import proofs.«158637_j65919158059656_1_alg».proof.Proof.LibRowColumn
import proofs.«158637_j65919158059656_1_alg».proof.Proof.LibColumn
import proofs.«158637_j65919158059656_1_alg».proof.Proof.LibBlockedSum
import Idealize.ShloMosaic.Lib.Pipeline.Value
import Idealize.ShloMosaic.Lib.ValueLayout
import Idealize.ShloMosaic.Lib.ValueIdx
import Idealize.ShloMosaic.PureOps.Ideal.Laws
set_option maxRecDepth 16384
/-! The values of the first pipeline's three output arrays at the ideal instance, entry by entry. What each grid point
    writes back into the first output is its tile of ONE function of the arrays the region is entered with — the combined
    projection — and the 25 tiles cover the 50000 rows. The two scratch rows hold, after point n, the column sums (and
    the column sums of squares) of the tiles 0..n; after the last point these are the sums over all 50000 rows, regrouped
    tile by tile, and the last point stores the mean and the one-pass variance computed from them. -/
noncomputable section
namespace Cert.KernelIdeal.Combine
open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's payloads at an index -/

/-- A [128] row viewed [1,128], read at (0, q), is the row at q. -/
theorem row_cast_apply {α : Type} (x : S128.Idx → α) (q : Fin 128) :
    shapeCast S1x128 x shapeCasts_S128_S1x128 (ix2 (0 : Fin 1) q) = x (ix1 q) := by
  refine (shapeCast_addUnit_apply ![128] x shapeCasts_S128_S1x128 (ix2 (0 : Fin 1) q)).trans (congrArg x ?_)
  funext a; match a with | ⟨0, _⟩ => rfl

/-- A [1,128] row broadcast down 2000 rows, read at (p, q), is the row at (0, q). -/
theorem row_bcast_apply {α : Type} (x : S1x128.Idx → α) (p : Fin 2000) (q : Fin 128) :
    broadcastTo S2000x128 x broadcasts_S1x128_S2000x128 (ix2 p q) = x (ix2 (0 : Fin 1) q) := by
  refine broadcastTo_apply x broadcasts_S1x128_S2000x128 (ix2 p q) (ix2 (0 : Fin 1) q) (fun a => ?_)
  match a with
  | ⟨0, _⟩ => rfl
  | ⟨1, _⟩ => rfl

/-- A [2000,1] column broadcast along 128 columns, read at (p, q), is the column at (p, 0). -/
theorem col_bcast_apply {α : Type} (x : S2000x1.Idx → α) (p : Fin 2000) (q : Fin 128) :
    broadcastTo S2000x128 x broadcasts_S2000x1_S2000x128 (ix2 p q) = x (ix2 p (0 : Fin 1)) :=
  Column.broadcastTo_a1_ab_apply x broadcasts_S2000x1_S2000x128 p q

/-- The combine payload at (p, q): the three contractions over the 128 features, combined, plus the bias entry, times
    the row's scale. -/
theorem hOf_apply (x0 x1 x2 : Vec Ideal S2000x128 .f32) (x3 : Vec Ideal S2000x1 .f32) (x4 x5 x6 : Vec Ideal S128x128 .f32)
    (x7 : Vec Ideal S128 .f32) (p : Fin 2000) (q : Fin 128) :
    (hOf x0 x1 x2 x3 x4 x5 x6 x7 : S2000x128.Idx → EReal) (ix2 p q)
      = (((∑ k : Fin 128, x0 (ix2 p k) * x4 (ix2 k q) - ∑ k : Fin 128, x1 (ix2 p k) * x5 (ix2 k q))
          + ∑ k : Fin 128, (Cert.Spec.two * x2 (ix2 p k) - x0 (ix2 p k)) * x6 (ix2 k q)) + x7 (ix1 q)) * x3 (ix2 p (0 : Fin 1)) := by
  unfold hOf k0_pay7 Cert.Spec.two
  simp only [shapeCast_self, mulf_apply, addf_apply, subf_apply, row_bcast_apply, col_bcast_apply, row_cast_apply]
  rw [show (dot_S2000x128_S128x128_S2000x128_1_0_0_1_n_n : DotDims S2000x128 S128x128 S2000x128) = DotDims.plain 2000 128 128 from rfl]
  unfold Idealize.ShloMosaic.matmul
  rw [PlainDot.matmul_apply_ix2, PlainDot.matmul_apply_ix2, PlainDot.matmul_apply_ix2]
  simp only [truncf_apply, mulf_apply, subf_apply, broadcast_apply]
  rfl

/-- The first scratch row's new contents at (0, q): the old entry plus the tile's column sum. -/
theorem pay1_apply (h : Vec Ideal S2000x128 .f32) (s : Vec Ideal S1x128 .f32) (q : Fin 128) :
    (k0_pay1 h s : S1x128.Idx → EReal) (ix2 (0 : Fin 1) q) = s (ix2 (0 : Fin 1) q) + ∑ j : Fin 2000, h (ix2 j q) := by
  unfold k0_pay1
  simp only [shapeCast_self, addf_apply, row_cast_apply]
  exact congrArg (fun z => s (ix2 (0 : Fin 1) q) + z) (RowColumn.multiReduction_add_rows h _ reduces_S2000x128_S128 _ _ q)

/-- The second scratch row's new contents at (0, q): the old entry plus the column sum of the tile's squares. -/
theorem pay2_apply (h : Vec Ideal S2000x128 .f32) (s : Vec Ideal S1x128 .f32) (q : Fin 128) :
    (k0_pay2 h s : S1x128.Idx → EReal) (ix2 (0 : Fin 1) q) = s (ix2 (0 : Fin 1) q) + ∑ j : Fin 2000, h (ix2 j q) * h (ix2 j q) := by
  unfold k0_pay2
  simp only [shapeCast_self, addf_apply, row_cast_apply]
  exact congrArg (fun z => s (ix2 (0 : Fin 1) q) + z) (RowColumn.multiReduction_add_rows (mulf h h) _ reduces_S2000x128_S128 _ _ q)

/-- The reset rows are zero. -/
theorem pay5_apply (i : S1x128.Idx) : (k0_pay5 (F := Ideal) : S1x128.Idx → EReal) i = 0 := by
  unfold k0_pay5
  simp only [shapeCast_self, broadcast_apply]
  exact Ideal.ofBits_zero_f32
theorem pay6_apply (i : S1x128.Idx) : (k0_pay6 (F := Ideal) : S1x128.Idx → EReal) i = 0 := by
  unfold k0_pay6
  simp only [shapeCast_self, broadcast_apply]
  exact Ideal.ofBits_zero_f32

/-- The mean payload: the sum row divided by the row count. -/
theorem pay3_apply (s : Vec Ideal S1x128 .f32) (i : S1x128.Idx) :
    (k0_pay3 s : S1x128.Idx → EReal) i = Ideal.div (s i) Cert.Spec.cnt := by
  unfold k0_pay3 Cert.Spec.cnt
  simp only [divf_apply, broadcast_apply]
  rfl

/-- The variance payload: the squares' sum row divided by the row count, less the square of the mean. -/
theorem pay4_apply (s r : Vec Ideal S1x128 .f32) (i : S1x128.Idx) :
    (k0_pay4 s r : S1x128.Idx → EReal) i
      = Ideal.div (r i) Cert.Spec.cnt - Ideal.div (s i) Cert.Spec.cnt * Ideal.div (s i) Cert.Spec.cnt := by
  unfold k0_pay4
  simp only [subf_apply, mulf_apply, divf_apply, broadcast_apply, pay3_apply]
  rfl

/-! ## From blocks to the arrays -/

/-- The combined projection of the arrays the region is entered with, by coordinates. -/
def Hs (c : Dev nD) : Cert.Spec.Tab :=
  Cert.Spec.hSub (V c main_arg0) (V c main_v21) (V c main_v35) (V c main_arg1) (V c main_arg2) (V c main_arg3) (V c main_arg4) (V c main_arg5)

/-- The same as a [50000,128] array. -/
def hArr (c : Dev nD) : S50000x128.Idx → EReal := fun i => Hs V c (i 0) (i 1)

/-- The printed index maps, decided over the grid: the four tile inputs and the first output are at the point's number
    on the rows axis and at 0 on the other; the weights, the bias and the two statistics stay at 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `a` of tile `t` is row `2000·t + a` of the arrays. -/
theorem row_lt (t : Fin cfg0.N) (a : Fin 2000) : 2000 * t.val + a.val < 50000 := by
  have ht : t.val < 25 := lt_of_lt_of_eq t.isLt (show cfg0.N = 25 from N_0)
  have := a.isLt; omega

/-- The tile the body stores at point `t`, at (a, b): the combined projection at row `2000·t + a`, column `b`. -/
theorem hblk_apply (c : Dev nD) (t : Fin cfg0.N) (a : Fin 2000) (b : Fin 128) :
    (hblk V c t : S2000x128.Idx → EReal) (ix2 a b) = Hs V c ⟨2000 * t.val + a.val, row_lt t a⟩ b := by
  unfold hblk
  refine (hOf_apply _ _ _ _ _ _ _ _ a b).trans ?_
  obtain ⟨e00, e01, e10, e11, e20, e21, e30, e31, e40, e41, e50, e51, e60, e61, e70, e80, e81, e90, e91, e100, e101⟩ := index_maps t
  have h0 : ∀ k : Fin 128, (((cfg0.win 0).blk t).view.emb (ix2 a k) : S50000x128.Idx) = ix2 (⟨2000 * t.val + a.val, row_lt t a⟩ : Fin 50000) k := fun k => by
    funext d; apply Fin.ext
    match d with
    | ⟨0, _⟩ => show win0_0.index t (0 : Fin 2) * 2000 + 1 * a.val = 2000 * t.val + a.val; omega
    | ⟨1, _⟩ => show win0_0.index t (1 : Fin 2) * 128 + 1 * k.val = k.val; omega
  have h1 : ∀ k : Fin 128, (((cfg0.win 1).blk t).view.emb (ix2 a k) : S50000x128.Idx) = ix2 (⟨2000 * t.val + a.val, row_lt t a⟩ : Fin 50000) k := fun k => by
    funext d; apply Fin.ext
    match d with
    | ⟨0, _⟩ => show win0_1.index t (0 : Fin 2) * 2000 + 1 * a.val = 2000 * t.val + a.val; omega
    | ⟨1, _⟩ => show win0_1.index t (1 : Fin 2) * 128 + 1 * k.val = k.val; omega
  have h2 : ∀ k : Fin 128, (((cfg0.win 2).blk t).view.emb (ix2 a k) : S50000x128.Idx) = ix2 (⟨2000 * t.val + a.val, row_lt t a⟩ : Fin 50000) k := fun k => by
    funext d; apply Fin.ext
    match d with
    | ⟨0, _⟩ => show win0_2.index t (0 : Fin 2) * 2000 + 1 * a.val = 2000 * t.val + a.val; omega
    | ⟨1, _⟩ => show win0_2.index t (1 : Fin 2) * 128 + 1 * k.val = k.val; omega
  have h3 : (((cfg0.win 3).blk t).view.emb (ix2 a (0 : Fin 1)) : S50000x1.Idx) = ix2 (⟨2000 * t.val + a.val, row_lt t a⟩ : Fin 50000) (0 : Fin 1) := by
    funext d; apply Fin.ext
    match d with
    | ⟨0, _⟩ => show win0_3.index t (0 : Fin 2) * 2000 + 1 * a.val = 2000 * t.val + a.val; omega
    | ⟨1, _⟩ => show win0_3.index t (1 : Fin 2) * 1 + 1 * 0 = 0; omega
  have h4 : ∀ k : Fin 128, (((cfg0.win 4).blk t).view.emb (ix2 k b) : S128x128.Idx) = ix2 k b := fun k => by
    funext d; apply Fin.ext
    match d with
    | ⟨0, _⟩ => show win0_4.index t (0 : Fin 2) * 128 + 1 * k.val = k.val; omega
    | ⟨1, _⟩ => show win0_4.index t (1 : Fin 2) * 128 + 1 * b.val = b.val; omega
  have h5 : ∀ k : Fin 128, (((cfg0.win 5).blk t).view.emb (ix2 k b) : S128x128.Idx) = ix2 k b := fun k => by
    funext d; apply Fin.ext
    match d with
    | ⟨0, _⟩ => show win0_5.index t (0 : Fin 2) * 128 + 1 * k.val = k.val; omega
    | ⟨1, _⟩ => show win0_5.index t (1 : Fin 2) * 128 + 1 * b.val = b.val; omega
  have h6 : ∀ k : Fin 128, (((cfg0.win 6).blk t).view.emb (ix2 k b) : S128x128.Idx) = ix2 k b := fun k => by
    funext d; apply Fin.ext
    match d with
    | ⟨0, _⟩ => show win0_6.index t (0 : Fin 2) * 128 + 1 * k.val = k.val; omega
    | ⟨1, _⟩ => show win0_6.index t (1 : Fin 2) * 128 + 1 * b.val = b.val; omega
  have h7 : (((cfg0.win 7).blk t).view.emb (ix1 b) : S128.Idx) = ix1 b := by
    funext d; apply Fin.ext
    match d with
    | ⟨0, _⟩ => show win0_7.index t (0 : Fin 1) * 128 + 1 * b.val = b.val; omega
  have i0 : ∀ k : Fin 128, (iblk V c 0 t : S2000x128.Idx → EReal) (ix2 a k) = (V c main_arg0 : S50000x128.Idx → EReal) (ix2 (⟨2000 * t.val + a.val, row_lt t a⟩ : Fin 50000) k) := fun k => by
    show (V c main_arg0 : S50000x128.Idx → EReal) (((cfg0.win 0).blk t).view.emb (ix2 a k)) = _
    rw [h0 k]
  have i1 : ∀ k : Fin 128, (iblk V c 1 t : S2000x128.Idx → EReal) (ix2 a k) = (V c main_v21 : S50000x128.Idx → EReal) (ix2 (⟨2000 * t.val + a.val, row_lt t a⟩ : Fin 50000) k) := fun k => by
    show (V c main_v21 : S50000x128.Idx → EReal) (((cfg0.win 1).blk t).view.emb (ix2 a k)) = _
    rw [h1 k]
  have i2 : ∀ k : Fin 128, (iblk V c 2 t : S2000x128.Idx → EReal) (ix2 a k) = (V c main_v35 : S50000x128.Idx → EReal) (ix2 (⟨2000 * t.val + a.val, row_lt t a⟩ : Fin 50000) k) := fun k => by
    show (V c main_v35 : S50000x128.Idx → EReal) (((cfg0.win 2).blk t).view.emb (ix2 a k)) = _
    rw [h2 k]
  have i3 : (iblk V c 3 t : S2000x1.Idx → EReal) (ix2 a (0 : Fin 1)) = (V c main_arg1 : S50000x1.Idx → EReal) (ix2 (⟨2000 * t.val + a.val, row_lt t a⟩ : Fin 50000) (0 : Fin 1)) := by
    show (V c main_arg1 : S50000x1.Idx → EReal) (((cfg0.win 3).blk t).view.emb (ix2 a (0 : Fin 1))) = _
    rw [h3]
  have i4 : ∀ k : Fin 128, (iblk V c 4 t : S128x128.Idx → EReal) (ix2 k b) = (V c main_arg2 : S128x128.Idx → EReal) (ix2 k b) := fun k => by
    show (V c main_arg2 : S128x128.Idx → EReal) (((cfg0.win 4).blk t).view.emb (ix2 k b)) = _
    rw [h4 k]
  have i5 : ∀ k : Fin 128, (iblk V c 5 t : S128x128.Idx → EReal) (ix2 k b) = (V c main_arg3 : S128x128.Idx → EReal) (ix2 k b) := fun k => by
    show (V c main_arg3 : S128x128.Idx → EReal) (((cfg0.win 5).blk t).view.emb (ix2 k b)) = _
    rw [h5 k]
  have i6 : ∀ k : Fin 128, (iblk V c 6 t : S128x128.Idx → EReal) (ix2 k b) = (V c main_arg4 : S128x128.Idx → EReal) (ix2 k b) := fun k => by
    show (V c main_arg4 : S128x128.Idx → EReal) (((cfg0.win 6).blk t).view.emb (ix2 k b)) = _
    rw [h6 k]
  have i7 : (iblk V c 7 t : S128.Idx → EReal) (ix1 b) = (V c main_arg5 : S128.Idx → EReal) (ix1 b) := by
    show (V c main_arg5 : S128.Idx → EReal) (((cfg0.win 7).blk t).view.emb (ix1 b)) = _
    rw [h7]
  simp only [i0, i1, i2, i3, i4, i5, i6, i7]
  rfl

/-- What point `t` writes back into the first output is block `t` of `hArr`. -/
theorem writes_block8 (c : Dev nD) (t : Fin cfg0.N) :
    (dat (F := Ideal) V c).flushed 8 t = ((cfg0.win 8).blk t).view.read (Elt Ideal) (hArr V c) := by
  show (cfg0.win 8).cut (grid0.coords t) ((dat V c).after 8 t) = _
  rw [after8]
  obtain ⟨e00, e01, e10, e11, e20, e21, e30, e31, e40, e41, e50, e51, e60, e61, e70, e80, e81, e90, e91, e100, e101⟩ := index_maps t
  funext j
  obtain ⟨a, b, rfl⟩ : ∃ (a : Fin 2000) (b : Fin 128), j = ix2 a b := ⟨j 0, j 1, eq_ix2 j⟩
  refine (hblk_apply V c t a b).trans ?_
  show Hs V c ⟨2000 * t.val + a.val, row_lt t a⟩ b
    = Hs V c ((((cfg0.win 8).blk t).view.emb (ix2 a b) : S50000x128.Idx) 0) ((((cfg0.win 8).blk t).view.emb (ix2 a b) : S50000x128.Idx) 1)
  congr 1
  · apply Fin.ext
    show 2000 * t.val + a.val = win0_8.index t (0 : Fin 2) * 2000 + 1 * a.val; omega
  · apply Fin.ext
    show b.val = win0_8.index t (1 : Fin 2) * 128 + 1 * b.val; omega

/-- An index of the first output's array is in point `t`'s block iff each coordinate is in the block's range on its axis. -/
theorem mem_block8 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v36_0).slice (win0_8.rect t)).set ↔ _
  rw [View.set_slice_whole, Rect.mem_set_unit]
  exact Iff.rfl

/-- Every index of the array is in the block of the point numbered by its row divided by 2000. -/
theorem rows_covered8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have ht : (i 0).val / 2000 < cfg0.N := by show _ < 25; omega
  refine ⟨⟨(i 0).val / 2000, ht⟩, flush0_8 _, ?_⟩
  obtain ⟨e00, e01, e10, e11, e20, e21, e30, e31, e40, e41, e50, e51, e60, e61, e70, e80, e81, e90, e91, e100, e101⟩ := index_maps ⟨(i 0).val / 2000, ht⟩
  have e80' : win0_8.index ⟨(i 0).val / 2000, ht⟩ (0 : Fin 2) = (i 0).val / 2000 := e80
  rw [mem_block8]
  intro a
  match a with
  | ⟨0, _⟩ => show win0_8.index ⟨(i 0).val / 2000, ht⟩ (0 : Fin 2) * 2000 ≤ (i 0).val ∧ (i 0).val < win0_8.index ⟨(i 0).val / 2000, ht⟩ (0 : Fin 2) * 2000 + 2000; omega
  | ⟨1, _⟩ => show win0_8.index ⟨(i 0).val / 2000, ht⟩ (1 : Fin 2) * 128 ≤ (i 1).val ∧ (i 1).val < win0_8.index ⟨(i 0).val / 2000, ht⟩ (1 : Fin 2) * 128 + 128; omega

/-- The first output's array after the run is the combined projection. -/
theorem out_array8 (c : Dev nD) : (dat (F := Ideal) V c).arrAt 8 cfg0.N = hArr V c :=
  (dat V c).arrAt_eq_of_cover 8 (hArr V c) (fun t _ => writes_block8 V c t) rows_covered8

/-- Entry (p, q) of the first output after the run: the combined projection there. -/
theorem final8 (c : Dev nD) (p : Fin 50000) (q : Fin 128) :
    ((dat (F := Ideal) V c).arrAt 8 cfg0.N : S50000x128.Idx → EReal) (ValueIdx.ix2 p q)
      = Cert.Spec.hSub (V c main_arg0) (V c main_v21) (V c main_v35) (V c main_arg1) (V c main_arg2) (V c main_arg3) (V c main_arg4) (V c main_arg5) p q := by
  rw [out_array8]
  rfl

/-! ## The scratch rows after a point, at a column: sums over the tiles so far -/

theorem hAt_apply (c : Dev nD) (s : ℕ) (hs : s < cfg0.N) (j : Fin 2000) (q : Fin 128) :
    (hAt V c s : S2000x128.Idx → EReal) (ix2 j q) = Hs V c ⟨2000 * s + j.val, row_lt ⟨s, hs⟩ j⟩ q := by
  unfold hAt; rw [dif_pos hs]; exact hblk_apply V c ⟨s, hs⟩ j q

/-- The first scratch row after point `n`, at column `q`: the column sums of the tiles 0..n, added up. -/
theorem sumAt_apply (c : Dev nD) (q : Fin 128) : ∀ n : ℕ,
    (sumAt V c n : S1x128.Idx → EReal) (ix2 (0 : Fin 1) q)
      = ∑ s ∈ Finset.range (n + 1), ∑ j : Fin 2000, (hAt V c s : S2000x128.Idx → EReal) (ix2 j q)
  | 0 => by
    show (k0_pay1 (hAt V c 0) (k0_pay5 (F := Ideal)) : S1x128.Idx → EReal) (ix2 (0 : Fin 1) q) = _
    rw [pay1_apply, pay5_apply, zero_add, Finset.sum_range_one]
  | n + 1 => by
    show (k0_pay1 (hAt V c (n + 1)) (sumAt V c n) : S1x128.Idx → EReal) (ix2 (0 : Fin 1) q) = _
    rw [pay1_apply, sumAt_apply c q n, Finset.sum_range_succ _ (n + 1)]

/-- The second scratch row likewise, with the squares. -/
theorem sqAt_apply (c : Dev nD) (q : Fin 128) : ∀ n : ℕ,
    (sqAt V c n : S1x128.Idx → EReal) (ix2 (0 : Fin 1) q)
      = ∑ s ∈ Finset.range (n + 1), ∑ j : Fin 2000,
          (hAt V c s : S2000x128.Idx → EReal) (ix2 j q) * (hAt V c s : S2000x128.Idx → EReal) (ix2 j q)
  | 0 => by
    show (k0_pay2 (hAt V c 0) (k0_pay6 (F := Ideal)) : S1x128.Idx → EReal) (ix2 (0 : Fin 1) q) = _
    rw [pay2_apply, pay6_apply, zero_add, Finset.sum_range_one]
  | n + 1 => by
    show (k0_pay2 (hAt V c (n + 1)) (sqAt V c n) : S1x128.Idx → EReal) (ix2 (0 : Fin 1) q) = _
    rw [pay2_apply, sqAt_apply c q n, Finset.sum_range_succ _ (n + 1)]

/-- A sum over the 50000 rows, cut into the 25 tiles of 2000 rows. -/
theorem sum_rows_tiles (G : Fin 50000 → EReal) :
    ∑ p : Fin 50000, G p
      = ∑ s ∈ Finset.range 25, ∑ j : Fin 2000, (if h : 2000 * s + j.val < 50000 then G ⟨2000 * s + j.val, h⟩ else 0) := by
  refine Eq.trans (?_ : _ = ∑ k : Fin (25 * 2000), (fun n : ℕ => if h : n < 50000 then G ⟨n, h⟩ else 0) k.val)
    (BlockedSum.sum_fin_blocks 25 2000 (fun n : ℕ => if h : n < 50000 then G ⟨n, h⟩ else 0))
  refine Finset.sum_congr rfl (fun k _ => ?_)
  show G k = if h : k.val < 50000 then G ⟨k.val, h⟩ else 0
  rw [dif_pos k.isLt]

/-- The tiles' sums of any function of the tile's entries are the sum over all rows of that function of the combined
    projection's entries. -/
theorem tiles_sum (c : Dev nD) (q : Fin 128) (Φ : EReal → EReal) :
    ∑ s ∈ Finset.range 25, ∑ j : Fin 2000, Φ ((hAt V c s : S2000x128.Idx → EReal) (ix2 j q))
      = ∑ p : Fin 50000, Φ (Hs V c p q) := by
  rw [sum_rows_tiles (fun p => Φ (Hs V c p q))]
  refine Finset.sum_congr rfl (fun s hs => Finset.sum_congr rfl (fun j _ => ?_))
  have hs25 : s < 25 := Finset.mem_range.mp hs
  have hs' : s < cfg0.N := lt_of_lt_of_eq hs25 N_0.symm
  have hlt : 2000 * s + j.val < 50000 := by have := j.isLt; omega
  rw [dif_pos hlt, hAt_apply V c s hs' j q]

/-- After the last point the first scratch row holds the column sums over all rows … -/
theorem sum_last (c : Dev nD) (q : Fin 128) :
    (sumAt V c 24 : S1x128.Idx → EReal) (ix2 (0 : Fin 1) q) = Cert.Spec.colSum (Hs V c) q := by
  rw [sumAt_apply]
  exact tiles_sum V c q (fun x => x)

/-- … and the second the column sums of the squares. -/
theorem sq_last (c : Dev nD) (q : Fin 128) :
    (sqAt V c 24 : S1x128.Idx → EReal) (ix2 (0 : Fin 1) q) = Cert.Spec.colSum (fun p q => Hs V c p q * Hs V c p q) q := by
  rw [sqAt_apply]
  exact tiles_sum V c q (fun x => x * x)

/-! ## The two statistics -/

/-- What the mean's and the variance's arrays end holding. -/
def meanArr (c : Dev nD) : S1x128.Idx → EReal := fun i => Cert.Spec.meanOf (Hs V c) (i 1)
def varArr (c : Dev nD) : S1x128.Idx → EReal := fun i => Cert.Spec.varOne (Hs V c) (i 1)

/-- What a point that writes the mean back writes is the block of `meanArr` (the block is the whole row). -/
theorem writes_block9 (c : Dev nD) (t : Fin cfg0.N) :
    (dat (F := Ideal) V c).flushed 9 t = ((cfg0.win 9).blk t).view.read (Elt Ideal) (meanArr V c) := by
  show (cfg0.win 9).cut (grid0.coords t) ((dat V c).after 9 t) = _
  rw [after9]
  obtain ⟨e00, e01, e10, e11, e20, e21, e30, e31, e40, e41, e50, e51, e60, e61, e70, e80, e81, e90, e91, e100, e101⟩ := index_maps t
  funext j
  obtain ⟨a, b, rfl⟩ : ∃ (a : Fin 1) (b : Fin 128), j = ix2 a b := ⟨j 0, j 1, eq_ix2 j⟩
  obtain rfl : a = 0 := Subsingleton.elim _ _
  refine (pay3_apply _ (ix2 (0 : Fin 1) b)).trans ?_
  rw [sum_last]
  have hb : ((((cfg0.win 9).blk t).view.emb (ix2 (0 : Fin 1) b) : S1x128.Idx) 1 : Fin 128) = b :=
    Fin.ext (by show win0_9.index t (1 : Fin 2) * 128 + 1 * b.val = b.val; omega)
  show Ideal.div (Cert.Spec.colSum (Hs V c) b) Cert.Spec.cnt
    = Cert.Spec.meanOf (Hs V c) ((((cfg0.win 9).blk t).view.emb (ix2 (0 : Fin 1) b) : S1x128.Idx) 1)
  rw [hb]; rfl

/-- The same for the variance. -/
theorem writes_block10 (c : Dev nD) (t : Fin cfg0.N) :
    (dat (F := Ideal) V c).flushed 10 t = ((cfg0.win 10).blk t).view.read (Elt Ideal) (varArr V c) := by
  show (cfg0.win 10).cut (grid0.coords t) ((dat V c).after 10 t) = _
  rw [after10]
  obtain ⟨e00, e01, e10, e11, e20, e21, e30, e31, e40, e41, e50, e51, e60, e61, e70, e80, e81, e90, e91, e100, e101⟩ := index_maps t
  funext j
  obtain ⟨a, b, rfl⟩ : ∃ (a : Fin 1) (b : Fin 128), j = ix2 a b := ⟨j 0, j 1, eq_ix2 j⟩
  obtain rfl : a = 0 := Subsingleton.elim _ _
  refine (pay4_apply _ _ (ix2 (0 : Fin 1) b)).trans ?_
  rw [sum_last, sq_last]
  have hb : ((((cfg0.win 10).blk t).view.emb (ix2 (0 : Fin 1) b) : S1x128.Idx) 1 : Fin 128) = b :=
    Fin.ext (by show win0_10.index t (1 : Fin 2) * 128 + 1 * b.val = b.val; omega)
  show Ideal.div (Cert.Spec.colSum (fun p q => Hs V c p q * Hs V c p q) b) Cert.Spec.cnt
      - Ideal.div (Cert.Spec.colSum (Hs V c) b) Cert.Spec.cnt * Ideal.div (Cert.Spec.colSum (Hs V c) b) Cert.Spec.cnt
    = Cert.Spec.varOne (Hs V c) ((((cfg0.win 10).blk t).view.emb (ix2 (0 : Fin 1) b) : S1x128.Idx) 1)
  rw [hb]; rfl

theorem mem_block9 (t : Fin cfg0.N) (i : S1x128.Idx) :
    i ∈ ((cfg0.win 9).blk t).view.set ↔ ∀ a : Fin 2, win0_9.index t a * S1x128.size a ≤ (i a).val ∧ (i a).val < win0_9.index t a * S1x128.size a + S1x128.size a := by
  show i ∈ ((View.whole main_v36_1).slice (win0_9.rect t)).set ↔ _
  rw [View.set_slice_whole, Rect.mem_set_unit]
  exact Iff.rfl
theorem mem_block10 (t : Fin cfg0.N) (i : S1x128.Idx) :
    i ∈ ((cfg0.win 10).blk t).view.set ↔ ∀ a : Fin 2, win0_10.index t a * S1x128.size a ≤ (i a).val ∧ (i a).val < win0_10.index t a * S1x128.size a + S1x128.size a := by
  show i ∈ ((View.whole main_v36_2).slice (win0_10.rect t)).set ↔ _
  rw [View.set_slice_whole, Rect.mem_set_unit]
  exact Iff.rfl

theorem last_lt : (24 : ℕ) < cfg0.N := lt_of_lt_of_eq (by omega : (24 : ℕ) < 25) N_0.symm

/-- Every index of the mean's row is in the block the last point writes back. -/
theorem covered9 (i : S1x128.Idx) : ∃ t : Fin cfg0.N, (cfg0.win 9).flush t = true ∧ i ∈ ((cfg0.win 9).blk t).view.set := by
  have hi0 : (i 0).val < 1 := (i 0).isLt
  have hi1 : (i 1).val < 128 := (i 1).isLt
  refine ⟨⟨24, last_lt⟩, (flush0_9 _).mpr rfl, ?_⟩
  obtain ⟨e00, e01, e10, e11, e20, e21, e30, e31, e40, e41, e50, e51, e60, e61, e70, e80, e81, e90, e91, e100, e101⟩ := index_maps ⟨24, last_lt⟩
  rw [mem_block9]
  intro a
  match a with
  | ⟨0, _⟩ => show win0_9.index ⟨24, last_lt⟩ (0 : Fin 2) * 1 ≤ (i 0).val ∧ (i 0).val < win0_9.index ⟨24, last_lt⟩ (0 : Fin 2) * 1 + 1; omega
  | ⟨1, _⟩ => show win0_9.index ⟨24, last_lt⟩ (1 : Fin 2) * 128 ≤ (i 1).val ∧ (i 1).val < win0_9.index ⟨24, last_lt⟩ (1 : Fin 2) * 128 + 128; omega
theorem covered10 (i : S1x128.Idx) : ∃ t : Fin cfg0.N, (cfg0.win 10).flush t = true ∧ i ∈ ((cfg0.win 10).blk t).view.set := by
  have hi0 : (i 0).val < 1 := (i 0).isLt
  have hi1 : (i 1).val < 128 := (i 1).isLt
  refine ⟨⟨24, last_lt⟩, (flush0_10 _).mpr rfl, ?_⟩
  obtain ⟨e00, e01, e10, e11, e20, e21, e30, e31, e40, e41, e50, e51, e60, e61, e70, e80, e81, e90, e91, e100, e101⟩ := index_maps ⟨24, last_lt⟩
  rw [mem_block10]
  intro a
  match a with
  | ⟨0, _⟩ => show win0_10.index ⟨24, last_lt⟩ (0 : Fin 2) * 1 ≤ (i 0).val ∧ (i 0).val < win0_10.index ⟨24, last_lt⟩ (0 : Fin 2) * 1 + 1; omega
  | ⟨1, _⟩ => show win0_10.index ⟨24, last_lt⟩ (1 : Fin 2) * 128 ≤ (i 1).val ∧ (i 1).val < win0_10.index ⟨24, last_lt⟩ (1 : Fin 2) * 128 + 128; omega

theorem out_array9 (c : Dev nD) : (dat (F := Ideal) V c).arrAt 9 cfg0.N = meanArr V c :=
  (dat V c).arrAt_eq_of_cover 9 (meanArr V c) (fun t _ => writes_block9 V c t) covered9
theorem out_array10 (c : Dev nD) : (dat (F := Ideal) V c).arrAt 10 cfg0.N = varArr V c :=
  (dat V c).arrAt_eq_of_cover 10 (varArr V c) (fun t _ => writes_block10 V c t) covered10

/-- Entry (0, q) of the mean's array after the run: the column mean of the combined projection. -/
theorem final9 (c : Dev nD) (q : Fin 128) :
    ((dat (F := Ideal) V c).arrAt 9 cfg0.N : S1x128.Idx → EReal) (ValueIdx.ix2 0 q)
      = Cert.Spec.meanOf (Cert.Spec.hSub (V c main_arg0) (V c main_v21) (V c main_v35) (V c main_arg1) (V c main_arg2) (V c main_arg3) (V c main_arg4) (V c main_arg5)) q := by
  rw [out_array9]
  rfl

/-- Entry (0, q) of the variance's array after the run: the one-pass column variance of the combined projection. -/
theorem final10 (c : Dev nD) (q : Fin 128) :
    ((dat (F := Ideal) V c).arrAt 10 cfg0.N : S1x128.Idx → EReal) (ValueIdx.ix2 0 q)
      = Cert.Spec.varOne (Cert.Spec.hSub (V c main_arg0) (V c main_v21) (V c main_v35) (V c main_arg1) (V c main_arg2) (V c main_arg3) (V c main_arg4) (V c main_arg5)) q := by
  rw [out_array10]
  rfl

end Cert.KernelIdeal.Combine
end
-- ==== Proof.KI.KernelValue.lean ====
/-
  The kernel program's result, entry by entry, is the specification's layer in its first spelling: the projection with the
  middle contraction SUBTRACTED, and the variance taken in ONE pass.

  The result buffer ends as the second region's final array. At (p, q) that array is the normalised, scaled, shifted,
  rectified entry of h added to the feature entry, computed from the arrays the second region is entered with: the
  features (the launch features: no stretch writes them and they are an input window of the first region), h (the first
  region's first result array), the mean and variance vectors (the first region's two statistics rows [1,128], recast to
  vectors [128]: the vector at q is the row at (0, q)), and the batch-norm scale and shift (launch arguments).
  The first region's result arrays are, in turn, functions of the arrays it is entered with: h(p, q) is the subtracting
  projection of the features, the two propagated feature arrays, the node scale, the three weight matrices and the bias;
  the statistics rows at (0, q) are its column mean and its one-pass column variance. Of those entry arrays the arguments
  are at their launch contents; the two propagated feature arrays are what the host stretches before the region left.
-/
import proofs.«158637_j65919158059656_1_alg».proof.Proof.KI.RunEnds
import proofs.«158637_j65919158059656_1_alg».proof.Proof.KI.NormValue
import proofs.«158637_j65919158059656_1_alg».proof.Proof.KI.CombineValue
import proofs.«158637_j65919158059656_1_alg».proof.Proof.Spec
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The subtracting projection of the arrays the first region is entered with. -/
abbrev H3 (c : Dev nD) : Cert.Spec.Tab :=
  Cert.Spec.hSub (E3 m c main_arg0) (E3 m c main_v21) (E3 m c main_v35) (E3 m c main_arg1) (E3 m c main_arg2)
    (E3 m c main_arg3) (E3 m c main_arg4) (E3 m c main_arg5)

/-- The first region's mean row is its second result array. -/
theorem B4_meanRow (c : Dev nD) : B4 m c (Proc.devRef .tc main_v36_1) = (Combine.dat (E3 m) c).arrAt 9 cfg0.N :=
  B4_arr m c 9

/-- The first region's variance row is its third result array. -/
theorem B4_varRow (c : Dev nD) : B4 m c (Proc.devRef .tc main_v36_2) = (Combine.dat (E3 m) c).arrAt 10 cfg0.N :=
  B4_arr m c 10

/-- The mean vector the second region reads, at q: the column mean of the projection. -/
theorem mean_at (c : Dev nD) (q : Fin 128) :
    (E5 m c main_v37 : S128.Idx → EReal) (ix1 q) = Cert.Spec.meanOf (H3 m c) q := by
  show (B5 m c (Proc.devRef .tc main_v37) : S128.Idx → EReal) (ix1 q) = _
  rw [B5_mean, shapeCast_1a_a_apply, B4_meanRow]
  exact Combine.final9 (E3 m) c q

/-- The variance vector the second region reads, at q: the one-pass column variance of the projection. -/
theorem var_at (c : Dev nD) (q : Fin 128) :
    (E5 m c main_v38 : S128.Idx → EReal) (ix1 q) = Cert.Spec.varOne (H3 m c) q := by
  show (B5 m c (Proc.devRef .tc main_v38) : S128.Idx → EReal) (ix1 q) = _
  rw [B5_var, shapeCast_1a_a_apply, B4_varRow]
  exact Combine.final10 (E3 m) c q

/-- The projection the second region reads, at (p, q). -/
theorem h_at (c : Dev nD) (p : Fin 50000) (q : Fin 128) :
    (E5 m c main_v36_0 : S50000x128.Idx → EReal) (ix2 p q) = H3 m c p q := by
  show (B5 m c (Proc.devRef .tc main_v36_0) : S50000x128.Idx → EReal) (ix2 p q) = _
  rw [B5_h]
  exact Combine.final8 (E3 m) c p q

/-- The arrays the first region is entered with, the arguments at their launch contents. -/
theorem H3_eq (c : Dev nD) :
    H3 m c = Cert.Spec.hSub (m ((c : Thread nD τ).loc main_arg0)) (B3 m c (Proc.devRef .tc main_v21)) (B3 m c (Proc.devRef .tc main_v35))
      (m ((c : Thread nD τ).loc main_arg1)) (m ((c : Thread nD τ).loc main_arg2)) (m ((c : Thread nD τ).loc main_arg3))
      (m ((c : Thread nD τ).loc main_arg4)) (m ((c : Thread nD τ).loc main_arg5)) := by
  show Cert.Spec.hSub (B3 m c (Proc.devRef .tc main_arg0)) (B3 m c (Proc.devRef .tc main_v21)) (B3 m c (Proc.devRef .tc main_v35))
    (B3 m c (Proc.devRef .tc main_arg1)) (B3 m c (Proc.devRef .tc main_arg2)) (B3 m c (Proc.devRef .tc main_arg3))
    (B3 m c (Proc.devRef .tc main_arg4)) (B3 m c (Proc.devRef .tc main_arg5)) = _
  rw [B3_arg0, B3_arg1, B3_arg2, B3_arg3, B3_arg4, B3_arg5]

/-- THE VALUE: the result buffer at (p, q) is the layer with the subtracting projection and the one-pass variance. -/
theorem kernel_value (m : (ℓ : Loc nD τ sig) → Buf (Elt Ideal) ℓ) (c : Dev nD) (p : Fin 50000) (q : Fin 128) :
    (B6 m c (Proc.devRef .tc main_v39) : S50000x128.Idx → EReal) (ValueIdx.ix2 p q)
      = Cert.Spec.outOne (m ((c : Thread nD τ).loc main_arg0)) (B3 m c (Proc.devRef .tc main_v21)) (B3 m c (Proc.devRef .tc main_v35))
          (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) p q := by
  rw [B6_result, Norm.final6 (E5 m) c p q, h_at, mean_at, var_at, H3_eq]
  show Cert.Spec.normEntry ((B5 m c (Proc.devRef .tc main_arg0) : S50000x128.Idx → EReal) (ix2 p q)) _ _ _
    ((B5 m c (Proc.devRef .tc main_arg6) : S128.Idx → EReal) (ix1 q)) ((B5 m c (Proc.devRef .tc main_arg7) : S128.Idx → EReal) (ix1 q)) = _
  rw [B5_arg0, B5_arg6, B5_arg7]
  rfl

end Cert.KernelIdeal.Run

end
-- ==== Proof.AxBridge.lean ====
import proofs.«158637_j65919158059656_1_alg».proof.Proof.Gen.KernelIdeal.Regions
import proofs.«158637_j65919158059656_1_alg».proof.Proof.Gen.ReferenceIdeal.Read
import Idealize.ShloMosaic.Lib.StableHlo.Run
set_option maxRecDepth 16384
/-! The kernel program computes the once- and twice-propagated feature arrays on the host, before its first kernel
    region, by the same operations as the reference: the degree count (a scatter-add of ones at the destinations), its clamp
    below by one and its power −1/2, then twice: scale the rows, gather them at the sources, scatter-add them at the
    destinations, scale the rows again. So at the ideal instance the two buffers, when the first region is entered, hold
    the reference's values of the same argument arrays. The three host stretches are read one at a time: the clamp is a
    called function whose operations transport their values along each buffer's type equation, and is read over arbitrary
    contents of the buffers it finds. -/
noncomputable section
namespace Cert.AxBridge
open Idealize.ShloMosaic Idealize.ShloMosaic.TcCoe Idealize.SL.Sem Idealize.ShloMosaic.StableHlo

/-- The degree count: what the first host stretch leaves in its scatter-add's buffer. -/
theorem deg_eq [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (Cert.KernelIdeal.Gen.V1 m c (Proc.devRef .tc Cert.KernelIdeal.main_v3) : Cert.KernelIdeal.S50000.Idx → EReal) = Cert.ReferenceIdeal.Read.val_main_v3 (F := Ideal) (m ((c.tc : Thread Cert.KernelIdeal.nD Cert.KernelIdeal.τ).loc Cert.KernelIdeal.main_arg9)) := by
  dsimp only [Cert.KernelIdeal.Gen.V1, Cert.KernelIdeal.Gen.V0, Cert.KernelIdeal.Gen.hostOps0]
  after_results_simp
  unfold Cert.ReferenceIdeal.Read.val_main_v3 Cert.ReferenceIdeal.Read.val_main_v2 Cert.ReferenceIdeal.Read.val_main_v1 Cert.ReferenceIdeal.Read.val_main_cst_0 Cert.ReferenceIdeal.Read.val_main_v0 Cert.ReferenceIdeal.Read.val_main_cst
  rfl

/-- The scalar one the clamp is called with: the first stretch's last constant. -/
theorem one_eq [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (Cert.KernelIdeal.Gen.V1 m c (Proc.devRef .tc Cert.KernelIdeal.main_cst_1) : Cert.KernelIdeal.S_.Idx → EReal) = Cert.ReferenceIdeal.Read.val_main_cst_1 (F := Ideal) := by
  dsimp only [Cert.KernelIdeal.Gen.V1, Cert.KernelIdeal.Gen.V0, Cert.KernelIdeal.Gen.hostOps0]
  after_results_simp
  unfold Cert.ReferenceIdeal.Read.val_main_cst_1
  rfl

/-- The called clamp, over any contents of the buffers it finds: the maximum of the broadcast scalar and the degree count. -/
theorem clamp_eq [Cert.KernelIdeal.Facts] (W : Valuation Cert.KernelIdeal.τ Cert.KernelIdeal.sig (Elt Ideal)) :
    @Eq (Cert.KernelIdeal.S50000.Idx → EReal) (StableHlo.after Cert.KernelIdeal.Gen.hostOps0_1 W (Proc.devRef .tc Cert.KernelIdeal.main_v4))
      (maximumf (F := Ideal) (φ := .f32) (broadcastInDim Cert.KernelIdeal.S50000 ![] Cert.KernelIdeal.Gen.bcast_S_S50000 (id (W (Proc.devRef .tc Cert.KernelIdeal.main_cst_1) : Cert.KernelIdeal.S_.Idx → EReal)))
          (W (Proc.devRef .tc Cert.KernelIdeal.main_v3) : Cert.KernelIdeal.S50000.Idx → EReal)) := by
  dsimp only [Cert.KernelIdeal.Gen.hostOps0_1]
  after_results_simp
  rfl

/-- The clamped degree count after the second stretch is the reference's. -/
theorem clamped_eq [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (Cert.KernelIdeal.Gen.V2 m c (Proc.devRef .tc Cert.KernelIdeal.main_v4) : Cert.KernelIdeal.S50000.Idx → EReal) = Cert.ReferenceIdeal.Read.val_main_v4 (F := Ideal) (m ((c.tc : Thread Cert.KernelIdeal.nD Cert.KernelIdeal.τ).loc Cert.KernelIdeal.main_arg9)) := by
  show StableHlo.after Cert.KernelIdeal.Gen.hostOps0_1 (Cert.KernelIdeal.Gen.V1 m c) (Proc.devRef .tc Cert.KernelIdeal.main_v4) = _
  refine (clamp_eq (Cert.KernelIdeal.Gen.V1 m c)).trans ?_
  rw [deg_eq m c, one_eq m c]
  unfold Cert.ReferenceIdeal.Read.val_main_v4 Cert.ReferenceIdeal.Read.val_main_call0_v1 Cert.ReferenceIdeal.Read.val_main_call0_v0
  rfl

set_option maxHeartbeats 4000000 in
/-- The once-propagated features when the first region is entered are the reference's. -/
theorem ax_eq [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (Cert.KernelIdeal.Gen.V3 m c (Proc.devRef .tc Cert.KernelIdeal.main_v21) : Cert.KernelIdeal.S50000x128.Idx → EReal)
      = Cert.ReferenceIdeal.Read.val_main_v21 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  have h4 := clamped_eq m c
  have ha0 : Cert.KernelIdeal.Gen.V2 m c (Proc.devRef .tc Cert.KernelIdeal.main_arg0) = (m ((c.tc : Thread Cert.KernelIdeal.nD Cert.KernelIdeal.τ).loc Cert.KernelIdeal.main_arg0)) :=
    (Cert.KernelIdeal.Gen.V2_of m c Cert.KernelIdeal.main_arg0 (by decide)).trans ((Cert.KernelIdeal.Gen.V1_of m c Cert.KernelIdeal.main_arg0 (by decide)).trans rfl)
  have ha8 : Cert.KernelIdeal.Gen.V2 m c (Proc.devRef .tc Cert.KernelIdeal.main_arg8) = (m ((c.tc : Thread Cert.KernelIdeal.nD Cert.KernelIdeal.τ).loc Cert.KernelIdeal.main_arg8)) :=
    (Cert.KernelIdeal.Gen.V2_of m c Cert.KernelIdeal.main_arg8 (by decide)).trans ((Cert.KernelIdeal.Gen.V1_of m c Cert.KernelIdeal.main_arg8 (by decide)).trans rfl)
  have ha9 : Cert.KernelIdeal.Gen.V2 m c (Proc.devRef .tc Cert.KernelIdeal.main_arg9) = (m ((c.tc : Thread Cert.KernelIdeal.nD Cert.KernelIdeal.τ).loc Cert.KernelIdeal.main_arg9)) :=
    (Cert.KernelIdeal.Gen.V2_of m c Cert.KernelIdeal.main_arg9 (by decide)).trans ((Cert.KernelIdeal.Gen.V1_of m c Cert.KernelIdeal.main_arg9 (by decide)).trans rfl)
  show StableHlo.after Cert.KernelIdeal.Gen.hostOps0_2 (Cert.KernelIdeal.Gen.V2 m c) (Proc.devRef .tc Cert.KernelIdeal.main_v21) = _
  generalize Cert.KernelIdeal.Gen.V2 m c = W at h4 ha0 ha8 ha9 ⊢
  dsimp only [Cert.KernelIdeal.Gen.hostOps0_2]
  after_results_simp
  rw [h4, ha0, ha8, ha9]
  unfold Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_cst_4 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_c_3 Cert.ReferenceIdeal.Read.val_main_v11 Cert.ReferenceIdeal.Read.val_main_v10 Cert.ReferenceIdeal.Read.val_main_c Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_cst_2
  rfl

set_option maxHeartbeats 4000000 in
/-- The twice-propagated features when the first region is entered are the reference's. -/
theorem ax2_eq [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (Cert.KernelIdeal.Gen.V3 m c (Proc.devRef .tc Cert.KernelIdeal.main_v35) : Cert.KernelIdeal.S50000x128.Idx → EReal)
      = Cert.ReferenceIdeal.Read.val_main_v35 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  have h4 := clamped_eq m c
  have ha0 : Cert.KernelIdeal.Gen.V2 m c (Proc.devRef .tc Cert.KernelIdeal.main_arg0) = (m ((c.tc : Thread Cert.KernelIdeal.nD Cert.KernelIdeal.τ).loc Cert.KernelIdeal.main_arg0)) :=
    (Cert.KernelIdeal.Gen.V2_of m c Cert.KernelIdeal.main_arg0 (by decide)).trans ((Cert.KernelIdeal.Gen.V1_of m c Cert.KernelIdeal.main_arg0 (by decide)).trans rfl)
  have ha8 : Cert.KernelIdeal.Gen.V2 m c (Proc.devRef .tc Cert.KernelIdeal.main_arg8) = (m ((c.tc : Thread Cert.KernelIdeal.nD Cert.KernelIdeal.τ).loc Cert.KernelIdeal.main_arg8)) :=
    (Cert.KernelIdeal.Gen.V2_of m c Cert.KernelIdeal.main_arg8 (by decide)).trans ((Cert.KernelIdeal.Gen.V1_of m c Cert.KernelIdeal.main_arg8 (by decide)).trans rfl)
  have ha9 : Cert.KernelIdeal.Gen.V2 m c (Proc.devRef .tc Cert.KernelIdeal.main_arg9) = (m ((c.tc : Thread Cert.KernelIdeal.nD Cert.KernelIdeal.τ).loc Cert.KernelIdeal.main_arg9)) :=
    (Cert.KernelIdeal.Gen.V2_of m c Cert.KernelIdeal.main_arg9 (by decide)).trans ((Cert.KernelIdeal.Gen.V1_of m c Cert.KernelIdeal.main_arg9 (by decide)).trans rfl)
  show StableHlo.after Cert.KernelIdeal.Gen.hostOps0_2 (Cert.KernelIdeal.Gen.V2 m c) (Proc.devRef .tc Cert.KernelIdeal.main_v35) = _
  generalize Cert.KernelIdeal.Gen.V2 m c = W at h4 ha0 ha8 ha9 ⊢
  dsimp only [Cert.KernelIdeal.Gen.hostOps0_2]
  after_results_simp
  rw [h4, ha0, ha8, ha9]
  unfold Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_cst_7 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_6 Cert.ReferenceIdeal.Read.val_main_v25 Cert.ReferenceIdeal.Read.val_main_v24 Cert.ReferenceIdeal.Read.val_main_c_5 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_cst_4 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_c_3 Cert.ReferenceIdeal.Read.val_main_v11 Cert.ReferenceIdeal.Read.val_main_v10 Cert.ReferenceIdeal.Read.val_main_c Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_cst_2
  rfl

end Cert.AxBridge
end
-- ==== Proof.RefLayer.lean ====
/-
  The reference program's result, entry by entry, is the specification's layer in its second spelling: the projection with
  the contraction of the NEGATED once-propagated features added, and the variance taken in TWO passes.

  The two propagated feature arrays (the results of the two gather / scatter-add passes over the edges) are kept as the
  opaque stages 21 and 35 of the generated read of the program; nothing here looks inside them. From there the program is
  read one operation at a time at an index (p, q):
    * the three contractions are sums over k of a row entry (p, k) times a weight entry (k, q);
    * their sum plus the bias at q, times the node scale at p, is the projection h(p, q)           (stage 49);
    * the float sum down the rows starts from the zero word, which denotes 0, so it is Σ_p h(p, q); divided by the
      count word it is the column mean μ(q)                                                          (stages 50, 52);
    * the deviations h(p, q) − μ(q), squared, summed down the rows and divided by the count word, are the two-pass
      variance σ²(q)                                                                                 (stages 55, 59);
    * the result is f(p, q) + max(((h(p, q) − μ(q)) · rsqrt(σ²(q) + ε)) · γ(q) + β(q), 0), the rectifier being the maximum
      with the zero word lifted to the array's shape                                                  (stage 76).
  Every step is the unfolding of one operation at the ideal instance; no algebraic law is used.
-/
import proofs.«158637_j65919158059656_1_alg».proof.Proof.Gen.ReferenceIdeal.Read
import proofs.«158637_j65919158059656_1_alg».proof.Proof.Spec

noncomputable section

namespace Cert.ReferenceIdeal.RefLayer

open Cert.ReferenceIdeal Cert.ReferenceIdeal.Gen Idealize.ShloMosaic Idealize.ShloMosaic.ValueIdx

/-! ## The index functions of the generated reads, at an index given by coordinates -/

/-- A contraction's left operand is read at row p, column k. -/
theorem lidx36_eq (p : Fin 50000) (q k : Fin 128) : Read.lidx_main_v36 (ix2 p q) k = ix2 p k := by
  funext a; match a with | ⟨0, _⟩ => rfl | ⟨1, _⟩ => rfl
theorem lidx38_eq (p : Fin 50000) (q k : Fin 128) : Read.lidx_main_v38 (ix2 p q) k = ix2 p k := by
  funext a; match a with | ⟨0, _⟩ => rfl | ⟨1, _⟩ => rfl
theorem lidx43_eq (p : Fin 50000) (q k : Fin 128) : Read.lidx_main_v43 (ix2 p q) k = ix2 p k := by
  funext a; match a with | ⟨0, _⟩ => rfl | ⟨1, _⟩ => rfl

/-- A contraction's right operand is read at row k, column q. -/
theorem ridx36_eq (p : Fin 50000) (q k : Fin 128) : Read.ridx_main_v36 (ix2 p q) k = ix2 k q := by
  funext a; match a with | ⟨0, _⟩ => rfl | ⟨1, _⟩ => rfl
theorem ridx38_eq (p : Fin 50000) (q k : Fin 128) : Read.ridx_main_v38 (ix2 p q) k = ix2 k q := by
  funext a; match a with | ⟨0, _⟩ => rfl | ⟨1, _⟩ => rfl
theorem ridx43_eq (p : Fin 50000) (q k : Fin 128) : Read.ridx_main_v43 (ix2 p q) k = ix2 k q := by
  funext a; match a with | ⟨0, _⟩ => rfl | ⟨1, _⟩ => rfl

/-- A feature vector lifted to [1,128] and then to [50000,128] is read at its column. -/
theorem vidx_eq (p : Fin 50000) (q : Fin 128) : Read.idx_main_v45 (Read.idx_main_v46 (ix2 p q)) = ix1 q := by
  funext a; match a with | ⟨0, _⟩ => rfl

/-- A [50000,1] column lifted to [50000,128] is read at its row. -/
theorem cidx_eq (p : Fin 50000) (q : Fin 128) : Read.idx_main_v48 (ix2 p q) = ix2 p (0 : Fin 1) := by
  funext a; match a with | ⟨0, _⟩ => rfl | ⟨1, _⟩ => rfl

/-- A sum down the rows reads row k of column q. -/
theorem sidx50_eq (q : Fin 128) (k : Fin 50000) : Read.idx_main_v50 (ix1 q) k = ix2 k q := by
  funext a; match a with | ⟨0, _⟩ => rfl | ⟨1, _⟩ => rfl
theorem sidx57_eq (q : Fin 128) (k : Fin 50000) : Read.idx_main_v57 (ix1 q) k = ix2 k q := by
  funext a; match a with | ⟨0, _⟩ => rfl | ⟨1, _⟩ => rfl

/-- A column statistic lifted to [1,128] and then to [50000,128] is read at its column. -/
theorem midx54_eq (p : Fin 50000) (q : Fin 128) : Read.idx_main_v53 (Read.idx_main_v54 (ix2 p q)) = ix1 q := by
  funext a; match a with | ⟨0, _⟩ => rfl
theorem midx61_eq (p : Fin 50000) (q : Fin 128) : Read.idx_main_v60 (Read.idx_main_v61 (ix2 p q)) = ix1 q := by
  funext a; match a with | ⟨0, _⟩ => rfl
theorem midx67_eq (p : Fin 50000) (q : Fin 128) : Read.idx_main_v66 (Read.idx_main_v67 (ix2 p q)) = ix1 q := by
  funext a; match a with | ⟨0, _⟩ => rfl
theorem midx70_eq (p : Fin 50000) (q : Fin 128) : Read.idx_main_v69 (Read.idx_main_v70 (ix2 p q)) = ix1 q := by
  funext a; match a with | ⟨0, _⟩ => rfl
theorem midx73_eq (p : Fin 50000) (q : Fin 128) : Read.idx_main_v72 (Read.idx_main_v73 (ix2 p q)) = ix1 q := by
  funext a; match a with | ⟨0, _⟩ => rfl

/-! ## The three contractions -/

/-- The features times the first weight matrix. -/
theorem dot36 (x0 : (⟨S50000x128, .f32⟩ : BufTy).Contents (Elt Ideal)) (x2 : (⟨S128x128, .f32⟩ : BufTy).Contents (Elt Ideal)) (p : Fin 50000) (q : Fin 128) :
    Read.val_main_v36 (F := Ideal) x0 x2 (ix2 p q) = Cert.Spec.dot x0 x2 p q := by
  rw [Read.val_main_v36_apply]
  unfold Cert.Spec.dot
  refine Finset.sum_congr rfl fun k _ => ?_
  rw [lidx36_eq, ridx36_eq]

/-- The negated once-propagated features times the second weight matrix. -/
theorem dot38 (x0 : (⟨S50000x128, .f32⟩ : BufTy).Contents (Elt Ideal)) (x3 : (⟨S128x128, .f32⟩ : BufTy).Contents (Elt Ideal)) (x8 x9 : (⟨S800000, .i32⟩ : BufTy).Contents (Elt Ideal)) (p : Fin 50000) (q : Fin 128) :
    Read.val_main_v38 (F := Ideal) x0 x3 x8 x9 (ix2 p q)
      = Cert.Spec.dot (fun i => - Read.val_main_v21 (F := Ideal) x0 x8 x9 i) x3 p q := by
  rw [Read.val_main_v38_apply]
  unfold Cert.Spec.dot
  refine Finset.sum_congr rfl fun k _ => ?_
  rw [lidx38_eq, ridx38_eq, Read.val_main_v37_apply]
  rfl

/-- Twice the twice-propagated features less the features, times the third weight matrix. -/
theorem dot43 (x0 : (⟨S50000x128, .f32⟩ : BufTy).Contents (Elt Ideal)) (x4 : (⟨S128x128, .f32⟩ : BufTy).Contents (Elt Ideal)) (x8 x9 : (⟨S800000, .i32⟩ : BufTy).Contents (Elt Ideal)) (p : Fin 50000) (q : Fin 128) :
    Read.val_main_v43 (F := Ideal) x0 x4 x8 x9 (ix2 p q)
      = Cert.Spec.dot (fun i => Cert.Spec.two * Read.val_main_v35 (F := Ideal) x0 x8 x9 i - x0 i) x4 p q := by
  rw [Read.val_main_v43_apply]
  unfold Cert.Spec.dot
  refine Finset.sum_congr rfl fun k _ => ?_
  rw [lidx43_eq, ridx43_eq, Read.val_main_v42_apply, Read.val_main_v41_apply, Read.val_main_v40_apply,
    Read.val_main_cst_8_apply]
  rfl

/-! ## The stages -/

/-- The combined projection: stage 49 is the specification's `hNeg`, entry by entry. -/
theorem v49_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 : (⟨S128, .f32⟩ : BufTy).Contents (Elt Ideal)) (x8 x9 : (⟨S800000, .i32⟩ : BufTy).Contents (Elt Ideal)) (p : Fin 50000) (q : Fin 128) :
    Read.val_main_v49 (F := Ideal) x0 x1 x2 x3 x4 x5 x8 x9 (ix2 p q)
      = Cert.Spec.hNeg x0 (Read.val_main_v21 (F := Ideal) x0 x8 x9) (Read.val_main_v35 (F := Ideal) x0 x8 x9) x1 x2 x3 x4 x5 p q := by
  rw [Read.val_main_v49_apply, Read.val_main_v47_apply, Read.val_main_v44_apply, Read.val_main_v39_apply,
    dot36, dot38, dot43, Read.val_main_v46_apply, Read.val_main_v45_apply, Read.val_main_v48_apply, vidx_eq, cidx_eq]
  rfl

/-- The column sums of the projection: the float sum starts from the zero word, which is 0. -/
theorem v50_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 : (⟨S128, .f32⟩ : BufTy).Contents (Elt Ideal)) (x8 x9 : (⟨S800000, .i32⟩ : BufTy).Contents (Elt Ideal)) (q : Fin 128) :
    Read.val_main_v50 (F := Ideal) x0 x1 x2 x3 x4 x5 x8 x9 (ix1 q) = Cert.Spec.colSum (Cert.Spec.hNeg x0 (Read.val_main_v21 (F := Ideal) x0 x8 x9) (Read.val_main_v35 (F := Ideal) x0 x8 x9) x1 x2 x3 x4 x5) q := by
  rw [Read.val_main_v50_apply, Read.val_main_cst_9_apply, Ideal.ofBits_def, Ideal.ofBits_zero_f32, zero_add]
  unfold Cert.Spec.colSum
  refine Finset.sum_congr rfl fun k _ => ?_
  rw [sidx50_eq, v49_eq]

/-- The column means. -/
theorem v52_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 : (⟨S128, .f32⟩ : BufTy).Contents (Elt Ideal)) (x8 x9 : (⟨S800000, .i32⟩ : BufTy).Contents (Elt Ideal)) (q : Fin 128) :
    Read.val_main_v52 (F := Ideal) x0 x1 x2 x3 x4 x5 x8 x9 (ix1 q) = Cert.Spec.meanOf (Cert.Spec.hNeg x0 (Read.val_main_v21 (F := Ideal) x0 x8 x9) (Read.val_main_v35 (F := Ideal) x0 x8 x9) x1 x2 x3 x4 x5) q := by
  rw [Read.val_main_v52_apply, v50_eq, Read.val_main_v51_apply, Read.val_main_cst_10_apply]
  rfl

/-- The deviations from the column mean. -/
theorem v55_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 : (⟨S128, .f32⟩ : BufTy).Contents (Elt Ideal)) (x8 x9 : (⟨S800000, .i32⟩ : BufTy).Contents (Elt Ideal)) (p : Fin 50000) (q : Fin 128) :
    Read.val_main_v55 (F := Ideal) x0 x1 x2 x3 x4 x5 x8 x9 (ix2 p q)
      = (Cert.Spec.hNeg x0 (Read.val_main_v21 (F := Ideal) x0 x8 x9) (Read.val_main_v35 (F := Ideal) x0 x8 x9) x1 x2 x3 x4 x5) p q - Cert.Spec.meanOf (Cert.Spec.hNeg x0 (Read.val_main_v21 (F := Ideal) x0 x8 x9) (Read.val_main_v35 (F := Ideal) x0 x8 x9) x1 x2 x3 x4 x5) q := by
  rw [Read.val_main_v55_apply, v49_eq, Read.val_main_v54_apply, Read.val_main_v53_apply, midx54_eq, v52_eq]
  rfl

/-- The column variances, in two passes. -/
theorem v59_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 : (⟨S128, .f32⟩ : BufTy).Contents (Elt Ideal)) (x8 x9 : (⟨S800000, .i32⟩ : BufTy).Contents (Elt Ideal)) (q : Fin 128) :
    Read.val_main_v59 (F := Ideal) x0 x1 x2 x3 x4 x5 x8 x9 (ix1 q) = Cert.Spec.varTwo (Cert.Spec.hNeg x0 (Read.val_main_v21 (F := Ideal) x0 x8 x9) (Read.val_main_v35 (F := Ideal) x0 x8 x9) x1 x2 x3 x4 x5) q := by
  rw [Read.val_main_v59_apply, Read.val_main_v57_apply, Read.val_main_cst_11_apply, Ideal.ofBits_def,
    Ideal.ofBits_zero_f32, zero_add, Read.val_main_v58_apply, Read.val_main_cst_12_apply]
  unfold Cert.Spec.varTwo Cert.Spec.colSum
  have e : ∀ k : Fin 50000, Read.val_main_v56 (F := Ideal) x0 x1 x2 x3 x4 x5 x8 x9 (Read.idx_main_v57 (ix1 q) k)
      = ((Cert.Spec.hNeg x0 (Read.val_main_v21 (F := Ideal) x0 x8 x9) (Read.val_main_v35 (F := Ideal) x0 x8 x9) x1 x2 x3 x4 x5) k q - Cert.Spec.meanOf (Cert.Spec.hNeg x0 (Read.val_main_v21 (F := Ideal) x0 x8 x9) (Read.val_main_v35 (F := Ideal) x0 x8 x9) x1 x2 x3 x4 x5) q) * ((Cert.Spec.hNeg x0 (Read.val_main_v21 (F := Ideal) x0 x8 x9) (Read.val_main_v35 (F := Ideal) x0 x8 x9) x1 x2 x3 x4 x5) k q - Cert.Spec.meanOf (Cert.Spec.hNeg x0 (Read.val_main_v21 (F := Ideal) x0 x8 x9) (Read.val_main_v35 (F := Ideal) x0 x8 x9) x1 x2 x3 x4 x5) q) := by
    intro k
    rw [sidx57_eq, Read.val_main_v56_apply, v55_eq]
    rfl
  rw [Finset.sum_congr rfl fun k _ => e k]
  rfl

/-- The reference's result is the specification's two-pass layer over the two propagated feature arrays. -/
theorem ref_eq (x0 : (⟨S50000x128, .f32⟩ : BufTy).Contents (Elt Ideal)) (x1 : (⟨S50000x1, .f32⟩ : BufTy).Contents (Elt Ideal)) (x2 x3 x4 : (⟨S128x128, .f32⟩ : BufTy).Contents (Elt Ideal)) (x5 x6 x7 : (⟨S128, .f32⟩ : BufTy).Contents (Elt Ideal)) (x8 x9 : (⟨S800000, .i32⟩ : BufTy).Contents (Elt Ideal)) (p : Fin 50000) (q : Fin 128) :
    Read.val_main_v76 (F := Ideal) x0 x1 x2 x3 x4 x5 x6 x7 x8 x9 (ValueIdx.ix2 p q)
      = Cert.Spec.outTwo x0 (Read.val_main_v21 (F := Ideal) x0 x8 x9) (Read.val_main_v35 (F := Ideal) x0 x8 x9) x1 x2 x3 x4 x5 x6 x7 p q := by
  rw [Read.val_main_v76_apply, Read.val_main_v75_apply, Read.val_main_v74_apply, Read.val_main_v71_apply,
    Read.val_main_v68_apply, Read.val_main_v62_apply, v49_eq,
    Read.val_main_v61_apply, Read.val_main_v60_apply, midx61_eq, v52_eq,
    Read.val_main_v67_apply, Read.val_main_v66_apply, midx67_eq, Read.val_main_v65_apply, Read.val_main_v64_apply, v59_eq,
    Read.val_main_v63_apply, Read.val_main_cst_13_apply,
    Read.val_main_v70_apply, Read.val_main_v69_apply, midx70_eq,
    Read.val_main_v73_apply, Read.val_main_v72_apply, midx73_eq,
    Read.val_main_call1_v0_apply, Read.val_main_call1_cst_apply, Ideal.ofBits_def (φ := .f32) (0x00000000#32), Ideal.ofBits_zero_f32]
  rfl

end Cert.ReferenceIdeal.RefLayer

end
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.HostReal.lean ====
/-
  The two propagated feature arrays of the reference are real-valued when the features are.

  The host computes, from the edge list (sources, destinations): the in-degree of every node (a scatter-add of ones into
  zeros), clipped below at 1, raised to the power −1/2 (the node's normalisation); then, twice over, the features times the
  normalisation, gathered at the edges' sources, scatter-added into zeros at the edges' destinations, times the
  normalisation again. "Every entry is the image of a real number" is kept by each step:
    * a constant whose float word has an exponent field other than all ones is a real number;
    * the product, the sum and the maximum of two reals are reals, and a real power of a real is a real
      (the power of the extended reals is the real power on two reals, whatever the base);
    * an entry of a gather of rows is an entry of its operand;
    * an entry of a scatter-add is the operand's entry plus a finite sum of update entries (those whose index names the
      entry's row), and a finite sum of reals is a real;
    * an entry of a broadcast is an entry of its operand.
-/
import proofs.«158637_j65919158059656_1_alg».proof.Proof.Gen.ReferenceIdeal.Read
import proofs.«158637_j65919158059656_1_alg».proof.Proof.Spec
import proofs.«158637_j65919158059656_1_alg».proof.Proof.LibLeadingAxis
import proofs.«158637_j65919158059656_1_alg».proof.Proof.LibERealSum

noncomputable section

namespace Cert.ReferenceIdeal.HostReal

open Cert.ReferenceIdeal Cert.ReferenceIdeal.Gen Idealize.ShloMosaic Idealize.ShloMosaic.ValueIdx
open Idealize.ShloMosaic.LeadingAxis
open Cert.Spec (IsReal)

/-! ## Reals among the extended reals -/

theorem real_mul {a b : EReal} (ha : ∃ r : ℝ, a = r) (hb : ∃ r : ℝ, b = r) : ∃ r : ℝ, a * b = r := by
  obtain ⟨ra, rfl⟩ := ha; obtain ⟨rb, rfl⟩ := hb; exact ⟨ra * rb, (EReal.coe_mul ra rb).symm⟩

theorem real_add {a b : EReal} (ha : ∃ r : ℝ, a = r) (hb : ∃ r : ℝ, b = r) : ∃ r : ℝ, a + b = r := by
  obtain ⟨ra, rfl⟩ := ha; obtain ⟨rb, rfl⟩ := hb; exact ⟨ra + rb, (EReal.coe_add ra rb).symm⟩

theorem real_max {a b : EReal} (ha : ∃ r : ℝ, a = r) (hb : ∃ r : ℝ, b = r) : ∃ r : ℝ, max a b = r := by
  rcases le_total a b with h | h
  · rw [max_eq_right h]; exact hb
  · rw [max_eq_left h]; exact ha

/-- The power of two reals is the real power. -/
theorem real_pow {a b : EReal} (ha : ∃ r : ℝ, a = r) (hb : ∃ r : ℝ, b = r) : ∃ r : ℝ, Ideal.pow a b = r := by
  obtain ⟨ra, rfl⟩ := ha; obtain ⟨rb, rfl⟩ := hb; exact ⟨Real.rpow ra rb, rfl⟩

theorem real_zero : ∃ r : ℝ, (0 : EReal) = r := ⟨0, rfl⟩

theorem real_ite {c : Prop} [Decidable c] {a : EReal} (ha : ∃ r : ℝ, a = r) : ∃ r : ℝ, (if c then a else 0) = r := by
  split
  · exact ha
  · exact real_zero

/-- A finite sum of reals is a real. -/
theorem real_sum {ι : Type} [Fintype ι] (f : ι → EReal) (h : ∀ k, ∃ r : ℝ, f k = r) : ∃ r : ℝ, ∑ k, f k = r := by
  choose g hg using h
  refine ⟨∑ k, g k, ?_⟩
  rw [ERealSum.coe_finset_sum]
  exact Finset.sum_congr rfl fun k _ => hg k

/-- A float word whose exponent field is not all ones denotes a real number. -/
theorem real_ieee (e m : Nat) {w : Nat} (b : BitVec w) (h : (b.extractLsb' m e).toNat ≠ 2 ^ e - 1) :
    ∃ r : ℝ, Ideal.ieee e m b = r := by
  unfold Ideal.ieee
  simp only []
  rw [if_neg h]
  split
  · exact ⟨_, rfl⟩
  · exact ⟨_, rfl⟩

/-- A binary32 word whose exponent field is not all ones denotes a real number. -/
theorem real_word (b : BitVec 32) (h : (b.extractLsb' 23 8).toNat ≠ 2 ^ 8 - 1) : ∃ r : ℝ, Ideal.ofBits .f32 b = r :=
  real_ieee 8 23 b h

/-! ## Arrays of reals -/

theorem isReal_of_ix1 {n : Nat} {x : (⟨1, ![n]⟩ : Shape).Idx → EReal} (h : ∀ a : Fin n, ∃ r : ℝ, x (ix1 a) = r) : IsReal x :=
  fun i => by rw [eq_ix1 i]; exact h _

theorem isReal_of_ix2 {n0 n1 : Nat} {x : (⟨2, ![n0, n1]⟩ : Shape).Idx → EReal}
    (h : ∀ (a : Fin n0) (b : Fin n1), ∃ r : ℝ, x (ix2 a b) = r) : IsReal x :=
  fun i => by rw [eq_ix2 i]; exact h _ _

theorem mul_real {s : Shape} (a b : FVec Ideal s .f32) (ha : IsReal a) (hb : IsReal b) : IsReal (mulf a b) :=
  fun i => real_mul (ha i) (hb i)

/-- The rows gathered at the edges' sources are rows of the operand. -/
theorem gather_rows_real (x : FVec Ideal S50000x128 .f32) (idx : IVec S800000x1 32) (hx : IsReal x) :
    IsReal (Host.gather gather_S50000x128_S800000x1_S800000x128_1_0_n_n_0_1_1128 x idx) :=
  isReal_of_ix2 fun e f => by
    have h := gather_rows_apply (N := 50000) (C := 128) (E := 800000) (by decide)
      gather_S50000x128_S800000x1_S800000x128_1_0_n_n_0_1_1128_wf x idx e f
    obtain ⟨r, hr⟩ := hx (ix2 (clampRow 50000 (by decide) (idx (ix2 e 0))) f)
    exact ⟨r, h.trans hr⟩

/-- A row of the scatter-add is the operand's row plus the update rows whose index names it. -/
theorem scatter_rows_real (x : FVec Ideal S50000x128 .f32) (idx : IVec S800000x1 32) (upd : FVec Ideal S800000x128 .f32)
    (hx : IsReal x) (hu : IsReal upd) :
    IsReal (Host.scatterAdd scatter_S50000x128_S800000x1_S800000x128_1_0_0_1 x idx upd) :=
  isReal_of_ix2 fun n f => by
    have h := scatterAdd_rows_apply (N := 50000) (C := 128) (E := 800000) (φ := .f32)
      scatter_S50000x128_S800000x1_S800000x128_1_0_0_1_wf x idx upd n f
    obtain ⟨r, hr⟩ := real_add (hx (ix2 n f))
      (real_sum (fun e : Fin 800000 => if (idx (ix2 e 0)).toInt = (n.val : Int) then upd (ix2 e f) else 0)
        fun e => real_ite (hu (ix2 e f)))
    exact ⟨r, h.trans hr⟩

/-- An entry of the scatter-add of a vector is the operand's entry plus the updates whose index names it. -/
theorem scatter_vec_real (x : FVec Ideal S50000 .f32) (idx : IVec S800000x1 32) (upd : FVec Ideal S800000 .f32)
    (hx : IsReal x) (hu : IsReal upd) :
    IsReal (Host.scatterAdd scatter_S50000_S800000x1_S800000_n_0_0_1 x idx upd) :=
  isReal_of_ix1 fun n => by
    have h := scatterAdd_vec_apply (N := 50000) (E := 800000) (φ := .f32)
      scatter_S50000_S800000x1_S800000_n_0_0_1_wf x idx upd n
    obtain ⟨r, hr⟩ := real_add (hx (ix1 n))
      (real_sum (fun e : Fin 800000 => if (idx (ix2 e 0)).toInt = (n.val : Int) then upd (ix1 e) else 0)
        fun e => real_ite (hu (ix1 e)))
    exact ⟨r, h.trans hr⟩

/-! ## The normalisation: in-degree, clipped below at 1, to the power −1/2 -/

theorem v0_real : IsReal (Read.val_main_v0 (F := Ideal)) := fun i => by
  rw [Read.val_main_v0_apply, Read.val_main_cst_apply]; exact real_word _ (by decide)

theorem v1_real : IsReal (Read.val_main_v1 (F := Ideal)) := fun i => by
  rw [Read.val_main_v1_apply, Read.val_main_cst_0_apply]; exact real_word _ (by decide)

theorem v3_real (x9 : (⟨S800000, .i32⟩ : BufTy).Contents (Elt Ideal)) : IsReal (Read.val_main_v3 (F := Ideal) x9) :=
  scatter_vec_real _ _ _ v1_real v0_real

theorem v4_real (x9 : (⟨S800000, .i32⟩ : BufTy).Contents (Elt Ideal)) : IsReal (Read.val_main_v4 (F := Ideal) x9) := fun i => by
  rw [Read.val_main_v4_apply]
  refine real_max ?_ (v3_real x9 i)
  rw [Read.val_main_call0_v1_apply, Read.val_main_call0_v0_apply, Read.val_main_cst_1_apply]
  exact real_word _ (by decide)

theorem v6_real (x9 : (⟨S800000, .i32⟩ : BufTy).Contents (Elt Ideal)) : IsReal (Read.val_main_v6 (F := Ideal) x9) := fun i => by
  rw [Read.val_main_v6_apply]
  refine real_pow (v4_real x9 i) ?_
  rw [Read.val_main_v5_apply, Read.val_main_cst_2_apply]
  exact real_word _ (by decide)

theorem v7_real (x9 : (⟨S800000, .i32⟩ : BufTy).Contents (Elt Ideal)) : IsReal (Read.val_main_v7 (F := Ideal) x9) := fun i => by
  rw [Read.val_main_v7_apply]; exact v6_real x9 _

/-- The normalisation lifted along the feature axis (it is lifted four times, each the same operation). -/
theorem v8_real (x9 : (⟨S800000, .i32⟩ : BufTy).Contents (Elt Ideal)) : IsReal (Read.val_main_v8 (F := Ideal) x9) := fun i => by
  rw [Read.val_main_v8_apply]; exact v7_real x9 _
theorem v20_real (x9 : (⟨S800000, .i32⟩ : BufTy).Contents (Elt Ideal)) : IsReal (Read.val_main_v20 (F := Ideal) x9) := fun i => by
  rw [Read.val_main_v20_apply]; exact v7_real x9 _
theorem v22_real (x9 : (⟨S800000, .i32⟩ : BufTy).Contents (Elt Ideal)) : IsReal (Read.val_main_v22 (F := Ideal) x9) := fun i => by
  rw [Read.val_main_v22_apply]; exact v7_real x9 _
theorem v34_real (x9 : (⟨S800000, .i32⟩ : BufTy).Contents (Elt Ideal)) : IsReal (Read.val_main_v34 (F := Ideal) x9) := fun i => by
  rw [Read.val_main_v34_apply]; exact v7_real x9 _

theorem v17_real : IsReal (Read.val_main_v17 (F := Ideal)) := fun i => by
  rw [Read.val_main_v17_apply, Read.val_main_cst_4_apply]; exact real_word _ (by decide)
theorem v31_real : IsReal (Read.val_main_v31 (F := Ideal)) := fun i => by
  rw [Read.val_main_v31_apply, Read.val_main_cst_7_apply]; exact real_word _ (by decide)

/-! ## The two propagation passes -/

/-- The once-propagated features are real when the features are. -/
theorem ax_real (x0 : (⟨S50000x128, .f32⟩ : BufTy).Contents (Elt Ideal)) (x8 x9 : (⟨S800000, .i32⟩ : BufTy).Contents (Elt Ideal))
    (h0 : Cert.Spec.IsReal x0) : Cert.Spec.IsReal (Read.val_main_v21 (F := Ideal) x0 x8 x9) :=
  mul_real _ _
    (scatter_rows_real _ _ _ v17_real (gather_rows_real _ _ (mul_real _ _ h0 (v8_real x9))))
    (v20_real x9)

/-- The twice-propagated features are real when the features are. -/
theorem ax2_real (x0 : (⟨S50000x128, .f32⟩ : BufTy).Contents (Elt Ideal)) (x8 x9 : (⟨S800000, .i32⟩ : BufTy).Contents (Elt Ideal))
    (h0 : Cert.Spec.IsReal x0) : Cert.Spec.IsReal (Read.val_main_v35 (F := Ideal) x0 x8 x9) :=
  mul_real _ _
    (scatter_rows_real _ _ _ v31_real
      (gather_rows_real _ _ (mul_real _ _ (ax_real x0 x8 x9 h0) (v22_real x9))))
    (v34_real x9)

end Cert.ReferenceIdeal.HostReal

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.PreReal.lean ====
/-
  The precondition read back: each float argument passes the test "every entry has absolute value below +∞", so each is
  real-valued.

  The printed predicate is a conjunction (seven `and`s) of eight whole-array tests. Each test reduces, by `and` from the
  constant 1 over all axes, the entrywise comparison of |x| with the +∞ word lifted to x's shape. A conjunction that is 1
  has both conjuncts 1; a reduce by `and` into the one-index result that is 1 met a 1 at every entry; an entry whose
  absolute value compares below +∞ is the image of a real number.
-/
import proofs.«158637_j65919158059656_1_alg».proof.Proof.Gen.Pre_finite_inputs
import proofs.«158637_j65919158059656_1_alg».proof.Proof.Spec
import proofs.«158637_j65919158059656_1_alg».proof.Proof.LibFiniteTest
import Idealize.ShloMosaic.Lib.ReduceAll

noncomputable section

namespace Cert.PreReal

open Idealize.ShloMosaic Cert.Pre_finite_inputs

/-- The result shape of every test has one index. -/
instance : Subsingleton S_.Idx := FiniteTest.subsingleton_scalarIdx

/-- A pointwise `and` of two `i1` arrays is 1 at an index exactly when both are. -/
theorem andi_apply_eq_one {s : Shape} (x y : IVec s 1) (i : s.Idx) : andi x y i = 1#1 ↔ x i = 1#1 ∧ y i = 1#1 :=
  IntOp.andi_eq_one

/-- One array's test: if the reduce by `and` of the entrywise comparison |x| < +∞ is 1, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1) :
    Cert.Spec.IsReal x :=
  fun i => FiniteTest.real_of_test x hb i (Host.reduce_andi_all _ init hr hu j e i)

/-- Under the precondition every float argument is real-valued. -/
theorem pre_real [Cert.Pre_finite_inputs.Facts] (a0 : FVec Ideal Cert.Pre_finite_inputs.S50000x128 .f32)
    (a1 : FVec Ideal Cert.Pre_finite_inputs.S50000x1 .f32) (a2 a3 a4 : FVec Ideal Cert.Pre_finite_inputs.S128x128 .f32)
    (a5 a6 a7 : FVec Ideal Cert.Pre_finite_inputs.S128 .f32) (a8 a9 : IVec Cert.Pre_finite_inputs.S800000 32)
    (h : Cert.Pre_finite_inputs.fn (F := Ideal) a0 a1 a2 a3 a4 a5 a6 a7 a8 a9 = fun _ => 1#1) :
    Cert.Spec.IsReal a0 ∧ Cert.Spec.IsReal a1 ∧ Cert.Spec.IsReal a2 ∧ Cert.Spec.IsReal a3 ∧ Cert.Spec.IsReal a4 ∧
      Cert.Spec.IsReal a5 ∧ Cert.Spec.IsReal a6 ∧ Cert.Spec.IsReal a7 := by
  have h0 := congrFun h ValueIdx.ix0
  dsimp only [fn, fn_part1, fn_part2] at h0
  obtain ⟨h0, e7⟩ := (andi_apply_eq_one _ _ _).1 h0
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨h0, e2⟩ := (andi_apply_eq_one _ _ _).1 h0
  obtain ⟨e0, e1⟩ := (andi_apply_eq_one _ _ _).1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7⟩

end Cert.PreReal

end
-- ==== Proof.LibVariance.lean ====
/-
  The variance of finitely many real numbers, in one pass and in two.

  For real numbers h_p over a finite index set of N ≠ 0 elements with mean μ = (Σ_p h_p)/N,
      Σ_p (h_p − μ)² = Σ_p h_p² − 2μ·Σ_p h_p + N·μ² = Σ_p h_p² − N·μ²,
  so the mean of the squared deviations is the mean of the squares less the squared mean. On the extended reals, with
  the exact quotient by a word that denotes the real N and every entry the image of a real, both spellings are the image
  of that one real number. The hypothesis is needed: at an infinite entry the one-pass form subtracts ⊤ from ⊤ while the
  two-pass form squares ⊤ − ⊤, and the two junk values differ.
-/
import Idealize.ShloMosaic.PureOps.Ideal
import Mathlib.Tactic

open scoped BigOperators

namespace Idealize.ShloMosaic.Variance

/-- On real numbers: the mean of the squared deviations from the mean is the mean of the squares less the squared
    mean, the quotients written as products with 1/N. -/
theorem var_real {ι : Type*} [Fintype ι] (h : ι → ℝ) (N : ℝ) (hcard : (Fintype.card ι : ℝ) = N) (hN : N ≠ 0) :
    (∑ p, (h p - (∑ p, h p) * (1 / N)) * (h p - (∑ p, h p) * (1 / N))) * (1 / N)
      = (∑ p, h p * h p) * (1 / N) - ((∑ p, h p) * (1 / N)) * ((∑ p, h p) * (1 / N)) := by
  set S : ℝ := ∑ p, h p with hS
  have hsq : ∀ p, (h p - S * (1 / N)) * (h p - S * (1 / N))
      = h p * h p - 2 * (S * (1 / N)) * h p + (S * (1 / N)) * (S * (1 / N)) := fun p => by ring
  simp only [hsq, Finset.sum_add_distrib, Finset.sum_sub_distrib, ← Finset.mul_sum, Finset.sum_const, Finset.card_univ,
    nsmul_eq_mul, ← hS, hcard]
  field_simp
  ring

/-- The coercion of the reals into the extended reals commutes with a sum over a finite type. -/
theorem coe_sum {ι : Type*} [Fintype ι] (f : ι → ℝ) : ((∑ p, f p : ℝ) : EReal) = ∑ p, ((f p : ℝ) : EReal) := by
  classical
  refine Finset.induction_on (Finset.univ : Finset ι) (by simp) ?_
  intro a s ha ih
  rw [Finset.sum_insert ha, Finset.sum_insert ha, EReal.coe_add, ih]

/-- On the extended reals, at the ideal instance's exact quotient by a value that is the real N = the number of entries:
    for real entries the two-pass variance is the one-pass variance. -/
theorem var_two_pass_eq_one_pass {ι : Type*} [Fintype ι] (h : ι → ℝ) (cnt : EReal) (N : ℝ) (hcnt : cnt = (N : EReal))
    (hcard : (Fintype.card ι : ℝ) = N) (hN : N ≠ 0) :
    Ideal.div (∑ p, (((h p : ℝ) : EReal) - Ideal.div (∑ p, ((h p : ℝ) : EReal)) cnt)
        * (((h p : ℝ) : EReal) - Ideal.div (∑ p, ((h p : ℝ) : EReal)) cnt)) cnt
      = Ideal.div (∑ p, ((h p : ℝ) : EReal) * ((h p : ℝ) : EReal)) cnt
        - Ideal.div (∑ p, ((h p : ℝ) : EReal)) cnt * Ideal.div (∑ p, ((h p : ℝ) : EReal)) cnt := by
  subst hcnt
  have hm : Ideal.div (∑ p, ((h p : ℝ) : EReal)) (N : EReal) = (((∑ p, h p) * (1 / N) : ℝ) : EReal) := by
    rw [← coe_sum, Ideal.div_coe hN, ← EReal.coe_mul]
  rw [hm]
  simp only [← EReal.coe_sub, ← EReal.coe_mul, ← coe_sum]
  rw [Ideal.div_coe hN, Ideal.div_coe hN, ← EReal.coe_mul, ← EReal.coe_mul, ← EReal.coe_sub, var_real h N hcard hN]

end Idealize.ShloMosaic.Variance
-- ==== Proof.LayerLaw.lean ====
/-
  The two spellings of the layer (Proof/Spec.lean) agree when the features, the propagated features, the node scale,
  the weights and the bias hold real numbers.

  * With real entries every contraction Σ_k x(p,k)·W(k,q) is the image of the real sum, so subtracting Σ_k a·W₂ and
    adding Σ_k (−a)·W₂ are the same real number: both projections are the image of ONE real table.
  * On a real table h the column mean μ = (Σ_p h)/N is real, and Σ_p (h_p − μ)² = Σ_p h_p² − 2μ·Σ_p h_p + N·μ²
    = Σ_p h_p² − N·μ²; dividing by N, the two-pass variance is the one-pass variance.
  The batch-norm scale and shift may be any extended reals: they enter both sides the same way.
-/
import proofs.«158637_j65919158059656_1_alg».proof.Proof.Spec
import proofs.«158637_j65919158059656_1_alg».proof.Proof.LibERealSum
import proofs.«158637_j65919158059656_1_alg».proof.Proof.LibVariance
import Mathlib.Tactic

noncomputable section

namespace Cert.Spec

open Idealize.ShloMosaic Idealize.ShloMosaic.ValueIdx Idealize.ShloMosaic.ERealSum
open scoped BigOperators

/-- The word 0x40000000 denotes the real 2. -/
theorem two_eq : two = ((2 : ℝ) : EReal) := by
  unfold two; simp [Ideal.ofBits, Ideal.ieee, -EReal.coe_mul]; norm_num

/-- The word 0x47435000 denotes the real 50000. -/
theorem cnt_eq : cnt = ((50000 : ℝ) : EReal) := by
  unfold cnt; simp [Ideal.ofBits, Ideal.ieee, -EReal.coe_mul]; norm_num

/-- A contraction of real arrays is the image of the real contraction. -/
theorem dot_coe (x : (⟨2, ![50000, 128]⟩ : Shape).Idx → ℝ) (w : (⟨2, ![128, 128]⟩ : Shape).Idx → ℝ) (p : Fin 50000) (q : Fin 128) :
    dot (fun i => ((x i : ℝ) : EReal)) (fun i => ((w i : ℝ) : EReal)) p q
      = ((∑ k : Fin 128, x (ix2 p k) * w (ix2 k q) : ℝ) : EReal) := by
  unfold dot
  simp only [← EReal.coe_mul, ← coe_finset_sum]

/-- The combined projection on real arrays, as a real table. -/
def hReal (f a a2 : (⟨2, ![50000, 128]⟩ : Shape).Idx → ℝ) (s : (⟨2, ![50000, 1]⟩ : Shape).Idx → ℝ)
    (w1 w2 w3 : (⟨2, ![128, 128]⟩ : Shape).Idx → ℝ) (b : (⟨1, ![128]⟩ : Shape).Idx → ℝ) (p : Fin 50000) (q : Fin 128) : ℝ :=
  ((((∑ k : Fin 128, f (ix2 p k) * w1 (ix2 k q)) - (∑ k : Fin 128, a (ix2 p k) * w2 (ix2 k q)))
      + (∑ k : Fin 128, (2 * a2 (ix2 p k) - f (ix2 p k)) * w3 (ix2 k q))) + b (ix1 q)) * s (ix2 p 0)

section Real

variable (f a a2 : (⟨2, ![50000, 128]⟩ : Shape).Idx → ℝ) (s : (⟨2, ![50000, 1]⟩ : Shape).Idx → ℝ)
  (w1 w2 w3 : (⟨2, ![128, 128]⟩ : Shape).Idx → ℝ) (b : (⟨1, ![128]⟩ : Shape).Idx → ℝ)

/-- Twice a real less a real, in the printed spelling, is the image of the real expression. -/
theorem mix_coe : (fun i => two * ((a2 i : ℝ) : EReal) - ((f i : ℝ) : EReal)) = fun i => (((2 * a2 i - f i : ℝ)) : EReal) := by
  funext i; rw [two_eq, ← EReal.coe_mul, ← EReal.coe_sub]

/-- The subtracting projection of real arrays is the image of the real table. -/
theorem hSub_coe (p : Fin 50000) (q : Fin 128) :
    hSub (fun i => ((f i : ℝ) : EReal)) (fun i => ((a i : ℝ) : EReal)) (fun i => ((a2 i : ℝ) : EReal)) (fun i => ((s i : ℝ) : EReal))
        (fun i => ((w1 i : ℝ) : EReal)) (fun i => ((w2 i : ℝ) : EReal)) (fun i => ((w3 i : ℝ) : EReal)) (fun i => ((b i : ℝ) : EReal)) p q
      = ((hReal f a a2 s w1 w2 w3 b p q : ℝ) : EReal) := by
  unfold hSub hReal
  rw [mix_coe, dot_coe, dot_coe, dot_coe]
  simp only [← EReal.coe_sub, ← EReal.coe_add, ← EReal.coe_mul]

/-- The negated-operand projection of real arrays is the image of the SAME real table. -/
theorem hNeg_coe (p : Fin 50000) (q : Fin 128) :
    hNeg (fun i => ((f i : ℝ) : EReal)) (fun i => ((a i : ℝ) : EReal)) (fun i => ((a2 i : ℝ) : EReal)) (fun i => ((s i : ℝ) : EReal))
        (fun i => ((w1 i : ℝ) : EReal)) (fun i => ((w2 i : ℝ) : EReal)) (fun i => ((w3 i : ℝ) : EReal)) (fun i => ((b i : ℝ) : EReal)) p q
      = ((hReal f a a2 s w1 w2 w3 b p q : ℝ) : EReal) := by
  unfold hNeg hReal
  have e : (fun i => - ((a i : ℝ) : EReal)) = fun i => (((- a i : ℝ)) : EReal) := by funext i; rw [EReal.coe_neg]
  rw [mix_coe, e, dot_coe, dot_coe, dot_coe]
  simp only [← EReal.coe_sub, ← EReal.coe_add, ← EReal.coe_mul]
  congr 3
  simp only [neg_mul, Finset.sum_neg_distrib, sub_eq_add_neg]

end Real

/-- On real numbers: the mean of the squared deviations from the mean is the mean of the squares less the squared mean. -/
theorem var_real (h : Fin 50000 → ℝ) :
    (∑ p, (h p - (∑ p, h p) * (1 / 50000)) * (h p - (∑ p, h p) * (1 / 50000))) * (1 / 50000)
      = (∑ p, h p * h p) * (1 / 50000) - ((∑ p, h p) * (1 / 50000)) * ((∑ p, h p) * (1 / 50000)) := by
  exact Idealize.ShloMosaic.Variance.var_real h 50000 (by simp) (by norm_num)

section Table

variable (H : Fin 50000 → Fin 128 → ℝ)

/-- The column sum of a real table is the image of the real sum. -/
theorem colSum_coe (q : Fin 128) : colSum (fun p q => ((H p q : ℝ) : EReal)) q = ((∑ p, H p q : ℝ) : EReal) := by
  unfold colSum; rw [coe_finset_sum]

/-- The column mean of a real table is the image of the real mean. -/
theorem meanOf_coe (q : Fin 128) : meanOf (fun p q => ((H p q : ℝ) : EReal)) q = (((∑ p, H p q) * (1 / 50000) : ℝ) : EReal) := by
  unfold meanOf
  rw [colSum_coe, cnt_eq, Ideal.div_coe (by norm_num : (50000 : ℝ) ≠ 0), ← EReal.coe_mul]

/-- On a real table the one-pass and the two-pass variances are the same number. -/
theorem varOne_eq_varTwo (q : Fin 128) :
    varOne (fun p q => ((H p q : ℝ) : EReal)) q = varTwo (fun p q => ((H p q : ℝ) : EReal)) q := by
  unfold varOne varTwo
  rw [meanOf_coe]
  have e1 : (fun p q => ((H p q : ℝ) : EReal) * ((H p q : ℝ) : EReal)) = fun p q => (((H p q * H p q : ℝ)) : EReal) := by
    funext p q; rw [EReal.coe_mul]
  have e2 : (fun p q' => (((H p q' : ℝ) : EReal) - meanOf (fun p q => ((H p q : ℝ) : EReal)) q')
        * (((H p q' : ℝ) : EReal) - meanOf (fun p q => ((H p q : ℝ) : EReal)) q'))
      = fun p q' => ((((H p q' - (∑ p, H p q') * (1 / 50000)) * (H p q' - (∑ p, H p q') * (1 / 50000)) : ℝ)) : EReal) := by
    funext p q'; rw [meanOf_coe, ← EReal.coe_sub, ← EReal.coe_mul]
  rw [e1, e2, colSum_coe, colSum_coe, cnt_eq, Ideal.div_coe (by norm_num : (50000 : ℝ) ≠ 0), Ideal.div_coe (by norm_num : (50000 : ℝ) ≠ 0),
    ← EReal.coe_mul, ← EReal.coe_mul, ← EReal.coe_mul, ← EReal.coe_sub, var_real (fun p => H p q)]

end Table

/-- An array of reals is the pointwise image of a real array. -/
theorem IsReal.exists_coe {ι : Type} {x : ι → EReal} (h : IsReal x) : ∃ x' : ι → ℝ, x = fun i => ((x' i : ℝ) : EReal) := by
  choose x' hx using h
  exact ⟨x', funext hx⟩

/-- THE LAW: with real features, propagated features, node scale, weights and bias, the layer with the subtracting
    projection and the one-pass variance IS the layer with the negated-operand projection and the two-pass variance. -/
theorem outOne_eq_outTwo (f a a2 : ArrN) (s : ArrN1) (w1 w2 w3 : ArrW) (b g be : ArrC)
    (hf : IsReal f) (ha : IsReal a) (ha2 : IsReal a2) (hs : IsReal s) (hw1 : IsReal w1) (hw2 : IsReal w2) (hw3 : IsReal w3)
    (hb : IsReal b) (p : Fin 50000) (q : Fin 128) :
    outOne f a a2 s w1 w2 w3 b g be p q = outTwo f a a2 s w1 w2 w3 b g be p q := by
  obtain ⟨f', rfl⟩ := hf.exists_coe
  obtain ⟨a', rfl⟩ := ha.exists_coe
  obtain ⟨a2', rfl⟩ := ha2.exists_coe
  obtain ⟨s', rfl⟩ := hs.exists_coe
  obtain ⟨w1', rfl⟩ := hw1.exists_coe
  obtain ⟨w2', rfl⟩ := hw2.exists_coe
  obtain ⟨w3', rfl⟩ := hw3.exists_coe
  obtain ⟨b', rfl⟩ := hb.exists_coe
  have hS : hSub (fun i => ((f' i : ℝ) : EReal)) (fun i => ((a' i : ℝ) : EReal)) (fun i => ((a2' i : ℝ) : EReal)) (fun i => ((s' i : ℝ) : EReal))
      (fun i => ((w1' i : ℝ) : EReal)) (fun i => ((w2' i : ℝ) : EReal)) (fun i => ((w3' i : ℝ) : EReal)) (fun i => ((b' i : ℝ) : EReal))
      = fun p q => ((hReal f' a' a2' s' w1' w2' w3' b' p q : ℝ) : EReal) := by
    funext p q; exact hSub_coe f' a' a2' s' w1' w2' w3' b' p q
  have hN : hNeg (fun i => ((f' i : ℝ) : EReal)) (fun i => ((a' i : ℝ) : EReal)) (fun i => ((a2' i : ℝ) : EReal)) (fun i => ((s' i : ℝ) : EReal))
      (fun i => ((w1' i : ℝ) : EReal)) (fun i => ((w2' i : ℝ) : EReal)) (fun i => ((w3' i : ℝ) : EReal)) (fun i => ((b' i : ℝ) : EReal))
      = fun p q => ((hReal f' a' a2' s' w1' w2' w3' b' p q : ℝ) : EReal) := by
    funext p q; exact hNeg_coe f' a' a2' s' w1' w2' w3' b' p q
  unfold outOne outTwo
  rw [hS, hN, varOne_eq_varTwo]

end Cert.Spec

end
-- ==== Proof.lean ====
/-
  A graph layer — two sparse propagation passes on the host, then the dense combine with column statistics and the
  normalise / rectify / residual step as two tiled kernels — against its plain reference, on the extended reals.

  Both programs propagate the features twice on the host by the same operations (degree count, clamp at 1, power −1/2,
  gather at the edge sources, scatter-add at the edge destinations, scale), so they enter the dense part with the same
  arrays a and a₂. The tiled program then computes, 2000 rows at a time over 25 tiles,
      h = (f·W₁ − a·W₂ + (2a₂ − f)·W₃ + b) · s,
  accumulates Σ h and Σ h² down the columns in two rows carried from tile to tile, and at the last tile stores
  μ = Σh / N and σ² = Σh² / N − μ²; a second pass stores f + max((h − μ)·(σ² + ε)^(−1/2)·γ + β, 0). The reference
  writes h with the middle product as (−a)·W₂ added, takes μ = mean h and σ² = mean (h − μ)², and normalises the same way.
  The two agree on real inputs (Proof/LayerLaw.lean): with real entries both projections are one real table, on which
  the one-pass and two-pass variances coincide. The precondition makes every float argument real (Proof/PreReal.lean),
  and the propagated features are then real too (Proof/HostReal.lean).

  The frames: each kernel region is entered with its windows' arrays split out of the held buffers and left with them
  put back; the composed run (Proof/KI/Run.lean, and its twin at the word-level instance) ends with every buffer
  named, an argument written by no item. The idealization rewrote nothing, so it preserves trivially.
-/
import proofs.«158637_j65919158059656_1_alg».proof.Defs
import proofs.«158637_j65919158059656_1_alg».proof.Proof.Gen.Kernel
import proofs.«158637_j65919158059656_1_alg».proof.Proof.Gen.KernelIdeal
import proofs.«158637_j65919158059656_1_alg».proof.Proof.Gen.ReferenceIdeal
import proofs.«158637_j65919158059656_1_alg».proof.Proof.Gen.ReferenceIdeal.Run
import proofs.«158637_j65919158059656_1_alg».proof.Proof.Gen.ReferenceIdeal.Read
import proofs.«158637_j65919158059656_1_alg».proof.Proof.Gen.Pre_finite_inputs
import proofs.«158637_j65919158059656_1_alg».proof.Proof.K.RunEnds
import proofs.«158637_j65919158059656_1_alg».proof.Proof.KI.RunEnds
import proofs.«158637_j65919158059656_1_alg».proof.Proof.KI.KernelValue
import proofs.«158637_j65919158059656_1_alg».proof.Proof.AxBridge
import proofs.«158637_j65919158059656_1_alg».proof.Proof.RefLayer
import proofs.«158637_j65919158059656_1_alg».proof.Proof.HostReal
import proofs.«158637_j65919158059656_1_alg».proof.Proof.PreReal
import proofs.«158637_j65919158059656_1_alg».proof.Proof.LayerLaw
import Idealize.ShloMosaic.Adequacy
import Idealize.ShloMosaic.Init

noncomputable section

namespace Cert.Proof

open Idealize.ShloMosaic Idealize.ShloMosaic.TcCoe Idealize.SL.Sem

/-- The word-level program runs to the end with its arguments unchanged. -/
theorem frame_k : Cert.frame_Kernel := fun m ρ _ => Cert.Kernel.Run.frame m ρ

/-- So does the program read at the ideal instance. -/
theorem frame_ki : Cert.frame_KernelIdeal := fun m ρ _ => Cert.KernelIdeal.Run.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: the tiled program's is
    the layer in its subtracting, one-pass spelling of the arguments, the reference's the layer in its negating,
    two-pass spelling, and on the real inputs the precondition grants the two are one function. -/
theorem algebraic : Cert.algebraic_KernelIdeal_ReferenceIdeal := by
  intro m ρ m' ρ' hpre hagree
  refine ⟨fun c => Cert.KernelIdeal.Run.B6 m c (Proc.devRef .tc Cert.KernelIdeal.main_v39), ?_, ?_⟩
  · exact (θ_run Cert.KernelIdeal.defs _ _).mono (fun r h c =>
      ⟨h c _ (Cert.KernelIdeal.Run.mem_uc Cert.KernelIdeal.main_v39 (by decide)),
       (h c _ (Cert.KernelIdeal.Run.mem_uc Cert.KernelIdeal.main_arg0 (by decide))).trans (Cert.KernelIdeal.Run.B6_arg0 m c),
       (h c _ (Cert.KernelIdeal.Run.mem_uc Cert.KernelIdeal.main_arg1 (by decide))).trans (Cert.KernelIdeal.Run.B6_arg1 m c),
       (h c _ (Cert.KernelIdeal.Run.mem_uc Cert.KernelIdeal.main_arg2 (by decide))).trans (Cert.KernelIdeal.Run.B6_arg2 m c),
       (h c _ (Cert.KernelIdeal.Run.mem_uc Cert.KernelIdeal.main_arg3 (by decide))).trans (Cert.KernelIdeal.Run.B6_arg3 m c),
       (h c _ (Cert.KernelIdeal.Run.mem_uc Cert.KernelIdeal.main_arg4 (by decide))).trans (Cert.KernelIdeal.Run.B6_arg4 m c),
       (h c _ (Cert.KernelIdeal.Run.mem_uc Cert.KernelIdeal.main_arg5 (by decide))).trans (Cert.KernelIdeal.Run.B6_arg5 m c),
       (h c _ (Cert.KernelIdeal.Run.mem_uc Cert.KernelIdeal.main_arg6 (by decide))).trans (Cert.KernelIdeal.Run.B6_arg6 m c),
       (h c _ (Cert.KernelIdeal.Run.mem_uc Cert.KernelIdeal.main_arg7 (by decide))).trans (Cert.KernelIdeal.Run.B6_arg7 m c),
       (h c _ (Cert.KernelIdeal.Run.mem_uc Cert.KernelIdeal.main_arg8 (by decide))).trans (Cert.KernelIdeal.Run.B6_arg8 m c),
       (h c _ (Cert.KernelIdeal.Run.mem_uc Cert.KernelIdeal.main_arg9 (by decide))).trans (Cert.KernelIdeal.Run.B6_arg9 m c)⟩)
      (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    obtain ⟨r0, r1, r2, r3, r4, r5, -, -⟩ := Cert.PreReal.pre_real _ _ _ _ _ _ _ _ _ _ (hpre c)
    obtain ⟨e0, e1, e2, e3, e4, e5, e6, e7, e8, e9⟩ := hagree c
    rw [Cert.ReferenceIdeal.Read.val_main_v76_eq, e0, e1, e2, e3, e4, e5, e6, e7, e8, e9]
    funext i
    obtain ⟨p, q, rfl⟩ : ∃ (p : Fin 50000) (q : Fin 128), i = ValueIdx.ix2 p q := ⟨i 0, i 1, ValueIdx.eq_ix2 i⟩
    rw [Cert.ReferenceIdeal.RefLayer.ref_eq]
    refine Eq.trans ?_ (Cert.KernelIdeal.Run.kernel_value m c p q).symm
    rw [show Cert.KernelIdeal.Run.B3 m c (Proc.devRef .tc Cert.KernelIdeal.main_v21) = _ from Cert.AxBridge.ax_eq m c,
      show Cert.KernelIdeal.Run.B3 m c (Proc.devRef .tc Cert.KernelIdeal.main_v35) = _ from Cert.AxBridge.ax2_eq m c]
    exact (Cert.Spec.outOne_eq_outTwo _ _ _ _ _ _ _ _ _ _ r0
      (Cert.ReferenceIdeal.HostReal.ax_real _ _ _ r0) (Cert.ReferenceIdeal.HostReal.ax2_real _ _ _ r0) r1 r2 r3 r4 r5 p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
